-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S98304x1 : Shape := ⟨2, ![98304, 1]⟩
abbrev S2x1572864 : Shape := ⟨2, ![2, 1572864]⟩
abbrev S1572864 : Shape := ⟨1, ![1572864]⟩
abbrev S98304 : Shape := ⟨1, ![98304]⟩
abbrev S64x1 : Shape := ⟨2, ![64, 1]⟩
abbrev S_ : Shape := ⟨0, ![]⟩

class Facts : Prop where
  bcast_S_S98304x1 : S_.BroadcastsInDim S98304x1 (![] : Fin 0 → Fin S98304x1.rank)
  reducesTo_S98304x1_S_d0_1 : S98304x1.ReducesTo [0, 1] S_
  h_S_ : 0 < S_.numel
  bcast_S_S1572864 : S_.BroadcastsInDim S1572864 (![] : Fin 0 → Fin S1572864.rank)
  reducesTo_S1572864_S_d0 : S1572864.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg6 : FVec F S64x1 .f32) (main_arg7 : FVec F S64x1 .f32) (main_arg8 : FVec F S64x1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S98304x1 .f32) (main_arg1 : FVec F S98304x1 .f32) (main_arg2 : IVec S2x1572864 32) (main_arg3 : FVec F S1572864 .f32) (main_arg4 : IVec S98304 32) (main_arg5 : FVec F S64x1 .f32) (main_arg6 : FVec F S64x1 .f32) (main_arg7 : FVec F S64x1 .f32) (main_arg8 : FVec F S64x1 .f32) : IVec S_ 1 :=
  let main_v0 : FVec F S98304x1 .f32 := Host.absf main_arg0
  let main_cst : FVec F S_ .f32 := constant S_ .f32 0x7F800000#32
  let main_v1 : FVec F S98304x1 .f32 := broadcastInDim S98304x1 ![] bcast_S_S98304x1 main_cst
  let main_v2 : IVec S98304x1 1 := cmpf .olt main_v0 main_v1
  let main_c : IVec S_ 1 := constantI S_ 1 1#1
  let main_v3 : IVec S_ 1 := (fun x v => Host.reduce IntOp.andi x v reducesTo_S98304x1_S_d0_1 h_S_) main_v2 main_c
  let main_v4 : FVec F S98304x1 .f32 := Host.absf main_arg1
  let main_cst_0 : FVec F S_ .f32 := constant S_ .f32 0x7F800000#32
  let main_v5 : FVec F S98304x1 .f32 := broadcastInDim S98304x1 ![] bcast_S_S98304x1 main_cst_0
  let main_v6 : IVec S98304x1 1 := cmpf .olt main_v4 main_v5
  let main_c_1 : IVec S_ 1 := constantI S_ 1 1#1
  let main_v7 : IVec S_ 1 := (fun x v => Host.reduce IntOp.andi x v reducesTo_S98304x1_S_d0_1 h_S_) main_v6 main_c_1
  let main_v8 : IVec S_ 1 := andi main_v3 main_v7
  let main_v9 : FVec F S1572864 .f32 := Host.absf main_arg3
  let main_cst_2 : FVec F S_ .f32 := constant S_ .f32 0x7F800000#32
  let main_v10 : FVec F S1572864 .f32 := broadcastInDim S1572864 ![] bcast_S_S1572864 main_cst_2
  let main_v11 : IVec S1572864 1 := cmpf .olt main_v9 main_v10
  let main_c_3 : IVec S_ 1 := constantI S_ 1 1#1
  let main_v12 : IVec S_ 1 := (fun x v => Host.reduce IntOp.andi x v reducesTo_S1572864_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_arg7 main_arg8 main_v13 main_v16
-- ==== Kernel.lean ====
abbrev S98304x1 : Shape := ⟨2, ![98304, 1]⟩
abbrev S2x1572864 : Shape := ⟨2, ![2, 1572864]⟩
abbrev S1572864 : Shape := ⟨1, ![1572864]⟩
abbrev S98304 : Shape := ⟨1, ![98304]⟩
abbrev S64x1 : Shape := ⟨2, ![64, 1]⟩
abbrev S1x1572864 : Shape := ⟨2, ![1, 1572864]⟩
abbrev S_ : Shape := ⟨0, ![]⟩
abbrev S1572864x1 : Shape := ⟨2, ![1572864, 1]⟩
abbrev S1572864x2 : Shape := ⟨2, ![1572864, 2]⟩
abbrev S98304x4 : Shape := ⟨2, ![98304, 4]⟩
abbrev S1x64 : Shape := ⟨2, ![1, 64]⟩
abbrev S4x64 : Shape := ⟨2, ![4, 64]⟩
abbrev S98304x64 : Shape := ⟨2, ![98304, 64]⟩
abbrev S2048x4 : Shape := ⟨2, ![2048, 4]⟩
abbrev S2048x64 : Shape := ⟨2, ![2048, 64]⟩
abbrev S2048x1 : Shape := ⟨2, ![2048, 1]⟩
abbrev S98304x64x1 : Shape := ⟨3, ![98304, 64, 1]⟩
abbrev S98304x64x2 : Shape := ⟨3, ![98304, 64, 2]⟩

abbrev nBuf : Space → Nat
  | .hbm => 96
  | .vmem => 23
  | .smem => 0
  | _ => 0

abbrev bufTy : (tb : Table) → Fin (tcTables nBuf tb) → BufTy
  | .hbm, ⟨0, _⟩ => ⟨S98304x1, .f32⟩
  | .hbm, ⟨1, _⟩ => ⟨S98304x1, .f32⟩
  | .hbm, ⟨2, _⟩ => ⟨S2x1572864, .i32⟩
  | .hbm, ⟨3, _⟩ => ⟨S1572864, .f32⟩
  | .hbm, ⟨4, _⟩ => ⟨S98304, .i32⟩
  | .hbm, ⟨5, _⟩ => ⟨S64x1, .f32⟩
  | .hbm, ⟨6, _⟩ => ⟨S64x1, .f32⟩
  | .hbm, ⟨7, _⟩ => ⟨S64x1, .f32⟩
  | .hbm, ⟨8, _⟩ => ⟨S64x1, .f32⟩
  | .hbm, ⟨9, _⟩ => ⟨S1x1572864, .i32⟩
  | .hbm, ⟨10, _⟩ => ⟨S1572864, .i32⟩
  | .hbm, ⟨11, _⟩ => ⟨S1x1572864, .i32⟩
  | .hbm, ⟨12, _⟩ => ⟨S1572864, .i32⟩
  | .hbm, ⟨13, _⟩ => ⟨S_, .i32⟩
  | .hbm, ⟨14, _⟩ => ⟨S1572864, .i32⟩
  | .hbm, ⟨15, _⟩ => ⟨S1572864, .i1⟩
  | .hbm, ⟨16, _⟩ => ⟨S_, .i32⟩
  | .hbm, ⟨17, _⟩ => ⟨S1572864, .i32⟩
  | .hbm, ⟨18, _⟩ => ⟨S1572864, .i32⟩
  | .hbm, ⟨19, _⟩ => ⟨S1572864, .i32⟩
  | .hbm, ⟨20, _⟩ => ⟨S1572864x1, .i32⟩
  | .hbm, ⟨21, _⟩ => ⟨S1572864, .i32⟩
  | .hbm, ⟨22, _⟩ => ⟨S_, .i32⟩
  | .hbm, ⟨23, _⟩ => ⟨S1572864, .i32⟩
  | .hbm, ⟨24, _⟩ => ⟨S1572864, .i1⟩
  | .hbm, ⟨25, _⟩ => ⟨S_, .i32⟩
  | .hbm, ⟨26, _⟩ => ⟨S1572864, .i32⟩
  | .hbm, ⟨27, _⟩ => ⟨S1572864, .i32⟩
  | .hbm, ⟨28, _⟩ => ⟨S1572864, .i32⟩
  | .hbm, ⟨29, _⟩ => ⟨S1572864x1, .i32⟩
  | .hbm, ⟨30, _⟩ => ⟨S1572864, .i32⟩
  | .hbm, ⟨31, _⟩ => ⟨S1572864, .i1⟩
  | .hbm, ⟨32, _⟩ => ⟨S1572864, .f32⟩
  | .hbm, ⟨33, _⟩ => ⟨S_, .i32⟩
  | .hbm, ⟨34, _⟩ => ⟨S1572864, .i32⟩
  | .hbm, ⟨35, _⟩ => ⟨S1572864, .i1⟩
  | .hbm, ⟨36, _⟩ => ⟨S_, .i32⟩
  | .hbm, ⟨37, _⟩ => ⟨S1572864, .i32⟩
  | .hbm, ⟨38, _⟩ => ⟨S1572864, .i32⟩
  | .hbm, ⟨39, _⟩ => ⟨S1572864, .i32⟩
  | .hbm, ⟨40, _⟩ => ⟨S_, .i32⟩
  | .hbm, ⟨41, _⟩ => ⟨S1572864, .i32⟩
  | .hbm, ⟨42, _⟩ => ⟨S1572864, .i32⟩
  | .hbm, ⟨43, _⟩ => ⟨S1572864x1, .i32⟩
  | .hbm, ⟨44, _⟩ => ⟨S1572864x1, .i32⟩
  | .hbm, ⟨45, _⟩ => ⟨S1572864x2, .i32⟩
  | .hbm, ⟨46, _⟩ => ⟨S1572864, .f32⟩
  | .hbm, ⟨47, _⟩ => ⟨S_, .i32⟩
  | .hbm, ⟨48, _⟩ => ⟨S1572864, .i32⟩
  | .hbm, ⟨49, _⟩ => ⟨S1572864, .i1⟩
  | .hbm, ⟨50, _⟩ => ⟨S_, .i32⟩
  | .hbm, ⟨51, _⟩ => ⟨S1572864, .i32⟩
  | .hbm, ⟨52, _⟩ => ⟨S1572864, .i32⟩
  | .hbm, ⟨53, _⟩ => ⟨S1572864, .i32⟩
  | .hbm, ⟨54, _⟩ => ⟨S_, .i32⟩
  | .hbm, ⟨55, _⟩ => ⟨S1572864, .i32⟩
  | .hbm, ⟨56, _⟩ => ⟨S1572864, .i32⟩
  | .hbm, ⟨57, _⟩ => ⟨S1572864x1, .i32⟩
  | .hbm, ⟨58, _⟩ => ⟨S1572864x1, .i32⟩
  | .hbm, ⟨59, _⟩ => ⟨S1572864x2, .i32⟩
  | .hbm, ⟨60, _⟩ => ⟨S1572864, .f32⟩
  | .hbm, ⟨61, _⟩ => ⟨S1572864, .f32⟩
  | .hbm, ⟨62, _⟩ => ⟨S1572864, .f32⟩
  | .hbm, ⟨63, _⟩ => ⟨S1572864, .f32⟩
  | .hbm, ⟨64, _⟩ => ⟨S1572864, .f32⟩
  | .hbm, ⟨65, _⟩ => ⟨S_, .f32⟩
  | .hbm, ⟨66, _⟩ => ⟨S98304, .f32⟩
  | .hbm, ⟨67, _⟩ => ⟨S1572864x1, .i32⟩
  | .hbm, ⟨68, _⟩ => ⟨S98304, .f32⟩
  | .hbm, ⟨69, _⟩ => ⟨S_, .f32⟩
  | .hbm, ⟨70, _⟩ => ⟨S98304, .f32⟩
  | .hbm, ⟨71, _⟩ => ⟨S1572864x1, .i32⟩
  | .hbm, ⟨72, _⟩ => ⟨S98304, .f32⟩
  | .hbm, ⟨73, _⟩ => ⟨S_, .f32⟩
  | .hbm, ⟨74, _⟩ => ⟨S98304, .f32⟩
  | .hbm, ⟨75, _⟩ => ⟨S1572864x1, .i32⟩
  | .hbm, ⟨76, _⟩ => ⟨S98304, .f32⟩
  | .hbm, ⟨77, _⟩ => ⟨S_, .f32⟩
  | .hbm, ⟨78, _⟩ => ⟨S98304, .f32⟩
  | .hbm, ⟨79, _⟩ => ⟨S1572864x1, .i32⟩
  | .hbm, ⟨80, _⟩ => ⟨S98304, .f32⟩
  | .hbm, ⟨81, _⟩ => ⟨S98304x1, .f32⟩
  | .hbm, ⟨82, _⟩ => ⟨S98304x1, .f32⟩
  | .hbm, ⟨83, _⟩ => ⟨S98304x1, .f32⟩
  | .hbm, ⟨84, _⟩ => ⟨S98304x1, .f32⟩
  | .hbm, ⟨85, _⟩ => ⟨S98304x4, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S4x64, .f32⟩
  | .hbm, ⟨91, _⟩ => ⟨S98304x64, .f32⟩
  | .hbm, ⟨92, _⟩ => ⟨S98304x64, .f32⟩
  | .hbm, ⟨93, _⟩ => ⟨S98304x64x1, .f32⟩
  | .hbm, ⟨94, _⟩ => ⟨S98304x64x1, .f32⟩
  | .hbm, ⟨95, _⟩ => ⟨S98304x64x2, .f32⟩
  | .local _ .vmem, ⟨0, _⟩ => ⟨S98304, .f32⟩
  | .local _ .vmem, ⟨1, _⟩ => ⟨S98304, .f32⟩
  | .local _ .vmem, ⟨2, _⟩ => ⟨S98304, .f32⟩
  | .local _ .vmem, ⟨3, _⟩ => ⟨S98304, .f32⟩
  | .local _ .vmem, ⟨4, _⟩ => ⟨S98304, .f32⟩
  | .local _ .vmem, ⟨5, _⟩ => ⟨S98304, .f32⟩
  | .local _ .vmem, ⟨6, _⟩ => ⟨S98304, .f32⟩
  | .local _ .vmem, ⟨7, _⟩ => ⟨S98304, .f32⟩
  | .local _ .vmem, ⟨8, _⟩ => ⟨S98304, .f32⟩
  | .local _ .vmem, ⟨9, _⟩ => ⟨S98304, .f32⟩
  | .local _ .vmem, ⟨10, _⟩ => ⟨S98304, .f32⟩
  | .local _ .vmem, ⟨11, _⟩ => ⟨S98304, .f32⟩
  | .local _ .vmem, ⟨12, _⟩ => ⟨S98304, .f32⟩
  | .local _ .vmem, ⟨13, _⟩ => ⟨S98304, .f32⟩
  | .local _ .vmem, ⟨14, _⟩ => ⟨S98304, .f32⟩
  | .local _ .vmem, ⟨15, _⟩ => ⟨S98304, .f32⟩
  | .local _ .vmem, ⟨16, _⟩ => ⟨S2048x4, .f32⟩
  | .local _ .vmem, ⟨17, _⟩ => ⟨S2048x4, .f32⟩
  | .local _ .vmem, ⟨18, _⟩ => ⟨S4x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | _, _ => ⟨S98304x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev main_v42_2 : Ref sig .tc := ⟨.hbm, 63, rfl⟩
abbrev main_v42_3 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65_0 : Ref sig .tc := ⟨.hbm, 91, rfl⟩
abbrev main_v65_1 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S98304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S98304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S98304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S98304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S98304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S98304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S98304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S98304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1572864_S1x1572864_0_0 : S2x1572864.Slices ![0, 0] S1x1572864
  shapeCasts_S1x1572864_S1572864 : S1x1572864.ShapeCasts S1572864
  slices_S2x1572864_S1x1572864_1_0 : S2x1572864.Slices ![1, 0] S1x1572864
  bcast_S_S1572864 : S_.BroadcastsInDim S1572864 (![] : Fin 0 → Fin S1572864.rank)
  bcast_S1572864_S1572864x1_0 : S1572864.BroadcastsInDim S1572864x1 (![0] : Fin 1 → Fin S1572864x1.rank)
  concatenates_S1572864x1_S1572864x1_S1572864x2_d1 : Shape.Concatenates [S1572864x1, S1572864x1] S1572864x2 1
  inb_S98304_S98304_0 : ∀ a, (![0] : Fin 1 → Nat) a + S98304.size a ≤ S98304.size a
  h_S98304 : 0 < S98304.numel
  shapeCasts_S98304_S98304 : S98304.ShapeCasts S98304
  bcast_S_S98304 : S_.BroadcastsInDim S98304 (![] : Fin 0 → Fin S98304.rank)
  bcast_S98304_S98304x1_0 : S98304.BroadcastsInDim S98304x1 (![0] : Fin 1 → Fin S98304x1.rank)
  concatenates_S98304x1_S98304x1_S98304x1_S98304x1_S98304x4_d1 : Shape.Concatenates [S98304x1, S98304x1, S98304x1, S98304x1] S98304x4 1
  transposes_S64x1_S1x64_1_0 : S64x1.Transposes [1, 0] S1x64
  concatenates_S1x64_S1x64_S1x64_S1x64_S4x64_d0 : Shape.Concatenates [S1x64, S1x64, S1x64, S1x64] S4x64 0
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  slices_S4x64_o0_0_S1x64 : S4x64.Slices ![0, 0] S1x64
  slices_S4x64_o1_0_S1x64 : S4x64.Slices ![1, 0] S1x64
  slices_S4x64_o2_0_S1x64 : S4x64.Slices ![2, 0] S1x64
  slices_S4x64_o3_0_S1x64 : S4x64.Slices ![3, 0] S1x64
  broadcasts_S2048x1_S2048x64 : S2048x1.Broadcasts S2048x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  bcast_S98304x64_S98304x64x1_0_1 : S98304x64.BroadcastsInDim S98304x64x1 (![0, 1] : Fin 2 → Fin S98304x64x1.rank)
  concatenates_S98304x64x1_S98304x64x1_S98304x64x2_d2 : Shape.Concatenates [S98304x64x1, S98304x64x1] S98304x64x2 2
  gather_S98304_S1572864x1_S1572864_n_0_n_n_0_1_1_wf : GatherDims.WF S98304 S1572864x1 S1572864 [] [0] [] [0] [] 1 ![1]
  gather_S98304x1_S1572864x2_S1572864_n_01_n_n_01_1_11_wf : GatherDims.WF S98304x1 S1572864x2 S1572864 [] [0, 1] [] [0, 1] [] 1 ![1, 1]
  scatter_S98304_S1572864x1_S1572864_n_0_0_1_wf : ScatterDims.WF S98304 S1572864x1 S1572864 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S98304.size a ≤ S1572864.size a
  hwx0_0 : ∀ i : grid0.Coords, EltTy.bits .f32 = 32 ∨ (Rect.block (s := S1572864) S98304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S98304.size a ≤ S1572864.size a
  hwx0_1 : ∀ i : grid0.Coords, EltTy.bits .f32 = 32 ∨ (Rect.block (s := S1572864) S98304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S98304.size a ≤ S1572864.size a
  hwx0_2 : ∀ i : grid0.Coords, EltTy.bits .f32 = 32 ∨ (Rect.block (s := S1572864) S98304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S98304.size a ≤ S1572864.size a
  hwx0_3 : ∀ i : grid0.Coords, EltTy.bits .f32 = 32 ∨ (Rect.block (s := S1572864) S98304.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S98304.size a ≤ S1572864.size a
  hwx0_4 : ∀ i : grid0.Coords, EltTy.bits .f32 = 32 ∨ (Rect.block (s := S1572864) S98304.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S98304.size a ≤ S1572864.size a
  hwx0_5 : ∀ i : grid0.Coords, EltTy.bits .f32 = 32 ∨ (Rect.block (s := S1572864) S98304.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S98304.size a ≤ S1572864.size a
  hwx0_6 : ∀ i : grid0.Coords, EltTy.bits .f32 = 32 ∨ (Rect.block (s := S1572864) S98304.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S98304.size a ≤ S1572864.size a
  hwx0_7 : ∀ i : grid0.Coords, EltTy.bits .f32 = 32 ∨ (Rect.block (s := S1572864) S98304.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4.size a ≤ S98304x4.size a
  hwx1_0 : ∀ i : grid1.Coords, EltTy.bits .f32 = 32 ∨ (Rect.block (s := S98304x4) S2048x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S98304x64.size a
  hwx1_2 : ∀ i : grid1.Coords, EltTy.bits .f32 = 32 ∨ (Rect.block (s := S98304x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S98304x64.size a
  hwx1_3 : ∀ i : grid1.Coords, EltTy.bits .f32 = 32 ∨ (Rect.block (s := S98304x64) S2048x64.size (cc1_transform_3 i) (hinb1_3 i)).WholeWords (EltTy.packing .f32)

variable [Facts₀]

def gather_S98304_S1572864x1_S1572864_n_0_n_n_0_1_1 : GatherDims S98304 S1572864x1 S1572864 where
  offsetDims := []
  collapsedSliceDims := [0]
  operandBatchingDims := []
  startIndicesBatchingDims := []
  startIndexMap := [0]
  indexVectorDim := 1
  sliceSizes := ![1]
  wf := gather_S98304_S1572864x1_S1572864_n_0_n_n_0_1_1_wf
def gather_S98304x1_S1572864x2_S1572864_n_01_n_n_01_1_11 : GatherDims S98304x1 S1572864x2 S1572864 where
  offsetDims := []
  collapsedSliceDims := [0, 1]
  operandBatchingDims := []
  startIndicesBatchingDims := []
  startIndexMap := [0, 1]
  indexVectorDim := 1
  sliceSizes := ![1, 1]
  wf := gather_S98304x1_S1572864x2_S1572864_n_01_n_n_01_1_11_wf
def scatter_S98304_S1572864x1_S1572864_n_0_0_1 : ScatterDims S98304 S1572864x1 S1572864 where
  updateWindowDims := []
  insertedWindowDims := [0]
  scatterDimsToOperandDims := [0]
  indexVectorDim := 1
  wf := scatter_S98304_S1572864x1_S1572864_n_0_0_1_wf

abbrev win0_0 : Pipeline.Window sig grid0 :=
  Pipeline.Window.ofSpec (Memref.whole main_arg3) S98304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S98304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S98304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S98304.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42_0) S98304.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42_1) S98304.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42_2) S98304.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v42_3) S98304.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v59) S2048x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65_0) S2048x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v65_1) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S98304x1 : Shape := ⟨2, ![98304, 1]⟩
abbrev S2x1572864 : Shape := ⟨2, ![2, 1572864]⟩
abbrev S1572864 : Shape := ⟨1, ![1572864]⟩
abbrev S98304 : Shape := ⟨1, ![98304]⟩
abbrev S64x1 : Shape := ⟨2, ![64, 1]⟩
abbrev S1x1572864 : Shape := ⟨2, ![1, 1572864]⟩
abbrev S_ : Shape := ⟨0, ![]⟩
abbrev S1572864x1 : Shape := ⟨2, ![1572864, 1]⟩
abbrev S1x64 : Shape := ⟨2, ![1, 64]⟩
abbrev S98304x64 : Shape := ⟨2, ![98304, 64]⟩
abbrev S1572864x64 : Shape := ⟨2, ![1572864, 64]⟩
abbrev S98304x64x1 : Shape := ⟨3, ![98304, 64, 1]⟩
abbrev S98304x64x2 : Shape := ⟨3, ![98304, 64, 2]⟩

abbrev nBuf : Space → Nat
  | .hbm => 165
  | .vmem => 0
  | .smem => 0
  | _ => 0

abbrev hbmTy0_0 (i : Nat) : BufTy := match i % 128 with
  | 0 => ⟨S98304x1, .f32⟩
  | 1 => ⟨S98304x1, .f32⟩
  | 2 => ⟨S2x1572864, .i32⟩
  | 3 => ⟨S1572864, .f32⟩
  | 4 => ⟨S98304, .i32⟩
  | 5 => ⟨S64x1, .f32⟩
  | 6 => ⟨S64x1, .f32⟩
  | 7 => ⟨S64x1, .f32⟩
  | 8 => ⟨S64x1, .f32⟩
  | 9 => ⟨S1x1572864, .i32⟩
  | 10 => ⟨S1572864, .i32⟩
  | 11 => ⟨S1x1572864, .i32⟩
  | 12 => ⟨S1572864, .i32⟩
  | 13 => ⟨S_, .i32⟩
  | 14 => ⟨S1572864, .i32⟩
  | 15 => ⟨S1572864, .i1⟩
  | 16 => ⟨S_, .i32⟩
  | 17 => ⟨S1572864, .i32⟩
  | 18 => ⟨S1572864, .i32⟩
  | 19 => ⟨S1572864, .i32⟩
  | 20 => ⟨S1572864x1, .i32⟩
  | 21 => ⟨S1572864, .i32⟩
  | 22 => ⟨S_, .i32⟩
  | 23 => ⟨S1572864, .i32⟩
  | 24 => ⟨S1572864, .i1⟩
  | 25 => ⟨S_, .i32⟩
  | 26 => ⟨S1572864, .i32⟩
  | 27 => ⟨S1572864, .i32⟩
  | 28 => ⟨S1572864, .i32⟩
  | 29 => ⟨S1572864x1, .i32⟩
  | 30 => ⟨S1572864, .i32⟩
  | 31 => ⟨S1572864, .i1⟩
  | 32 => ⟨S_, .f32⟩
  | 33 => ⟨S_, .f32⟩
  | 34 => ⟨S1572864, .f32⟩
  | 35 => ⟨S1572864, .f32⟩
  | 36 => ⟨S_, .f32⟩
  | 37 => ⟨S_, .f32⟩
  | 38 => ⟨S1572864, .f32⟩
  | 39 => ⟨S1572864, .f32⟩
  | 40 => ⟨S1x64, .f32⟩
  | 41 => ⟨S98304x64, .f32⟩
  | 42 => ⟨S1x64, .f32⟩
  | 43 => ⟨S98304x64, .f32⟩
  | 44 => ⟨S98304x64, .f32⟩
  | 45 => ⟨S1x64, .f32⟩
  | 46 => ⟨S98304x64, .f32⟩
  | 47 => ⟨S1x64, .f32⟩
  | 48 => ⟨S98304x64, .f32⟩
  | 49 => ⟨S98304x64, .f32⟩
  | 50 => ⟨S1572864x1, .f32⟩
  | 51 => ⟨S_, .i32⟩
  | 52 => ⟨S1572864, .i32⟩
  | 53 => ⟨S1572864, .i1⟩
  | 54 => ⟨S_, .i32⟩
  | 55 => ⟨S1572864, .i32⟩
  | 56 => ⟨S1572864, .i32⟩
  | 57 => ⟨S1572864, .i32⟩
  | 58 => ⟨S1572864x1, .i32⟩
  | 59 => ⟨S1572864x64, .f32⟩
  | 60 => ⟨S1572864x64, .f32⟩
  | 61 => ⟨S1572864x64, .f32⟩
  | 62 => ⟨S1572864x1, .f32⟩
  | 63 => ⟨S_, .i32⟩
  | 64 => ⟨S1572864, .i32⟩
  | 65 => ⟨S1572864, .i1⟩
  | 66 => ⟨S_, .i32⟩
  | 67 => ⟨S1572864, .i32⟩
  | 68 => ⟨S1572864, .i32⟩
  | 69 => ⟨S1572864, .i32⟩
  | 70 => ⟨S1572864x1, .i32⟩
  | 71 => ⟨S1572864x64, .f32⟩
  | 72 => ⟨S1572864x64, .f32⟩
  | 73 => ⟨S1572864x64, .f32⟩
  | 74 => ⟨S_, .f32⟩
  | 75 => ⟨S98304x64, .f32⟩
  | 76 => ⟨S1572864x1, .i32⟩
  | 77 => ⟨S98304x64, .f32⟩
  | 78 => ⟨S_, .f32⟩
  | 79 => ⟨S98304x64, .f32⟩
  | 80 => ⟨S1572864x1, .i32⟩
  | 81 => ⟨S98304x64, .f32⟩
  | 82 => ⟨S98304x64, .f32⟩
  | 83 => ⟨S98304x64, .f32⟩
  | 84 => ⟨S_, .f32⟩
  | 85 => ⟨S98304x64, .f32⟩
  | 86 => ⟨S98304x64, .f32⟩
  | 87 => ⟨S_, .f32⟩
  | 88 => ⟨S98304x64, .f32⟩
  | 89 => ⟨S98304x64, .f32⟩
  | 90 => ⟨S98304x64, .f32⟩
  | 91 => ⟨S98304x64, .f32⟩
  | 92 => ⟨S98304x64, .f32⟩
  | 93 => ⟨S_, .f32⟩
  | 94 => ⟨S98304x64, .f32⟩
  | 95 => ⟨S98304x64, .f32⟩
  | 96 => ⟨S_, .f32⟩
  | 97 => ⟨S98304x64, .f32⟩
  | 98 => ⟨S98304x64, .f32⟩
  | 99 => ⟨S98304x64, .f32⟩
  | 100 => ⟨S1x64, .f32⟩
  | 101 => ⟨S98304x64, .f32⟩
  | 102 => ⟨S1x64, .f32⟩
  | 103 => ⟨S98304x64, .f32⟩
  | 104 => ⟨S98304x64, .f32⟩
  | 105 => ⟨S1x64, .f32⟩
  | 106 => ⟨S98304x64, .f32⟩
  | 107 => ⟨S1x64, .f32⟩
  | 108 => ⟨S98304x64, .f32⟩
  | 109 => ⟨S98304x64, .f32⟩
  | 110 => ⟨S1572864x1, .f32⟩
  | 111 => ⟨S_, .i32⟩
  | 112 => ⟨S1572864, .i32⟩
  | 113 => ⟨S1572864, .i1⟩
  | 114 => ⟨S_, .i32⟩
  | 115 => ⟨S1572864, .i32⟩
  | 116 => ⟨S1572864, .i32⟩
  | 117 => ⟨S1572864, .i32⟩
  | 118 => ⟨S1572864x1, .i32⟩
  | 119 => ⟨S1572864x64, .f32⟩
  | 120 => ⟨S1572864x64, .f32⟩
  | 121 => ⟨S1572864x64, .f32⟩
  | 122 => ⟨S1572864x1, .f32⟩
  | 123 => ⟨S_, .i32⟩
  | 124 => ⟨S1572864, .i32⟩
  | 125 => ⟨S1572864, .i1⟩
  | 126 => ⟨S_, .i32⟩
  | 127 => ⟨S1572864, .i32⟩
  | _ => ⟨S98304x1, .f32⟩

abbrev hbmTy0_1 (i : Nat) : BufTy := match i % 128 with
  | 0 => ⟨S1572864, .i32⟩
  | 1 => ⟨S1572864, .i32⟩
  | 2 => ⟨S1572864x1, .i32⟩
  | 3 => ⟨S1572864x64, .f32⟩
  | 4 => ⟨S1572864x64, .f32⟩
  | 5 => ⟨S1572864x64, .f32⟩
  | 6 => ⟨S_, .f32⟩
  | 7 => ⟨S98304x64, .f32⟩
  | 8 => ⟨S1572864x1, .i32⟩
  | 9 => ⟨S98304x64, .f32⟩
  | 10 => ⟨S_, .f32⟩
  | 11 => ⟨S98304x64, .f32⟩
  | 12 => ⟨S1572864x1, .i32⟩
  | 13 => ⟨S98304x64, .f32⟩
  | 14 => ⟨S98304x64, .f32⟩
  | 15 => ⟨S98304x64, .f32⟩
  | 16 => ⟨S_, .f32⟩
  | 17 => ⟨S98304x64, .f32⟩
  | 18 => ⟨S98304x64, .f32⟩
  | 19 => ⟨S_, .f32⟩
  | 20 => ⟨S98304x64, .f32⟩
  | 21 => ⟨S98304x64, .f32⟩
  | 22 => ⟨S98304x64, .f32⟩
  | 23 => ⟨S98304x64, .f32⟩
  | 24 => ⟨S98304x64, .f32⟩
  | 25 => ⟨S_, .f32⟩
  | 26 => ⟨S98304x64, .f32⟩
  | 27 => ⟨S98304x64, .f32⟩
  | 28 => ⟨S_, .f32⟩
  | 29 => ⟨S98304x64, .f32⟩
  | 30 => ⟨S98304x64, .f32⟩
  | 31 => ⟨S98304x64, .f32⟩
  | 32 => ⟨S98304x64, .f32⟩
  | 33 => ⟨S98304x64, .f32⟩
  | 34 => ⟨S98304x64x1, .f32⟩
  | 35 => ⟨S98304x64x1, .f32⟩
  | 36 => ⟨S98304x64x2, .f32⟩
  | _ => ⟨S98304x1, .f32⟩

abbrev hbmTy (i : Nat) : BufTy := match i / 128 with
  | 0 => hbmTy0_0 i
  | 1 => hbmTy0_1 i
  | _ => ⟨S98304x1, .f32⟩

abbrev bufTy : (tb : Table) → Fin (tcTables nBuf tb) → BufTy
  | .hbm, ⟨i, _⟩ => hbmTy i
  | _, _ => ⟨S98304x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v57 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_10 : Ref sig .tc := ⟨.hbm, 111, rfl⟩
abbrev main_v70 : Ref sig .tc := ⟨.hbm, 112, rfl⟩
abbrev main_v71 : Ref sig .tc := ⟨.hbm, 113, rfl⟩
abbrev main_c_11 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_12 : Ref sig .tc := ⟨.hbm, 123, rfl⟩
abbrev main_v80 : Ref sig .tc := ⟨.hbm, 124, rfl⟩
abbrev main_v81 : Ref sig .tc := ⟨.hbm, 125, rfl⟩
abbrev main_c_13 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_14 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_15 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_call4_v0 : Ref sig .tc := ⟨.hbm, 142, rfl⟩
abbrev main_call4_v1 : Ref sig .tc := ⟨.hbm, 143, rfl⟩
abbrev main_call4_cst : Ref sig .tc := ⟨.hbm, 144, rfl⟩
abbrev main_call4_v2 : Ref sig .tc := ⟨.hbm, 145, rfl⟩
abbrev main_call4_v3 : Ref sig .tc := ⟨.hbm, 146, rfl⟩
abbrev main_call4_cst_0 : Ref sig .tc := ⟨.hbm, 147, rfl⟩
abbrev main_call4_v4 : Ref sig .tc := ⟨.hbm, 148, rfl⟩
abbrev main_call4_v5 : Ref sig .tc := ⟨.hbm, 149, rfl⟩
abbrev main_v95 : Ref sig .tc := ⟨.hbm, 150, rfl⟩
abbrev main_call5_v0 : Ref sig .tc := ⟨.hbm, 151, rfl⟩
abbrev main_call5_v1 : Ref sig .tc := ⟨.hbm, 152, rfl⟩
abbrev main_call5_cst : Ref sig .tc := ⟨.hbm, 153, rfl⟩
abbrev main_call5_v2 : Ref sig .tc := ⟨.hbm, 154, rfl⟩
abbrev main_call5_v3 : Ref sig .tc := ⟨.hbm, 155, rfl⟩
abbrev main_call5_cst_0 : Ref sig .tc := ⟨.hbm, 156, rfl⟩
abbrev main_call5_v4 : Ref sig .tc := ⟨.hbm, 157, rfl⟩
abbrev main_call5_v5 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩

abbrev nD : Nat := 1
abbrev τ : Topo := Topo.v7x

variable {F : FTy → Type} [FloatOps F]

class Facts₀ : Prop where
  slices_S2x1572864_S1x1572864_0_0 : S2x1572864.Slices ![0, 0] S1x1572864
  shapeCasts_S1x1572864_S1572864 : S1x1572864.ShapeCasts S1572864
  slices_S2x1572864_S1x1572864_1_0 : S2x1572864.Slices ![1, 0] S1x1572864
  bcast_S_S1572864 : S_.BroadcastsInDim S1572864 (![] : Fin 0 → Fin S1572864.rank)
  bcast_S1572864_S1572864x1_0 : S1572864.BroadcastsInDim S1572864x1 (![0] : Fin 1 → Fin S1572864x1.rank)
  transposes_S64x1_S1x64_1_0 : S64x1.Transposes [1, 0] S1x64
  bcast_S1572864x1_S1572864x64_0_1 : S1572864x1.BroadcastsInDim S1572864x64 (![0, 1] : Fin 2 → Fin S1572864x64.rank)
  bcast_S_S98304x64 : S_.BroadcastsInDim S98304x64 (![] : Fin 0 → Fin S98304x64.rank)
  bcast_S98304x64_S98304x64x1_0_1 : S98304x64.BroadcastsInDim S98304x64x1 (![0, 1] : Fin 2 → Fin S98304x64x1.rank)
  concatenates_S98304x64x1_S98304x64x1_S98304x64x2_d2 : Shape.Concatenates [S98304x64x1, S98304x64x1] S98304x64x2 2
  gather_S98304_S1572864x1_S1572864_n_0_n_n_0_1_1_wf : GatherDims.WF S98304 S1572864x1 S1572864 [] [0] [] [0] [] 1 ![1]
  dot_S98304x1_S1x64_S98304x64_1_0_0_1_n_n_wf : DotDims.WF S98304x1 S1x64 S98304x64 [1] [0] [0] [1] [] []
  gather_S98304x64_S1572864x1_S1572864x64_1_0_n_n_0_1_164_wf : GatherDims.WF S98304x64 S1572864x1 S1572864x64 [1] [0] [] [0] [] 1 ![1, 64]
  scatter_S98304x64_S1572864x1_S1572864x64_1_0_0_1_wf : ScatterDims.WF S98304x64 S1572864x1 S1572864x64 [1] [0] [0] 1

variable [Facts₀]

def gather_S98304_S1572864x1_S1572864_n_0_n_n_0_1_1 : GatherDims S98304 S1572864x1 S1572864 where
  offsetDims := []
  collapsedSliceDims := [0]
  operandBatchingDims := []
  startIndicesBatchingDims := []
  startIndexMap := [0]
  indexVectorDim := 1
  sliceSizes := ![1]
  wf := gather_S98304_S1572864x1_S1572864_n_0_n_n_0_1_1_wf
def dot_S98304x1_S1x64_S98304x64_1_0_0_1_n_n : DotDims S98304x1 S1x64 S98304x64 where
  lhsContracting := [1]
  rhsContracting := [0]
  lhsNonContracting := [0]
  rhsNonContracting := [1]
  lhsBatch := []
  rhsBatch := []
  wf := dot_S98304x1_S1x64_S98304x64_1_0_0_1_n_n_wf
def gather_S98304x64_S1572864x1_S1572864x64_1_0_n_n_0_1_164 : GatherDims S98304x64 S1572864x1 S1572864x64 where
  offsetDims := [1]
  collapsedSliceDims := [0]
  operandBatchingDims := []
  startIndicesBatchingDims := []
  startIndexMap := [0]
  indexVectorDim := 1
  sliceSizes := ![1, 64]
  wf := gather_S98304x64_S1572864x1_S1572864x64_1_0_n_n_0_1_164_wf
def scatter_S98304x64_S1572864x1_S1572864x64_1_0_0_1 : ScatterDims S98304x64 S1572864x1 S1572864x64 where
  updateWindowDims := [1]
  insertedWindowDims := [0]
  scatterDimsToOperandDims := [0]
  indexVectorDim := 1
  wf := scatter_S98304x64_S1572864x1_S1572864x64_1_0_0_1_wf

class Facts : Prop extends Facts₀ where

variable [Facts]
-- ==== Proof.EdgeRegionBits.lean ====
/-
  The first kernel region, edge by edge.

  Its grid has 16 points. At point t each of the four input windows holds block t — 98304 consecutive edges — of its
  array: the edge weights w, the same-community mask s as a float, the real part xr and the imaginary part xi of the
  edge's source node. The body leaves in the four output windows' buffers, entry by entry,

      (w·s)·xr,   (w·s)·xi,   (w − w·s)·xr,   (w − w·s)·xi.

  Stated here, for any float instance and any contents V of the buffers at the region's entry: what the body leaves
  in each buffer as a function of the input blocks, the body's triple, and the pipeline's body obligation over proof
  data whose arrays are V's.
-/
import proofs.«140219_j61804579389717_1_alg».proof.Proof.Gen.Kernel.Launch
import proofs.«140219_j61804579389717_1_alg».proof.Proof.Gen.Kernel.Skeleton
import proofs.«140219_j61804579389717_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window w's block at point t, read off its array as the region finds it. -/
def eblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any proof data whose
    array is V's and whose body leaves the block in place. -/
theorem ebefore0_of {c : Dev nD} (dat : Dat τ (Elt F) Unit ℕ (UR sig nD τ) ℕ cfg0 c) (hA : dat.A 0 = V c (Pipeline.arrRef spec0 0))
    (hafter : ∀ t, dat.after 0 t = eblk V c 0 t) (t : Fin cfg0.N) (d) : dat.before 0 t d = eblk V c 0 t :=
  (dat.before_in_eq_fetched 0 rfl (fun _ => rfl) (fun _ _ _ => rfl) (fun t => by rw [hafter]; unfold Dat.blockOf eblk; rw [hA]; try rfl) t d).trans
    (by unfold Dat.fetched Dat.blockOf eblk; rw [hA]; try rfl)

/-- Input window 1's current buffer holds its block at every point, fetched there or not, for any proof data whose
    array is V's and whose body leaves the block in place. -/
theorem ebefore1_of {c : Dev nD} (dat : Dat τ (Elt F) Unit ℕ (UR sig nD τ) ℕ cfg0 c) (hA : dat.A 1 = V c (Pipeline.arrRef spec0 1))
    (hafter : ∀ t, dat.after 1 t = eblk V c 1 t) (t : Fin cfg0.N) (d) : dat.before 1 t d = eblk V c 1 t :=
  (dat.before_in_eq_fetched 1 rfl (fun _ => rfl) (fun _ _ _ => rfl) (fun t => by rw [hafter]; unfold Dat.blockOf eblk; rw [hA]; try rfl) t d).trans
    (by unfold Dat.fetched Dat.blockOf eblk; rw [hA]; try rfl)

/-- Input window 2's current buffer holds its block at every point, fetched there or not, for any proof data whose
    array is V's and whose body leaves the block in place. -/
theorem ebefore2_of {c : Dev nD} (dat : Dat τ (Elt F) Unit ℕ (UR sig nD τ) ℕ cfg0 c) (hA : dat.A 2 = V c (Pipeline.arrRef spec0 2))
    (hafter : ∀ t, dat.after 2 t = eblk V c 2 t) (t : Fin cfg0.N) (d) : dat.before 2 t d = eblk V c 2 t :=
  (dat.before_in_eq_fetched 2 rfl (fun _ => rfl) (fun _ _ _ => rfl) (fun t => by rw [hafter]; unfold Dat.blockOf eblk; rw [hA]; try rfl) t d).trans
    (by unfold Dat.fetched Dat.blockOf eblk; rw [hA]; try rfl)

/-- Input window 3's current buffer holds its block at every point, fetched there or not, for any proof data whose
    array is V's and whose body leaves the block in place. -/
theorem ebefore3_of {c : Dev nD} (dat : Dat τ (Elt F) Unit ℕ (UR sig nD τ) ℕ cfg0 c) (hA : dat.A 3 = V c (Pipeline.arrRef spec0 3))
    (hafter : ∀ t, dat.after 3 t = eblk V c 3 t) (t : Fin cfg0.N) (d) : dat.before 3 t d = eblk V c 3 t :=
  (dat.before_in_eq_fetched 3 rfl (fun _ => rfl) (fun _ _ _ => rfl) (fun t => by rw [hafter]; unfold Dat.blockOf eblk; rw [hA]; try rfl) t d).trans
    (by unfold Dat.fetched Dat.blockOf eblk; rw [hA]; try rfl)

/-! ## What the body leaves in each output buffer -/

/-- The one rectangle the body touches: a whole buffer of 98304 entries. -/
abbrev rE : Rect S98304 := Rect.unit (s := S98304) ![0] S98304.size inb_S98304_S98304_0

/-- Output window 4's buffer after the body: one store of the whole block, (w·s)·xr of the input blocks. -/
def eout4 (x0 x1 x2 : Vec F S98304 .f32) : Vec F S98304 .f32 :=
  View.canon [⟨rE, k0_pay5 (View.ld x0 rE) (View.ld x1 rE) (View.ld x2 rE)⟩]

/-- Output window 5's buffer after the body: one store of the whole block, (w·s)·xi of the input blocks. -/
def eout5 (x0 x1 x3 : Vec F S98304 .f32) : Vec F S98304 .f32 :=
  View.canon [⟨rE, k0_pay6 (View.ld x0 rE) (View.ld x1 rE) (View.ld x3 rE)⟩]

/-- Output window 6's buffer after the body: one store of the whole block, (w − w·s)·xr of the input blocks. -/
def eout6 (x0 x1 x2 : Vec F S98304 .f32) : Vec F S98304 .f32 :=
  View.canon [⟨rE, k0_pay7 (View.ld x0 rE) (View.ld x1 rE) (View.ld x2 rE)⟩]

/-- Output window 7's buffer after the body: one store of the whole block, (w − w·s)·xi of the input blocks. -/
def eout7 (x0 x1 x3 : Vec F S98304 .f32) : Vec F S98304 .f32 :=
  View.canon [⟨rE, k0_pay8 (View.ld x0 rE) (View.ld x1 rE) (View.ld x3 rE)⟩]

/-- A single store of the whole buffer covers it. -/
theorem ecover (p0 : Vec F S98304 .f32) (y : S98304.Idx) :
    ∃ pc ∈ ([⟨rE, p0⟩] : List (View.Piece (Elt F) S98304 .f32)), y ∈ pc.1.set :=
  View.cover_of_tiled [⟨rE, p0⟩] S98304.size (by rfl) y

/-! ## The body's triple -/

set_option maxHeartbeats 4000000 in
/-- The body on whole staging buffers — the inputs' at contents x0 … x3, the outputs' at anything — runs to the
    continuation with the inputs as they were and each output at its product of the inputs. -/
theorem edge_body (c : Dev nD) (E : Set ℕ) (i : grid0.Coords)
    (a1 : Memref sig .tc .vmem S98304 .f32) (h1 : a1.IsWhole) (a2 : Memref sig .tc .vmem S98304 .f32) (h2 : a2.IsWhole) (a3 : Memref sig .tc .vmem S98304 .f32) (h3 : a3.IsWhole) (a4 : Memref sig .tc .vmem S98304 .f32) (h4 : a4.IsWhole) (a5 : Memref sig .tc .vmem S98304 .f32) (h5 : a5.IsWhole) (a6 : Memref sig .tc .vmem S98304 .f32) (h6 : a6.IsWhole) (a7 : Memref sig .tc .vmem S98304 .f32) (h7 : a7.IsWhole) (a8 : Memref sig .tc .vmem S98304 .f32) (h8 : a8.IsWhole)
    (x0 x1 x2 x3 : Vec F S98304 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (eout4 x0 x1 x2) ∗ owns (c : Thread nD τ) a6 fullShare (eout5 x0 x1 x3) ∗ owns (c : Thread nD τ) a7 fullShare (eout6 x0 x1 x2) ∗ owns (c : Thread nD τ) a8 fullShare (eout7 x0 x1 x3)) -∗ K ⟨⟩))
      ⊢ wp frame (wpE (defs₀ (F := F)) Variants.none c none) E (cc0__edge_prep_kernel i a1 h1 a2 h2 a3 h3 a4 h4 a5 h5 a6 h6 a7 h7 a8 h8) K := by
  simp only [cc0__edge_prep_kernel_eq_skeleton]; unfold cc0__edge_prep_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (ecover _)
  isplitl [H5]
  · iexists _; isplitr
    swap; · iexact H5
    ipureintro
    exact View.read_writes_eq_canon _ _ _ (ecover _)
  isplitl [H6]
  · iexists _; isplitr
    swap; · iexact H6
    ipureintro
    exact View.read_writes_eq_canon _ _ _ (ecover _)
  iexists _; isplitr
  swap; · iexact H7
  ipureintro
  exact View.read_writes_eq_canon _ _ _ (ecover _)

/-! ## The pipeline's proof data -/

/-- The proof data of the first pipeline on core c: the arrays as the region finds them; after the body at point t each
    input's buffer at its block and each output's at its product of the input blocks; the invariant the scoped rest
    and the generator register, untouched; nothing owed; full shares. -/
def edat (c : Dev nD) : Dat τ (Elt F) Unit ℕ (UR sig nD τ) ℕ cfg0 c where
  A w := V c (Pipeline.arrRef spec0 w)
  after w t := match w with
    | ⟨0, _⟩ => eblk V c 0 t
    | ⟨1, _⟩ => eblk V c 1 t
    | ⟨2, _⟩ => eblk V c 2 t
    | ⟨3, _⟩ => eblk V c 3 t
    | ⟨4, _⟩ => eout4 (eblk V c 0 t) (eblk V c 1 t) (eblk V c 2 t)
    | ⟨5, _⟩ => eout5 (eblk V c 0 t) (eblk V c 1 t) (eblk V c 3 t)
    | ⟨6, _⟩ => eout6 (eblk V c 0 t) (eblk V c 1 t) (eblk V c 2 t)
    | ⟨7, _⟩ => eout7 (eblk V c 0 t) (eblk V c 1 t) (eblk V c 3 t)
    | ⟨_ + 8, h⟩ => absurd h (Nat.not_lt.2 (Nat.le_add_left _ _))
  Φ _ := Pipeline.ΦA spec0 c
  q _ := fullShare
  owed _ := 0

theorem eA_eq (c : Dev nD) (w : Fin cfg0.W) : (edat V c).A w = V c (Pipeline.arrRef spec0 w) := by
  dsimp only [edat]

theorem eafter0 (c : Dev nD) (t : Fin cfg0.N) : (edat V c).after 0 t = eblk V c 0 t := by dsimp only [edat]
theorem eafter1 (c : Dev nD) (t : Fin cfg0.N) : (edat V c).after 1 t = eblk V c 1 t := by dsimp only [edat]
theorem eafter2 (c : Dev nD) (t : Fin cfg0.N) : (edat V c).after 2 t = eblk V c 2 t := by dsimp only [edat]
theorem eafter3 (c : Dev nD) (t : Fin cfg0.N) : (edat V c).after 3 t = eblk V c 3 t := by dsimp only [edat]
theorem eafter4 (c : Dev nD) (t : Fin cfg0.N) : (edat V c).after 4 t = eout4 (eblk V c 0 t) (eblk V c 1 t) (eblk V c 2 t) := by dsimp only [edat]
theorem eafter5 (c : Dev nD) (t : Fin cfg0.N) : (edat V c).after 5 t = eout5 (eblk V c 0 t) (eblk V c 1 t) (eblk V c 3 t) := by dsimp only [edat]
theorem eafter6 (c : Dev nD) (t : Fin cfg0.N) : (edat V c).after 6 t = eout6 (eblk V c 0 t) (eblk V c 1 t) (eblk V c 2 t) := by dsimp only [edat]
theorem eafter7 (c : Dev nD) (t : Fin cfg0.N) : (edat V c).after 7 t = eout7 (eblk V c 0 t) (eblk V c 1 t) (eblk V c 3 t) := by dsimp only [edat]

theorem ebefore0 (c : Dev nD) (t : Fin cfg0.N) (d) : (edat V c).before 0 t d = eblk V c 0 t :=
  ebefore0_of V (edat V c) (eA_eq V c 0) (eafter0 V c) t d
theorem ebefore1 (c : Dev nD) (t : Fin cfg0.N) (d) : (edat V c).before 1 t d = eblk V c 1 t :=
  ebefore1_of V (edat V c) (eA_eq V c 1) (eafter1 V c) t d
theorem ebefore2 (c : Dev nD) (t : Fin cfg0.N) (d) : (edat V c).before 2 t d = eblk V c 2 t :=
  ebefore2_of V (edat V c) (eA_eq V c 2) (eafter2 V c) t d
theorem ebefore3 (c : Dev nD) (t : Fin cfg0.N) (d) : (edat V c).before 3 t d = eblk V c 3 t :=
  ebefore3_of V (edat V c) (eA_eq V c 3) (eafter3 V c) t d

/-! ## The body obligation, at a generic point -/

/-- What the body is called with at point t, window by window, -/
def ePre (c : Dev nD) (t : Fin cfg0.N) : sProp 𝕄 :=
  iprop((edat V c).Φ t.castSucc ∗ (edat V c).owesAt () t.castSucc
    ∗ (∃ d, owns (c : Thread nD τ) (st0_0 t) fullShare ((edat V c).before 0 t d))
    ∗ (∃ d, owns (c : Thread nD τ) (st0_1 t) fullShare ((edat V c).before 1 t d))
    ∗ (∃ d, owns (c : Thread nD τ) (st0_2 t) fullShare ((edat V c).before 2 t d))
    ∗ (∃ d, owns (c : Thread nD τ) (st0_3 t) fullShare ((edat V c).before 3 t d))
    ∗ (∃ d, owns (c : Thread nD τ) (st0_4 t) fullShare ((edat V c).before 4 t d))
    ∗ (∃ d, owns (c : Thread nD τ) (st0_5 t) fullShare ((edat V c).before 5 t d))
    ∗ (∃ d, owns (c : Thread nD τ) (st0_6 t) fullShare ((edat V c).before 6 t d))
    ∗ (∃ d, owns (c : Thread nD τ) (st0_7 t) fullShare ((edat V c).before 7 t d)))

/-- and what it returns. -/
def ePost (c : Dev nD) (t : Fin cfg0.N) : sProp 𝕄 :=
  iprop((edat V c).Φ t.succ ∗ (edat V c).owesAt () t.succ
    ∗ owns (c : Thread nD τ) (st0_0 t) fullShare ((edat V c).after 0 t)
    ∗ owns (c : Thread nD τ) (st0_1 t) fullShare ((edat V c).after 1 t)
    ∗ owns (c : Thread nD τ) (st0_2 t) fullShare ((edat V c).after 2 t)
    ∗ owns (c : Thread nD τ) (st0_3 t) fullShare ((edat V c).after 3 t)
    ∗ owns (c : Thread nD τ) (st0_4 t) fullShare ((edat V c).after 4 t)
    ∗ owns (c : Thread nD τ) (st0_5 t) fullShare ((edat V c).after 5 t)
    ∗ owns (c : Thread nD τ) (st0_6 t) fullShare ((edat V c).after 6 t)
    ∗ owns (c : Thread nD τ) (st0_7 t) fullShare ((edat V c).after 7 t))

set_option maxHeartbeats 4000000 in
/-- The body at any point: the inputs' buffers hold their blocks, so the body's triple applies; the invariant and
    the core's dues pass through unread. -/
theorem edge_body_at (c : Dev nD) (t : Fin cfg0.N) :
    ePre V c t ⊢ wp frame (wpE (defs₀ (F := F)) Variants.none c none) Set.univ (bodyAt0 t) (fun _ => ePost V c t) := by
  unfold ePre ePost bodyAt0
  simp only [ebefore0, ebefore1, ebefore2, ebefore3]
  rw [show (edat V c).Φ t.succ = (edat V c).Φ t.castSucc from rfl,
    show (edat V c).owesAt () t.succ = (edat V c).owesAt () t.castSucc from rfl,
    eafter0, eafter1, eafter2, eafter3, eafter4, eafter5, eafter6, eafter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge_body c Set.univ _ _ _ _ _ _ _ _ _ _ _ _ _ _ _ _ _ (eblk V c 0 t) (eblk V c 1 t) (eblk V c 2 t) (eblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem edge_obligation (c : Dev nD) : BodyObligation (edat (F := F) V c) (defs₀ (F := F)) Variants.none () Set.univ := fun t => by
  rw [bigSep_W0, bigSep_W0]
  exact edge_body_at V c t

end Cert.Kernel.Pipes

end
-- ==== Proof.NodeRegionBits.lean ====
/-
  The second kernel region, node by node.

  Its grid has 48 points. At point t the first input window holds block t — 2048 consecutive nodes, four columns — of
  the [98304, 4] array of edge sums (Sr, Si of the local branch, then of the global branch), and the second input
  window holds the whole [4, 64] array of weight rows (Wr, Wi local, then global), staged once. With
  silu u = u · logistic u the body leaves in the two output windows' buffers, at node n and feature h,

      silu (Sr_l·Wr_l − Si_l·Wi_l) + silu (Sr_g·Wr_g − Si_g·Wi_g)     (the real part)
      silu (Sr_l·Wi_l + Si_l·Wr_l) + silu (Sr_g·Wi_g + Si_g·Wr_g)     (the imaginary part).

  Stated here, for any float instance and any contents V of the buffers at the region's entry: what the body leaves
  in each buffer as a function of the input blocks, the body's triple, and the pipeline's body obligation.
-/
import proofs.«140219_j61804579389717_1_alg».proof.Proof.Gen.Kernel.Launch
import proofs.«140219_j61804579389717_1_alg».proof.Proof.Gen.Kernel.Skeleton
import proofs.«140219_j61804579389717_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window w's block at point t, read off its array as the region finds it. -/
def nblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for any proof data whose
    array is V's and whose body leaves the block in place. -/
theorem nbefore0_of {c : Dev nD} (dat : Dat τ (Elt F) Unit ℕ (UR sig nD τ) ℕ cfg1 c) (hA : dat.A 0 = V c (Pipeline.arrRef spec1 0))
    (hafter : ∀ t, dat.after 0 t = nblk V c 0 t) (t : Fin cfg1.N) (d) : dat.before 0 t d = nblk V c 0 t :=
  (dat.before_in_eq_fetched 0 rfl (fun _ => rfl) (fun _ _ _ => rfl) (fun t => by rw [hafter]; unfold Dat.blockOf nblk; rw [hA]; try rfl) t d).trans
    (by unfold Dat.fetched Dat.blockOf nblk; rw [hA]; try rfl)

/-- Input window 1's current buffer holds its block at every point, fetched there or not, for any proof data whose
    array is V's and whose body leaves the block in place. -/
theorem nbefore1_of {c : Dev nD} (dat : Dat τ (Elt F) Unit ℕ (UR sig nD τ) ℕ cfg1 c) (hA : dat.A 1 = V c (Pipeline.arrRef spec1 1))
    (hafter : ∀ t, dat.after 1 t = nblk V c 1 t) (t : Fin cfg1.N) (d) : dat.before 1 t d = nblk V c 1 t :=
  (dat.before_in_eq_fetched 1 rfl (fun _ => rfl) (fun _ _ _ => rfl) (fun t => by rw [hafter]; unfold Dat.blockOf nblk; rw [hA]; try rfl) t d).trans
    (by unfold Dat.fetched Dat.blockOf nblk; rw [hA]; try rfl)

/-! ## What the body leaves in each output buffer -/

/-- The rectangles the body touches: each a whole buffer. -/
abbrev rS : Rect S2048x4 := Rect.unit (s := S2048x4) ![0, 0] S2048x4.size inb_S2048x4_S2048x4_0_0
abbrev rW : Rect S4x64 := Rect.unit (s := S4x64) ![0, 0] S4x64.size inb_S4x64_S4x64_0_0
abbrev rO : Rect S2048x64 := Rect.unit (s := S2048x64) ![0, 0] S2048x64.size inb_S2048x64_S2048x64_0_0

/-- The real-part buffer after the body: one store of the whole block. -/
def nout2 (x0 : Vec F S2048x4 .f32) (x1 : Vec F S4x64 .f32) : Vec F S2048x64 .f32 :=
  View.canon [⟨rO, k1_pay11 (View.ld x0 rS) (View.ld x1 rW)⟩]
/-- The imaginary-part buffer after the body: one store of the whole block. -/
def nout3 (x0 : Vec F S2048x4 .f32) (x1 : Vec F S4x64 .f32) : Vec F S2048x64 .f32 :=
  View.canon [⟨rO, k1_pay12 (View.ld x0 rS) (View.ld x1 rW)⟩]

/-- A single store of the whole buffer covers it. -/
theorem ncover (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

/-! ## The body's triple -/

set_option maxHeartbeats 4000000 in
/-- The body on whole staging buffers — the inputs' at contents x0, x1, the outputs' at anything — runs to the
    continuation with the inputs as they were and each output at its combination of the inputs. -/
theorem node_body (c : Dev nD) (E : Set ℕ) (i : grid1.Coords) (a1 : Memref sig .tc .vmem S2048x4 .f32) (h1 : a1.IsWhole) (a2 : Memref sig .tc .vmem S4x64 .f32) (h2 : a2.IsWhole) (a3 : Memref sig .tc .vmem S2048x64 .f32) (h3 : a3.IsWhole) (a4 : Memref sig .tc .vmem S2048x64 .f32) (h4 : a4.IsWhole)
    (x0 : Vec F S2048x4 .f32) (x1 : Vec F S4x64 .f32) (K : PUnit → sProp 𝕄) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (iprop(owns (c : Thread nD τ) a1 fullShare x0 ∗ owns (c : Thread nD τ) a2 fullShare x1
            ∗ owns (c : Thread nD τ) a3 fullShare (nout2 x0 x1) ∗ owns (c : Thread nD τ) a4 fullShare (nout3 x0 x1)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (ncover _)
  iexists _; isplitr
  swap; · iexact H3
  ipureintro
  exact View.read_writes_eq_canon _ _ _ (ncover _)

/-! ## The pipeline's proof data -/

/-- The proof data of the second pipeline on core c: the arrays as the region finds them; after the body at point t
    each input's buffer at its block and each output's at its combination of the input blocks; the invariant the scoped
    rest and the generator register, untouched; nothing owed; full shares. -/
def ndat (c : Dev nD) : Dat τ (Elt F) Unit ℕ (UR sig nD τ) ℕ cfg1 c where
  A w := V c (Pipeline.arrRef spec1 w)
  after w t := match w with
    | ⟨0, _⟩ => nblk V c 0 t
    | ⟨1, _⟩ => nblk V c 1 t
    | ⟨2, _⟩ => nout2 (nblk V c 0 t) (nblk V c 1 t)
    | ⟨3, _⟩ => nout3 (nblk V c 0 t) (nblk V c 1 t)
    | ⟨_ + 4, h⟩ => absurd h (Nat.not_lt.2 (Nat.le_add_left _ _))
  Φ _ := Pipeline.ΦA spec1 c
  q _ := fullShare
  owed _ := 0

theorem nA_eq (c : Dev nD) (w : Fin cfg1.W) : (ndat V c).A w = V c (Pipeline.arrRef spec1 w) := by
  dsimp only [ndat]

theorem nafter0 (c : Dev nD) (t : Fin cfg1.N) : (ndat V c).after 0 t = nblk V c 0 t := by dsimp only [ndat]
theorem nafter1 (c : Dev nD) (t : Fin cfg1.N) : (ndat V c).after 1 t = nblk V c 1 t := by dsimp only [ndat]
theorem nafter2 (c : Dev nD) (t : Fin cfg1.N) : (ndat V c).after 2 t = nout2 (nblk V c 0 t) (nblk V c 1 t) := by dsimp only [ndat]
theorem nafter3 (c : Dev nD) (t : Fin cfg1.N) : (ndat V c).after 3 t = nout3 (nblk V c 0 t) (nblk V c 1 t) := by dsimp only [ndat]

theorem nbefore0 (c : Dev nD) (t : Fin cfg1.N) (d) : (ndat V c).before 0 t d = nblk V c 0 t :=
  nbefore0_of V (ndat V c) (nA_eq V c 0) (nafter0 V c) t d
theorem nbefore1 (c : Dev nD) (t : Fin cfg1.N) (d) : (ndat V c).before 1 t d = nblk V c 1 t :=
  nbefore1_of V (ndat V c) (nA_eq V c 1) (nafter1 V c) t d

/-! ## The body obligation, at a generic point -/

/-- What the body is called with at point t, window by window, -/
def nPre (c : Dev nD) (t : Fin cfg1.N) : sProp 𝕄 :=
  iprop((ndat V c).Φ t.castSucc ∗ (ndat V c).owesAt () t.castSucc
    ∗ (∃ d, owns (c : Thread nD τ) (st1_0 t) fullShare ((ndat V c).before 0 t d))
    ∗ (∃ d, owns (c : Thread nD τ) (st1_1 t) fullShare ((ndat V c).before 1 t d))
    ∗ (∃ d, owns (c : Thread nD τ) (st1_2 t) fullShare ((ndat V c).before 2 t d))
    ∗ (∃ d, owns (c : Thread nD τ) (st1_3 t) fullShare ((ndat V c).before 3 t d)))

/-- and what it returns. -/
def nPost (c : Dev nD) (t : Fin cfg1.N) : sProp 𝕄 :=
  iprop((ndat V c).Φ t.succ ∗ (ndat V c).owesAt () t.succ
    ∗ owns (c : Thread nD τ) (st1_0 t) fullShare ((ndat V c).after 0 t)
    ∗ owns (c : Thread nD τ) (st1_1 t) fullShare ((ndat V c).after 1 t)
    ∗ owns (c : Thread nD τ) (st1_2 t) fullShare ((ndat V c).after 2 t)
    ∗ owns (c : Thread nD τ) (st1_3 t) fullShare ((ndat V c).after 3 t))

set_option maxHeartbeats 4000000 in
/-- The body at any point: the inputs' buffers hold their blocks, so the body's triple applies; the invariant and
    the core's dues pass through unread. -/
theorem node_body_at (c : Dev nD) (t : Fin cfg1.N) :
    nPre V c t ⊢ wp frame (wpE (defs₀ (F := F)) Variants.none c none) Set.univ (bodyAt1 t) (fun _ => nPost V c t) := by
  unfold nPre nPost bodyAt1
  simp only [nbefore0, nbefore1]
  rw [show (ndat V c).Φ t.succ = (ndat V c).Φ t.castSucc from rfl,
    show (ndat V c).owesAt () t.succ = (ndat V c).owesAt () t.castSucc from rfl,
    nafter0, nafter1, nafter2, nafter3]
  iintro ⟨HΦ, Ho, ⟨%d0, H0⟩, ⟨%d1, H1⟩, ⟨%d2, H2⟩, ⟨%d3, H3⟩⟩
  iapply (node_body c Set.univ _ _ _ _ _ _ _ _ _ (nblk V c 0 t) (nblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem node_obligation (c : Dev nD) : BodyObligation (ndat (F := F) V c) (defs₀ (F := F)) Variants.none () Set.univ := fun t => by
  rw [bigSep_W1, bigSep_W1]
  exact node_body_at V c t

end Cert.Kernel.Pipes

end
-- ==== Proof.WholeRunBits.lean ====
/-
  The whole run of the kernel program: three stretches of host operations around two kernel regions.

  The contents of the core's unscoped buffers are followed from the launch memory through the five items: a host
  stretch applies its operations; a region leaves each of its arrays at what its write-backs make of it (an input
  array as entered) and every other buffer as entered. Each region is a segment of the run over the thread state
  "every unscoped buffer at the boundary's contents, the generator register at some state, nothing owed"; the run of
  the segments is the program, and at the end every unscoped buffer holds the last boundary's contents. Both the
  frame (each argument array ends as launched) and the value of the result are read off that one statement.
-/
import proofs.«140219_j61804579389717_1_alg».proof.Proof.Gen.Kernel.Regions
import proofs.«140219_j61804579389717_1_alg».proof.Proof.EdgeRegionBits
import proofs.«140219_j61804579389717_1_alg».proof.Proof.NodeRegionBits

set_option maxRecDepth 16384

noncomputable section

namespace Cert.Kernel.Pipes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (edat (U1 m ρ) c).arrAt w cfg0.N
theorem W2_arr (c : Dev nD) (w : Fin cfg0.W) :
    W2 m ρ c (Proc.devRef .tc (Pipeline.arrRef spec0 w)) = (edat (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (edat (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (ndat (U3 m ρ) c).arrAt w cfg1.N
theorem W4_arr (c : Dev nD) (w : Fin cfg1.W) :
    W4 m ρ c (Proc.devRef .tc (Pipeline.arrRef spec1 w)) = (ndat (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (ndat (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the contents the program ends with. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => edat (U1 m ρ) c
  | ⟨1, _⟩ => fun c => ndat (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues, at
    nothing. -/
abbrev R (c : Dev nD) : sProp 𝕄 := iprop((∃ r, prngReg c r) ∗ ∃ W, owes (c : Thread nD τ) (0 : CellTallies nD τ sig Unit) W)
/-- A host stretch as a segment over the unscoped references, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tend (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at W1, left at W2. Its arrays are split out
    of the unscoped buffers and put back at what the write-backs leave; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (edge_obligation (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at W3, left at W4. Its arrays are split out
    of the unscoped buffers and put back at what the write-backs leave; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (node_obligation (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN: from any memory with zero counters every weakly fair execution of the program terminates, nothing
    faulting, and every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The same contents, over the regions' outputs named -/

/-- What the two regions leave in their output arrays, as the unknowns of the generated boundary contents. -/
def regionOuts : Gen.Outs (F := F) := fun J r c =>
  match J with
  | 2 => W2 m ρ c (Proc.devRef .tc r)
  | _ => W4 m ρ c (Proc.devRef .tc r)

theorem W1_eq (c : Dev nD) : W1 m ρ c = Gen.V1 m c := rfl

end Cert.Kernel.Pipes

end
-- ==== Proof.BoundariesBits.lean ====
/-
  The contents of the buffers at each boundary of the run, with the regions' outputs named.

  The run's contents at a region's exit are the entry contents with the region's arrays replaced by what its
  write-backs leave. Naming what the two regions leave in their OUTPUT arrays — the four edge products after the
  first, the two combined parts after the second — the exit contents are the entry contents updated at those arrays
  only (an input array is left as entered), which is the form the boundary contents are stated in over unknown
  outputs. So every fact about those contents holds of the run's: in particular each argument array ends as
  launched, and the result array ends at the last stretch's operations of the second region's outputs.
-/
import proofs.«140219_j61804579389717_1_alg».proof.Proof.WholeRunBits

set_option maxRecDepth 16384

noncomputable section

namespace Cert.Kernel.Pipes

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The first region's exit -/

theorem W2_eq (c : Dev nD) : W2 m ρ c = Gen.V2 m (regionOuts m ρ) c := by
  funext b
  by_cases hb : ∃ w, Proc.devRef .tc (Pipeline.arrRef spec0 w) = b
  · obtain ⟨w, rfl⟩ := hb
    match w with
    | ⟨0, _⟩ => exact ((W2_arr m ρ c 0).trans (((edat (U1 m ρ) c).arrAt_in 0 rfl _).trans (eA_eq (U1 m ρ) c 0))).trans (Gen.V2_of m _ c main_arg3 (by decide)).symm
    | ⟨1, _⟩ => exact ((W2_arr m ρ c 1).trans (((edat (U1 m ρ) c).arrAt_in 1 rfl _).trans (eA_eq (U1 m ρ) c 1))).trans (Gen.V2_of m _ c main_v19 (by decide)).symm
    | ⟨2, _⟩ => exact ((W2_arr m ρ c 2).trans (((edat (U1 m ρ) c).arrAt_in 2 rfl _).trans (eA_eq (U1 m ρ) c 2))).trans (Gen.V2_of m _ c main_v30 (by decide)).symm
    | ⟨3, _⟩ => exact ((W2_arr m ρ c 3).trans (((edat (U1 m ρ) c).arrAt_in 3 rfl _).trans (eA_eq (U1 m ρ) c 3))).trans (Gen.V2_of m _ c main_v41 (by decide)).symm
    | ⟨4, _⟩ =>
      show W2 m ρ c (Proc.devRef .tc main_v42_0) = Gen.V2 m (regionOuts m ρ) c (Proc.devRef .tc main_v42_0)
      simp only [Gen.V2, Function.update_of_ne (StableHlo.devRef_ne_of_ne (by decide) : (Proc.devRef .tc main_v42_0 : DevRef τ sig) ≠ Proc.devRef .tc main_v42_1), Function.update_of_ne (StableHlo.devRef_ne_of_ne (by decide) : (Proc.devRef .tc main_v42_0 : DevRef τ sig) ≠ Proc.devRef .tc main_v42_2), Function.update_of_ne (StableHlo.devRef_ne_of_ne (by decide) : (Proc.devRef .tc main_v42_0 : DevRef τ sig) ≠ Proc.devRef .tc main_v42_3), Function.update_self]
      rfl
    | ⟨5, _⟩ =>
      show W2 m ρ c (Proc.devRef .tc main_v42_1) = Gen.V2 m (regionOuts m ρ) c (Proc.devRef .tc main_v42_1)
      simp only [Gen.V2, Function.update_of_ne (StableHlo.devRef_ne_of_ne (by decide) : (Proc.devRef .tc main_v42_1 : DevRef τ sig) ≠ Proc.devRef .tc main_v42_2), Function.update_of_ne (StableHlo.devRef_ne_of_ne (by decide) : (Proc.devRef .tc main_v42_1 : DevRef τ sig) ≠ Proc.devRef .tc main_v42_3), Function.update_self]
      rfl
    | ⟨6, _⟩ =>
      show W2 m ρ c (Proc.devRef .tc main_v42_2) = Gen.V2 m (regionOuts m ρ) c (Proc.devRef .tc main_v42_2)
      simp only [Gen.V2, Function.update_of_ne (StableHlo.devRef_ne_of_ne (by decide) : (Proc.devRef .tc main_v42_2 : DevRef τ sig) ≠ Proc.devRef .tc main_v42_3), Function.update_self]
      rfl
    | ⟨7, _⟩ =>
      show W2 m ρ c (Proc.devRef .tc main_v42_3) = Gen.V2 m (regionOuts m ρ) c (Proc.devRef .tc main_v42_3)
      simp only [Gen.V2, Function.update_self]
      rfl
  · have h1 : W2 m ρ c b = W1 m ρ c b := by unfold W2 Pipeline.withArrays; rw [dif_neg hb]
    have ne : ∀ w, b ≠ Proc.devRef .tc (Pipeline.arrRef spec0 w) := fun w e => hb ⟨w, e.symm⟩
    rw [h1]
    show Gen.V1 m c b = _
    simp only [Gen.V2, Function.update_of_ne (ne 7), Function.update_of_ne (ne 6), Function.update_of_ne (ne 5), Function.update_of_ne (ne 4)]

theorem W3_eq (c : Dev nD) : W3 m ρ c = Gen.V3 m (regionOuts m ρ) c := by
  show StableHlo.after hostOps1 (W2 m ρ c) = StableHlo.after hostOps1 (Gen.V2 m (regionOuts m ρ) c)
  rw [W2_eq]

/-! ## The second region's exit -/

theorem W4_eq (c : Dev nD) : W4 m ρ c = Gen.V4 m (regionOuts m ρ) c := by
  funext b
  by_cases hb : ∃ w, Proc.devRef .tc (Pipeline.arrRef spec1 w) = b
  · obtain ⟨w, rfl⟩ := hb
    match w with
    | ⟨0, _⟩ => exact ((W4_arr m ρ c 0).trans (((ndat (U3 m ρ) c).arrAt_in 0 rfl _).trans (nA_eq (U3 m ρ) c 0))).trans ((congrFun (W3_eq m ρ c) _).trans (Gen.V4_of m _ c main_v59 (by decide)).symm)
    | ⟨1, _⟩ => exact ((W4_arr m ρ c 1).trans (((ndat (U3 m ρ) c).arrAt_in 1 rfl _).trans (nA_eq (U3 m ρ) c 1))).trans ((congrFun (W3_eq m ρ c) _).trans (Gen.V4_of m _ c main_v64 (by decide)).symm)
    | ⟨2, _⟩ =>
      show W4 m ρ c (Proc.devRef .tc main_v65_0) = Gen.V4 m (regionOuts m ρ) c (Proc.devRef .tc main_v65_0)
      simp only [Gen.V4, Function.update_of_ne (StableHlo.devRef_ne_of_ne (by decide) : (Proc.devRef .tc main_v65_0 : DevRef τ sig) ≠ Proc.devRef .tc main_v65_1), Function.update_self]
      rfl
    | ⟨3, _⟩ =>
      show W4 m ρ c (Proc.devRef .tc main_v65_1) = Gen.V4 m (regionOuts m ρ) c (Proc.devRef .tc main_v65_1)
      simp only [Gen.V4, Function.update_self]
      rfl
  · have h1 : W4 m ρ c b = W3 m ρ c b := by unfold W4 Pipeline.withArrays; rw [dif_neg hb]
    have ne : ∀ w, b ≠ Proc.devRef .tc (Pipeline.arrRef spec1 w) := fun w e => hb ⟨w, e.symm⟩
    rw [h1, W3_eq]
    simp only [Gen.V4, Function.update_of_ne (ne 3), Function.update_of_ne (ne 2)]

theorem W5_eq (c : Dev nD) : W5 m ρ c = Gen.V5 m (regionOuts m ρ) c := by
  show StableHlo.after hostOps2 (W4 m ρ c) = StableHlo.after hostOps2 (Gen.V4 m (regionOuts m ρ) c)
  rw [W4_eq]

/-! ## The run, read -/

/-- The program runs, the result array ends at the last boundary's contents and every argument array as launched. -/
theorem run_read : θ_run defs (onTc (τ := τ) (main (F := F))) ⟨m, fun _ => 0, ρ⟩ (fun r => ∀ c : Dev nD,
      r.2.mem ((c.tc : Thread nD τ).loc main_v68) = Gen.V5 m (regionOuts m ρ) c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v68 (by decide))).trans (congrFun (W5_eq m ρ c) _),
     (h c _ (mem_uc main_arg0 (by decide))).trans ((congrFun (W5_eq m ρ c) _).trans (Gen.V5_main_arg0 m (regionOuts m ρ) c)),
     (h c _ (mem_uc main_arg1 (by decide))).trans ((congrFun (W5_eq m ρ c) _).trans (Gen.V5_main_arg1 m (regionOuts m ρ) c)),
     (h c _ (mem_uc main_arg2 (by decide))).trans ((congrFun (W5_eq m ρ c) _).trans (Gen.V5_main_arg2 m (regionOuts m ρ) c)),
     (h c _ (mem_uc main_arg3 (by decide))).trans ((congrFun (W5_eq m ρ c) _).trans (Gen.V5_main_arg3 m (regionOuts m ρ) c)),
     (h c _ (mem_uc main_arg4 (by decide))).trans ((congrFun (W5_eq m ρ c) _).trans (Gen.V5_main_arg4 m (regionOuts m ρ) c)),
     (h c _ (mem_uc main_arg5 (by decide))).trans ((congrFun (W5_eq m ρ c) _).trans (Gen.V5_main_arg5 m (regionOuts m ρ) c)),
     (h c _ (mem_uc main_arg6 (by decide))).trans ((congrFun (W5_eq m ρ c) _).trans (Gen.V5_main_arg6 m (regionOuts m ρ) c)),
     (h c _ (mem_uc main_arg7 (by decide))).trans ((congrFun (W5_eq m ρ c) _).trans (Gen.V5_main_arg7 m (regionOuts m ρ) c)),
     (h c _ (mem_uc main_arg8 (by decide))).trans ((congrFun (W5_eq m ρ c) _).trans (Gen.V5_main_arg8 m (regionOuts m ρ) c))⟩)
    (run_all m ρ)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_read m ρ)

end Cert.Kernel.Pipes

end
-- ==== Proof.EdgeRegion.lean ====
/-
  The first kernel region, edge by edge.

  Its grid has 16 points. At point t each of the four input windows holds block t — 98304 consecutive edges — of its
  array: the edge weights w, the same-community mask s as a float, the real part xr and the imaginary part xi of the
  edge's source node. The body leaves in the four output windows' buffers, entry by entry,

      (w·s)·xr,   (w·s)·xi,   (w − w·s)·xr,   (w − w·s)·xi.

  Stated here, for any float instance and any contents V of the buffers at the region's entry: what the body leaves
  in each buffer as a function of the input blocks, the body's triple, and the pipeline's body obligation over proof
  data whose arrays are V's.
-/
import proofs.«140219_j61804579389717_1_alg».proof.Proof.Gen.KernelIdeal.Launch
import proofs.«140219_j61804579389717_1_alg».proof.Proof.Gen.KernelIdeal.Skeleton
import proofs.«140219_j61804579389717_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window w's block at point t, read off its array as the region finds it. -/
def eblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any proof data whose
    array is V's and whose body leaves the block in place. -/
theorem ebefore0_of {c : Dev nD} (dat : Dat τ (Elt F) Unit ℕ (UR sig nD τ) ℕ cfg0 c) (hA : dat.A 0 = V c (Pipeline.arrRef spec0 0))
    (hafter : ∀ t, dat.after 0 t = eblk V c 0 t) (t : Fin cfg0.N) (d) : dat.before 0 t d = eblk V c 0 t :=
  (dat.before_in_eq_fetched 0 rfl (fun _ => rfl) (fun _ _ _ => rfl) (fun t => by rw [hafter]; unfold Dat.blockOf eblk; rw [hA]; try rfl) t d).trans
    (by unfold Dat.fetched Dat.blockOf eblk; rw [hA]; try rfl)

/-- Input window 1's current buffer holds its block at every point, fetched there or not, for any proof data whose
    array is V's and whose body leaves the block in place. -/
theorem ebefore1_of {c : Dev nD} (dat : Dat τ (Elt F) Unit ℕ (UR sig nD τ) ℕ cfg0 c) (hA : dat.A 1 = V c (Pipeline.arrRef spec0 1))
    (hafter : ∀ t, dat.after 1 t = eblk V c 1 t) (t : Fin cfg0.N) (d) : dat.before 1 t d = eblk V c 1 t :=
  (dat.before_in_eq_fetched 1 rfl (fun _ => rfl) (fun _ _ _ => rfl) (fun t => by rw [hafter]; unfold Dat.blockOf eblk; rw [hA]; try rfl) t d).trans
    (by unfold Dat.fetched Dat.blockOf eblk; rw [hA]; try rfl)

/-- Input window 2's current buffer holds its block at every point, fetched there or not, for any proof data whose
    array is V's and whose body leaves the block in place. -/
theorem ebefore2_of {c : Dev nD} (dat : Dat τ (Elt F) Unit ℕ (UR sig nD τ) ℕ cfg0 c) (hA : dat.A 2 = V c (Pipeline.arrRef spec0 2))
    (hafter : ∀ t, dat.after 2 t = eblk V c 2 t) (t : Fin cfg0.N) (d) : dat.before 2 t d = eblk V c 2 t :=
  (dat.before_in_eq_fetched 2 rfl (fun _ => rfl) (fun _ _ _ => rfl) (fun t => by rw [hafter]; unfold Dat.blockOf eblk; rw [hA]; try rfl) t d).trans
    (by unfold Dat.fetched Dat.blockOf eblk; rw [hA]; try rfl)

/-- Input window 3's current buffer holds its block at every point, fetched there or not, for any proof data whose
    array is V's and whose body leaves the block in place. -/
theorem ebefore3_of {c : Dev nD} (dat : Dat τ (Elt F) Unit ℕ (UR sig nD τ) ℕ cfg0 c) (hA : dat.A 3 = V c (Pipeline.arrRef spec0 3))
    (hafter : ∀ t, dat.after 3 t = eblk V c 3 t) (t : Fin cfg0.N) (d) : dat.before 3 t d = eblk V c 3 t :=
  (dat.before_in_eq_fetched 3 rfl (fun _ => rfl) (fun _ _ _ => rfl) (fun t => by rw [hafter]; unfold Dat.blockOf eblk; rw [hA]; try rfl) t d).trans
    (by unfold Dat.fetched Dat.blockOf eblk; rw [hA]; try rfl)

/-! ## What the body leaves in each output buffer -/

/-- The one rectangle the body touches: a whole buffer of 98304 entries. -/
abbrev rE : Rect S98304 := Rect.unit (s := S98304) ![0] S98304.size inb_S98304_S98304_0

/-- Output window 4's buffer after the body: one store of the whole block, (w·s)·xr of the input blocks. -/
def eout4 (x0 x1 x2 : Vec F S98304 .f32) : Vec F S98304 .f32 :=
  View.canon [⟨rE, k0_pay5 (View.ld x0 rE) (View.ld x1 rE) (View.ld x2 rE)⟩]

/-- Output window 5's buffer after the body: one store of the whole block, (w·s)·xi of the input blocks. -/
def eout5 (x0 x1 x3 : Vec F S98304 .f32) : Vec F S98304 .f32 :=
  View.canon [⟨rE, k0_pay6 (View.ld x0 rE) (View.ld x1 rE) (View.ld x3 rE)⟩]

/-- Output window 6's buffer after the body: one store of the whole block, (w − w·s)·xr of the input blocks. -/
def eout6 (x0 x1 x2 : Vec F S98304 .f32) : Vec F S98304 .f32 :=
  View.canon [⟨rE, k0_pay7 (View.ld x0 rE) (View.ld x1 rE) (View.ld x2 rE)⟩]

/-- Output window 7's buffer after the body: one store of the whole block, (w − w·s)·xi of the input blocks. -/
def eout7 (x0 x1 x3 : Vec F S98304 .f32) : Vec F S98304 .f32 :=
  View.canon [⟨rE, k0_pay8 (View.ld x0 rE) (View.ld x1 rE) (View.ld x3 rE)⟩]

/-- A single store of the whole buffer covers it. -/
theorem ecover (p0 : Vec F S98304 .f32) (y : S98304.Idx) :
    ∃ pc ∈ ([⟨rE, p0⟩] : List (View.Piece (Elt F) S98304 .f32)), y ∈ pc.1.set :=
  View.cover_of_tiled [⟨rE, p0⟩] S98304.size (by rfl) y

/-! ## The body's triple -/

set_option maxHeartbeats 4000000 in
/-- The body on whole staging buffers — the inputs' at contents x0 … x3, the outputs' at anything — runs to the
    continuation with the inputs as they were and each output at its product of the inputs. -/
theorem edge_body (c : Dev nD) (E : Set ℕ) (i : grid0.Coords)
    (a1 : Memref sig .tc .vmem S98304 .f32) (h1 : a1.IsWhole) (a2 : Memref sig .tc .vmem S98304 .f32) (h2 : a2.IsWhole) (a3 : Memref sig .tc .vmem S98304 .f32) (h3 : a3.IsWhole) (a4 : Memref sig .tc .vmem S98304 .f32) (h4 : a4.IsWhole) (a5 : Memref sig .tc .vmem S98304 .f32) (h5 : a5.IsWhole) (a6 : Memref sig .tc .vmem S98304 .f32) (h6 : a6.IsWhole) (a7 : Memref sig .tc .vmem S98304 .f32) (h7 : a7.IsWhole) (a8 : Memref sig .tc .vmem S98304 .f32) (h8 : a8.IsWhole)
    (x0 x1 x2 x3 : Vec F S98304 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (eout4 x0 x1 x2) ∗ owns (c : Thread nD τ) a6 fullShare (eout5 x0 x1 x3) ∗ owns (c : Thread nD τ) a7 fullShare (eout6 x0 x1 x2) ∗ owns (c : Thread nD τ) a8 fullShare (eout7 x0 x1 x3)) -∗ K ⟨⟩))
      ⊢ wp frame (wpE (defs₀ (F := F)) Variants.none c none) E (cc0__edge_prep_kernel i a1 h1 a2 h2 a3 h3 a4 h4 a5 h5 a6 h6 a7 h7 a8 h8) K := by
  simp only [cc0__edge_prep_kernel_eq_skeleton]; unfold cc0__edge_prep_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (ecover _)
  isplitl [H5]
  · iexists _; isplitr
    swap; · iexact H5
    ipureintro
    exact View.read_writes_eq_canon _ _ _ (ecover _)
  isplitl [H6]
  · iexists _; isplitr
    swap; · iexact H6
    ipureintro
    exact View.read_writes_eq_canon _ _ _ (ecover _)
  iexists _; isplitr
  swap; · iexact H7
  ipureintro
  exact View.read_writes_eq_canon _ _ _ (ecover _)

/-! ## The pipeline's proof data -/

/-- The proof data of the first pipeline on core c: the arrays as the region finds them; after the body at point t each
    input's buffer at its block and each output's at its product of the input blocks; the invariant the scoped rest
    and the generator register, untouched; nothing owed; full shares. -/
def edat (c : Dev nD) : Dat τ (Elt F) Unit ℕ (UR sig nD τ) ℕ cfg0 c where
  A w := V c (Pipeline.arrRef spec0 w)
  after w t := match w with
    | ⟨0, _⟩ => eblk V c 0 t
    | ⟨1, _⟩ => eblk V c 1 t
    | ⟨2, _⟩ => eblk V c 2 t
    | ⟨3, _⟩ => eblk V c 3 t
    | ⟨4, _⟩ => eout4 (eblk V c 0 t) (eblk V c 1 t) (eblk V c 2 t)
    | ⟨5, _⟩ => eout5 (eblk V c 0 t) (eblk V c 1 t) (eblk V c 3 t)
    | ⟨6, _⟩ => eout6 (eblk V c 0 t) (eblk V c 1 t) (eblk V c 2 t)
    | ⟨7, _⟩ => eout7 (eblk V c 0 t) (eblk V c 1 t) (eblk V c 3 t)
    | ⟨_ + 8, h⟩ => absurd h (Nat.not_lt.2 (Nat.le_add_left _ _))
  Φ _ := Pipeline.ΦA spec0 c
  q _ := fullShare
  owed _ := 0

theorem eA_eq (c : Dev nD) (w : Fin cfg0.W) : (edat V c).A w = V c (Pipeline.arrRef spec0 w) := by
  dsimp only [edat]

theorem eafter0 (c : Dev nD) (t : Fin cfg0.N) : (edat V c).after 0 t = eblk V c 0 t := by dsimp only [edat]
theorem eafter1 (c : Dev nD) (t : Fin cfg0.N) : (edat V c).after 1 t = eblk V c 1 t := by dsimp only [edat]
theorem eafter2 (c : Dev nD) (t : Fin cfg0.N) : (edat V c).after 2 t = eblk V c 2 t := by dsimp only [edat]
theorem eafter3 (c : Dev nD) (t : Fin cfg0.N) : (edat V c).after 3 t = eblk V c 3 t := by dsimp only [edat]
theorem eafter4 (c : Dev nD) (t : Fin cfg0.N) : (edat V c).after 4 t = eout4 (eblk V c 0 t) (eblk V c 1 t) (eblk V c 2 t) := by dsimp only [edat]
theorem eafter5 (c : Dev nD) (t : Fin cfg0.N) : (edat V c).after 5 t = eout5 (eblk V c 0 t) (eblk V c 1 t) (eblk V c 3 t) := by dsimp only [edat]
theorem eafter6 (c : Dev nD) (t : Fin cfg0.N) : (edat V c).after 6 t = eout6 (eblk V c 0 t) (eblk V c 1 t) (eblk V c 2 t) := by dsimp only [edat]
theorem eafter7 (c : Dev nD) (t : Fin cfg0.N) : (edat V c).after 7 t = eout7 (eblk V c 0 t) (eblk V c 1 t) (eblk V c 3 t) := by dsimp only [edat]

theorem ebefore0 (c : Dev nD) (t : Fin cfg0.N) (d) : (edat V c).before 0 t d = eblk V c 0 t :=
  ebefore0_of V (edat V c) (eA_eq V c 0) (eafter0 V c) t d
theorem ebefore1 (c : Dev nD) (t : Fin cfg0.N) (d) : (edat V c).before 1 t d = eblk V c 1 t :=
  ebefore1_of V (edat V c) (eA_eq V c 1) (eafter1 V c) t d
theorem ebefore2 (c : Dev nD) (t : Fin cfg0.N) (d) : (edat V c).before 2 t d = eblk V c 2 t :=
  ebefore2_of V (edat V c) (eA_eq V c 2) (eafter2 V c) t d
theorem ebefore3 (c : Dev nD) (t : Fin cfg0.N) (d) : (edat V c).before 3 t d = eblk V c 3 t :=
  ebefore3_of V (edat V c) (eA_eq V c 3) (eafter3 V c) t d

/-! ## The body obligation, at a generic point -/

/-- What the body is called with at point t, window by window, -/
def ePre (c : Dev nD) (t : Fin cfg0.N) : sProp 𝕄 :=
  iprop((edat V c).Φ t.castSucc ∗ (edat V c).owesAt () t.castSucc
    ∗ (∃ d, owns (c : Thread nD τ) (st0_0 t) fullShare ((edat V c).before 0 t d))
    ∗ (∃ d, owns (c : Thread nD τ) (st0_1 t) fullShare ((edat V c).before 1 t d))
    ∗ (∃ d, owns (c : Thread nD τ) (st0_2 t) fullShare ((edat V c).before 2 t d))
    ∗ (∃ d, owns (c : Thread nD τ) (st0_3 t) fullShare ((edat V c).before 3 t d))
    ∗ (∃ d, owns (c : Thread nD τ) (st0_4 t) fullShare ((edat V c).before 4 t d))
    ∗ (∃ d, owns (c : Thread nD τ) (st0_5 t) fullShare ((edat V c).before 5 t d))
    ∗ (∃ d, owns (c : Thread nD τ) (st0_6 t) fullShare ((edat V c).before 6 t d))
    ∗ (∃ d, owns (c : Thread nD τ) (st0_7 t) fullShare ((edat V c).before 7 t d)))

/-- and what it returns. -/
def ePost (c : Dev nD) (t : Fin cfg0.N) : sProp 𝕄 :=
  iprop((edat V c).Φ t.succ ∗ (edat V c).owesAt () t.succ
    ∗ owns (c : Thread nD τ) (st0_0 t) fullShare ((edat V c).after 0 t)
    ∗ owns (c : Thread nD τ) (st0_1 t) fullShare ((edat V c).after 1 t)
    ∗ owns (c : Thread nD τ) (st0_2 t) fullShare ((edat V c).after 2 t)
    ∗ owns (c : Thread nD τ) (st0_3 t) fullShare ((edat V c).after 3 t)
    ∗ owns (c : Thread nD τ) (st0_4 t) fullShare ((edat V c).after 4 t)
    ∗ owns (c : Thread nD τ) (st0_5 t) fullShare ((edat V c).after 5 t)
    ∗ owns (c : Thread nD τ) (st0_6 t) fullShare ((edat V c).after 6 t)
    ∗ owns (c : Thread nD τ) (st0_7 t) fullShare ((edat V c).after 7 t))

set_option maxHeartbeats 4000000 in
/-- The body at any point: the inputs' buffers hold their blocks, so the body's triple applies; the invariant and
    the core's dues pass through unread. -/
theorem edge_body_at (c : Dev nD) (t : Fin cfg0.N) :
    ePre V c t ⊢ wp frame (wpE (defs₀ (F := F)) Variants.none c none) Set.univ (bodyAt0 t) (fun _ => ePost V c t) := by
  unfold ePre ePost bodyAt0
  simp only [ebefore0, ebefore1, ebefore2, ebefore3]
  rw [show (edat V c).Φ t.succ = (edat V c).Φ t.castSucc from rfl,
    show (edat V c).owesAt () t.succ = (edat V c).owesAt () t.castSucc from rfl,
    eafter0, eafter1, eafter2, eafter3, eafter4, eafter5, eafter6, eafter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge_body c Set.univ _ _ _ _ _ _ _ _ _ _ _ _ _ _ _ _ _ (eblk V c 0 t) (eblk V c 1 t) (eblk V c 2 t) (eblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem edge_obligation (c : Dev nD) : BodyObligation (edat (F := F) V c) (defs₀ (F := F)) Variants.none () Set.univ := fun t => by
  rw [bigSep_W0, bigSep_W0]
  exact edge_body_at V c t

end Cert.KernelIdeal.Pipes

end
-- ==== Proof.NodeRegion.lean ====
/-
  The second kernel region, node by node.

  Its grid has 48 points. At point t the first input window holds block t — 2048 consecutive nodes, four columns — of
  the [98304, 4] array of edge sums (Sr, Si of the local branch, then of the global branch), and the second input
  window holds the whole [4, 64] array of weight rows (Wr, Wi local, then global), staged once. With
  silu u = u · logistic u the body leaves in the two output windows' buffers, at node n and feature h,

      silu (Sr_l·Wr_l − Si_l·Wi_l) + silu (Sr_g·Wr_g − Si_g·Wi_g)     (the real part)
      silu (Sr_l·Wi_l + Si_l·Wr_l) + silu (Sr_g·Wi_g + Si_g·Wr_g)     (the imaginary part).

  Stated here, for any float instance and any contents V of the buffers at the region's entry: what the body leaves
  in each buffer as a function of the input blocks, the body's triple, and the pipeline's body obligation.
-/
import proofs.«140219_j61804579389717_1_alg».proof.Proof.Gen.KernelIdeal.Launch
import proofs.«140219_j61804579389717_1_alg».proof.Proof.Gen.KernelIdeal.Skeleton
import proofs.«140219_j61804579389717_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window w's block at point t, read off its array as the region finds it. -/
def nblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not, for any proof data whose
    array is V's and whose body leaves the block in place. -/
theorem nbefore0_of {c : Dev nD} (dat : Dat τ (Elt F) Unit ℕ (UR sig nD τ) ℕ cfg1 c) (hA : dat.A 0 = V c (Pipeline.arrRef spec1 0))
    (hafter : ∀ t, dat.after 0 t = nblk V c 0 t) (t : Fin cfg1.N) (d) : dat.before 0 t d = nblk V c 0 t :=
  (dat.before_in_eq_fetched 0 rfl (fun _ => rfl) (fun _ _ _ => rfl) (fun t => by rw [hafter]; unfold Dat.blockOf nblk; rw [hA]; try rfl) t d).trans
    (by unfold Dat.fetched Dat.blockOf nblk; rw [hA]; try rfl)

/-- Input window 1's current buffer holds its block at every point, fetched there or not, for any proof data whose
    array is V's and whose body leaves the block in place. -/
theorem nbefore1_of {c : Dev nD} (dat : Dat τ (Elt F) Unit ℕ (UR sig nD τ) ℕ cfg1 c) (hA : dat.A 1 = V c (Pipeline.arrRef spec1 1))
    (hafter : ∀ t, dat.after 1 t = nblk V c 1 t) (t : Fin cfg1.N) (d) : dat.before 1 t d = nblk V c 1 t :=
  (dat.before_in_eq_fetched 1 rfl (fun _ => rfl) (fun _ _ _ => rfl) (fun t => by rw [hafter]; unfold Dat.blockOf nblk; rw [hA]; try rfl) t d).trans
    (by unfold Dat.fetched Dat.blockOf nblk; rw [hA]; try rfl)

/-! ## What the body leaves in each output buffer -/

/-- The rectangles the body touches: each a whole buffer. -/
abbrev rS : Rect S2048x4 := Rect.unit (s := S2048x4) ![0, 0] S2048x4.size inb_S2048x4_S2048x4_0_0
abbrev rW : Rect S4x64 := Rect.unit (s := S4x64) ![0, 0] S4x64.size inb_S4x64_S4x64_0_0
abbrev rO : Rect S2048x64 := Rect.unit (s := S2048x64) ![0, 0] S2048x64.size inb_S2048x64_S2048x64_0_0

/-- The real-part buffer after the body: one store of the whole block. -/
def nout2 (x0 : Vec F S2048x4 .f32) (x1 : Vec F S4x64 .f32) : Vec F S2048x64 .f32 :=
  View.canon [⟨rO, k1_pay11 (View.ld x0 rS) (View.ld x1 rW)⟩]
/-- The imaginary-part buffer after the body: one store of the whole block. -/
def nout3 (x0 : Vec F S2048x4 .f32) (x1 : Vec F S4x64 .f32) : Vec F S2048x64 .f32 :=
  View.canon [⟨rO, k1_pay12 (View.ld x0 rS) (View.ld x1 rW)⟩]

/-- A single store of the whole buffer covers it. -/
theorem ncover (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

/-! ## The body's triple -/

set_option maxHeartbeats 4000000 in
/-- The body on whole staging buffers — the inputs' at contents x0, x1, the outputs' at anything — runs to the
    continuation with the inputs as they were and each output at its combination of the inputs. -/
theorem node_body (c : Dev nD) (E : Set ℕ) (i : grid1.Coords) (a1 : Memref sig .tc .vmem S2048x4 .f32) (h1 : a1.IsWhole) (a2 : Memref sig .tc .vmem S4x64 .f32) (h2 : a2.IsWhole) (a3 : Memref sig .tc .vmem S2048x64 .f32) (h3 : a3.IsWhole) (a4 : Memref sig .tc .vmem S2048x64 .f32) (h4 : a4.IsWhole)
    (x0 : Vec F S2048x4 .f32) (x1 : Vec F S4x64 .f32) (K : PUnit → sProp 𝕄) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (iprop(owns (c : Thread nD τ) a1 fullShare x0 ∗ owns (c : Thread nD τ) a2 fullShare x1
            ∗ owns (c : Thread nD τ) a3 fullShare (nout2 x0 x1) ∗ owns (c : Thread nD τ) a4 fullShare (nout3 x0 x1)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (ncover _)
  iexists _; isplitr
  swap; · iexact H3
  ipureintro
  exact View.read_writes_eq_canon _ _ _ (ncover _)

/-! ## The pipeline's proof data -/

/-- The proof data of the second pipeline on core c: the arrays as the region finds them; after the body at point t
    each input's buffer at its block and each output's at its combination of the input blocks; the invariant the scoped
    rest and the generator register, untouched; nothing owed; full shares. -/
def ndat (c : Dev nD) : Dat τ (Elt F) Unit ℕ (UR sig nD τ) ℕ cfg1 c where
  A w := V c (Pipeline.arrRef spec1 w)
  after w t := match w with
    | ⟨0, _⟩ => nblk V c 0 t
    | ⟨1, _⟩ => nblk V c 1 t
    | ⟨2, _⟩ => nout2 (nblk V c 0 t) (nblk V c 1 t)
    | ⟨3, _⟩ => nout3 (nblk V c 0 t) (nblk V c 1 t)
    | ⟨_ + 4, h⟩ => absurd h (Nat.not_lt.2 (Nat.le_add_left _ _))
  Φ _ := Pipeline.ΦA spec1 c
  q _ := fullShare
  owed _ := 0

theorem nA_eq (c : Dev nD) (w : Fin cfg1.W) : (ndat V c).A w = V c (Pipeline.arrRef spec1 w) := by
  dsimp only [ndat]

theorem nafter0 (c : Dev nD) (t : Fin cfg1.N) : (ndat V c).after 0 t = nblk V c 0 t := by dsimp only [ndat]
theorem nafter1 (c : Dev nD) (t : Fin cfg1.N) : (ndat V c).after 1 t = nblk V c 1 t := by dsimp only [ndat]
theorem nafter2 (c : Dev nD) (t : Fin cfg1.N) : (ndat V c).after 2 t = nout2 (nblk V c 0 t) (nblk V c 1 t) := by dsimp only [ndat]
theorem nafter3 (c : Dev nD) (t : Fin cfg1.N) : (ndat V c).after 3 t = nout3 (nblk V c 0 t) (nblk V c 1 t) := by dsimp only [ndat]

theorem nbefore0 (c : Dev nD) (t : Fin cfg1.N) (d) : (ndat V c).before 0 t d = nblk V c 0 t :=
  nbefore0_of V (ndat V c) (nA_eq V c 0) (nafter0 V c) t d
theorem nbefore1 (c : Dev nD) (t : Fin cfg1.N) (d) : (ndat V c).before 1 t d = nblk V c 1 t :=
  nbefore1_of V (ndat V c) (nA_eq V c 1) (nafter1 V c) t d

/-! ## The body obligation, at a generic point -/

/-- What the body is called with at point t, window by window, -/
def nPre (c : Dev nD) (t : Fin cfg1.N) : sProp 𝕄 :=
  iprop((ndat V c).Φ t.castSucc ∗ (ndat V c).owesAt () t.castSucc
    ∗ (∃ d, owns (c : Thread nD τ) (st1_0 t) fullShare ((ndat V c).before 0 t d))
    ∗ (∃ d, owns (c : Thread nD τ) (st1_1 t) fullShare ((ndat V c).before 1 t d))
    ∗ (∃ d, owns (c : Thread nD τ) (st1_2 t) fullShare ((ndat V c).before 2 t d))
    ∗ (∃ d, owns (c : Thread nD τ) (st1_3 t) fullShare ((ndat V c).before 3 t d)))

/-- and what it returns. -/
def nPost (c : Dev nD) (t : Fin cfg1.N) : sProp 𝕄 :=
  iprop((ndat V c).Φ t.succ ∗ (ndat V c).owesAt () t.succ
    ∗ owns (c : Thread nD τ) (st1_0 t) fullShare ((ndat V c).after 0 t)
    ∗ owns (c : Thread nD τ) (st1_1 t) fullShare ((ndat V c).after 1 t)
    ∗ owns (c : Thread nD τ) (st1_2 t) fullShare ((ndat V c).after 2 t)
    ∗ owns (c : Thread nD τ) (st1_3 t) fullShare ((ndat V c).after 3 t))

set_option maxHeartbeats 4000000 in
/-- The body at any point: the inputs' buffers hold their blocks, so the body's triple applies; the invariant and
    the core's dues pass through unread. -/
theorem node_body_at (c : Dev nD) (t : Fin cfg1.N) :
    nPre V c t ⊢ wp frame (wpE (defs₀ (F := F)) Variants.none c none) Set.univ (bodyAt1 t) (fun _ => nPost V c t) := by
  unfold nPre nPost bodyAt1
  simp only [nbefore0, nbefore1]
  rw [show (ndat V c).Φ t.succ = (ndat V c).Φ t.castSucc from rfl,
    show (ndat V c).owesAt () t.succ = (ndat V c).owesAt () t.castSucc from rfl,
    nafter0, nafter1, nafter2, nafter3]
  iintro ⟨HΦ, Ho, ⟨%d0, H0⟩, ⟨%d1, H1⟩, ⟨%d2, H2⟩, ⟨%d3, H3⟩⟩
  iapply (node_body c Set.univ _ _ _ _ _ _ _ _ _ (nblk V c 0 t) (nblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem node_obligation (c : Dev nD) : BodyObligation (ndat (F := F) V c) (defs₀ (F := F)) Variants.none () Set.univ := fun t => by
  rw [bigSep_W1, bigSep_W1]
  exact node_body_at V c t

end Cert.KernelIdeal.Pipes

end
-- ==== Proof.WholeRun.lean ====
/-
  The whole run of the kernel program: three stretches of host operations around two kernel regions.

  The contents of the core's unscoped buffers are followed from the launch memory through the five items: a host
  stretch applies its operations; a region leaves each of its arrays at what its write-backs make of it (an input
  array as entered) and every other buffer as entered. Each region is a segment of the run over the thread state
  "every unscoped buffer at the boundary's contents, the generator register at some state, nothing owed"; the run of
  the segments is the program, and at the end every unscoped buffer holds the last boundary's contents. Both the
  frame (each argument array ends as launched) and the value of the result are read off that one statement.
-/
import proofs.«140219_j61804579389717_1_alg».proof.Proof.Gen.KernelIdeal.Regions
import proofs.«140219_j61804579389717_1_alg».proof.Proof.EdgeRegion
import proofs.«140219_j61804579389717_1_alg».proof.Proof.NodeRegion

set_option maxRecDepth 16384

noncomputable section

namespace Cert.KernelIdeal.Pipes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (edat (U1 m ρ) c).arrAt w cfg0.N
theorem W2_arr (c : Dev nD) (w : Fin cfg0.W) :
    W2 m ρ c (Proc.devRef .tc (Pipeline.arrRef spec0 w)) = (edat (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (edat (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (ndat (U3 m ρ) c).arrAt w cfg1.N
theorem W4_arr (c : Dev nD) (w : Fin cfg1.W) :
    W4 m ρ c (Proc.devRef .tc (Pipeline.arrRef spec1 w)) = (ndat (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (ndat (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the contents the program ends with. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => edat (U1 m ρ) c
  | ⟨1, _⟩ => fun c => ndat (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues, at
    nothing. -/
abbrev R (c : Dev nD) : sProp 𝕄 := iprop((∃ r, prngReg c r) ∗ ∃ W, owes (c : Thread nD τ) (0 : CellTallies nD τ sig Unit) W)
/-- A host stretch as a segment over the unscoped references, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tend (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at W1, left at W2. Its arrays are split out
    of the unscoped buffers and put back at what the write-backs leave; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (edge_obligation (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at W3, left at W4. Its arrays are split out
    of the unscoped buffers and put back at what the write-backs leave; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (node_obligation (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN: from any memory with zero counters every weakly fair execution of the program terminates, nothing
    faulting, and every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The same contents, over the regions' outputs named -/

/-- What the two regions leave in their output arrays, as the unknowns of the generated boundary contents. -/
def regionOuts : Gen.Outs (F := F) := fun J r c =>
  match J with
  | 2 => W2 m ρ c (Proc.devRef .tc r)
  | _ => W4 m ρ c (Proc.devRef .tc r)

theorem W1_eq (c : Dev nD) : W1 m ρ c = Gen.V1 m c := rfl

end Cert.KernelIdeal.Pipes

end
-- ==== Proof.EdgeArrays.lean ====
/-
  What the first kernel region leaves in its four output arrays.

  Every window of the region moves with the grid point: block t of each array is its entries 98304·t … 98304·t + 98303,
  and the sixteen blocks tile the 1572864 entries. So the array a window's write-backs leave is, entry by entry, the
  body's product of the input ARRAYS at the same entry:

      (w·s)·xr,   (w·s)·xi,   (w − w·s)·xr,   (w − w·s)·xi

  with w the edge weights, s the mask, xr and xi the gathered parts, as the region finds them.
-/
import proofs.«140219_j61804579389717_1_alg».proof.Proof.EdgeRegion
import Idealize.ShloMosaic.Lib.Pipeline.Value

set_option maxRecDepth 16384

noncomputable section

namespace Cert.KernelIdeal.Pipes

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hzE : (![0] : Fin 1 → Nat) = fun _ => 0 := funext fun a => by fin_cases a <;> rfl

/-- Every window of the region has the grid point as its block index, which runs over 0 … 15. -/
theorem eidx_facts : ∀ t : Fin cfg0.N, win0_0.index t (0 : Fin 1) = win0_4.index t (0 : Fin 1)
    ∧ win0_1.index t (0 : Fin 1) = win0_4.index t (0 : Fin 1)
    ∧ win0_2.index t (0 : Fin 1) = win0_4.index t (0 : Fin 1)
    ∧ win0_3.index t (0 : Fin 1) = win0_4.index t (0 : Fin 1)
    ∧ win0_5.index t (0 : Fin 1) = win0_4.index t (0 : Fin 1)
    ∧ win0_6.index t (0 : Fin 1) = win0_4.index t (0 : Fin 1)
    ∧ win0_7.index t (0 : Fin 1) = win0_4.index t (0 : Fin 1)
    ∧ win0_4.index t (0 : Fin 1) ≤ 15 :=
  (by decide +kernel : ∀ t : Fin grid0.N, _)

/-- Every block of an output array is some point's. -/
theorem eidx_onto : ∀ q0 : Fin 16, ∃ t : Fin cfg0.N, win0_4.index t = ![q0.val] :=
  (by decide +kernel : ∀ q0 : Fin 16, ∃ t : Fin grid0.N, win0_4.index t = ![q0.val])

/-! ## Output window 4: (w·s)·xr -/

/-- (w·s)·xr of three arrays, entry by entry. -/
abbrev EG4 (a0 a1 a2 : S1572864.Idx → Elt F .f32) : S1572864.Idx → Elt F .f32 := fun i => FloatOps.mulf (FloatOps.mulf (a0 i) (a1 i)) (a2 i)

/-- The body's payload is that product of its loaded blocks. -/
theorem epay4_eq (x0 x1 x2 : Vec F S98304 .f32) : k0_pay5 x0 x1 x2 = fun j => FloatOps.mulf (FloatOps.mulf (x0 j) (x1 j)) (x2 j) := by
  unfold k0_pay5 k0_pay3 k0_pay1
  simp only [shapeCast_self]
  rfl

/-- What point t writes back is block t of the product of the arrays as the region finds them. -/
theorem eflushed4 (c : Dev nD) (t : Fin cfg0.N) :
    (edat V c).flushed 4 t = ((cfg0.win 4).blk t).view.read (Elt F) (EG4 (V c main_arg3) (V c main_v19) (V c main_v30)) := by
  show (cfg0.win 4).cut (grid0.coords t) ((edat V c).after 4 t) = _
  rw [eafter4]
  unfold eout4
  rw [View.canon_unit_zero hzE]
  simp only [View.ld_unit_zero (S := S98304) hzE]
  rw [epay4_eq]
  obtain ⟨e0, e1, e2, e3, e5, e6, e7, -⟩ := eidx_facts t
  funext j
  show FloatOps.mulf (FloatOps.mulf (V c main_arg3 (((cfg0.win 0).blk t).view.emb j)) (V c main_v19 (((cfg0.win 1).blk t).view.emb j))) (V c main_v30 (((cfg0.win 2).blk t).view.emb j))
    = FloatOps.mulf (FloatOps.mulf (V c main_arg3 (((cfg0.win 4).blk t).view.emb j)) (V c main_v19 (((cfg0.win 4).blk t).view.emb j))) (V c main_v30 (((cfg0.win 4).blk t).view.emb j))
  have h0 : ((cfg0.win 0).blk t).view.emb j = ((cfg0.win 4).blk t).view.emb j := by
    funext a; apply Fin.ext
    match a with
    | ⟨0, _⟩ => show win0_0.index t (0 : Fin 1) * 98304 + 1 * (j 0).val = win0_4.index t (0 : Fin 1) * 98304 + 1 * (j 0).val; omega
  have h1 : ((cfg0.win 1).blk t).view.emb j = ((cfg0.win 4).blk t).view.emb j := by
    funext a; apply Fin.ext
    match a with
    | ⟨0, _⟩ => show win0_1.index t (0 : Fin 1) * 98304 + 1 * (j 0).val = win0_4.index t (0 : Fin 1) * 98304 + 1 * (j 0).val; omega
  have h2 : ((cfg0.win 2).blk t).view.emb j = ((cfg0.win 4).blk t).view.emb j := by
    funext a; apply Fin.ext
    match a with
    | ⟨0, _⟩ => show win0_2.index t (0 : Fin 1) * 98304 + 1 * (j 0).val = win0_4.index t (0 : Fin 1) * 98304 + 1 * (j 0).val; omega
  rw [h0, h1, h2]

/-- An entry is in point t's block iff it lies in that block's range. -/
theorem emem_blk4 (t : Fin cfg0.N) (i : S1572864.Idx) :
    i ∈ ((cfg0.win 4).blk t).view.set ↔ ∀ a : Fin 1, win0_4.index t a * S98304.size a ≤ (i a).val ∧ (i a).val < win0_4.index t a * S98304.size a + S98304.size a := by
  show i ∈ ((View.whole main_v42_0).slice (win0_4.rect t)).set ↔ _
  rw [View.set_slice_whole, Rect.mem_set_unit]
  exact Iff.rfl

/-- Every entry is in the block of the point its position divided by the block length names. -/
theorem ecover4 (i : S1572864.Idx) : ∃ t : Fin cfg0.N, (cfg0.win 4).flush t = true ∧ i ∈ ((cfg0.win 4).blk t).view.set := by
  have hi0 : (i 0).val < 1572864 := (i 0).isLt
  obtain ⟨t, ht⟩ := eidx_onto ⟨(i 0).val / 98304, by omega⟩
  have q0 : win0_4.index t (0 : Fin 1) = (i 0).val / 98304 := congrFun ht 0
  obtain ⟨e0, e1, e2, e3, e5, e6, e7, -⟩ := eidx_facts t
  refine ⟨t, flush0_4 t, ?_⟩
  rw [emem_blk4]
  intro a
  match a with
  | ⟨0, _⟩ => show win0_4.index t (0 : Fin 1) * 98304 ≤ (i 0).val ∧ (i 0).val < win0_4.index t (0 : Fin 1) * 98304 + 98304; omega

/-- THE ARRAY after the region: (w·s)·xr of the arrays the region found. -/
theorem efinal4 (c : Dev nD) : (edat V c).arrAt 4 cfg0.N = EG4 (V c main_arg3) (V c main_v19) (V c main_v30) :=
  (edat V c).arrAt_eq_of_cover 4 _ (fun t _ => eflushed4 V c t) (ecover4)

/-! ## Output window 5: (w·s)·xi -/

/-- (w·s)·xi of three arrays, entry by entry. -/
abbrev EG5 (a0 a1 a2 : S1572864.Idx → Elt F .f32) : S1572864.Idx → Elt F .f32 := fun i => FloatOps.mulf (FloatOps.mulf (a0 i) (a1 i)) (a2 i)

/-- The body's payload is that product of its loaded blocks. -/
theorem epay5_eq (x0 x1 x2 : Vec F S98304 .f32) : k0_pay6 x0 x1 x2 = fun j => FloatOps.mulf (FloatOps.mulf (x0 j) (x1 j)) (x2 j) := by
  unfold k0_pay6 k0_pay3 k0_pay2
  simp only [shapeCast_self]
  rfl

/-- What point t writes back is block t of the product of the arrays as the region finds them. -/
theorem eflushed5 (c : Dev nD) (t : Fin cfg0.N) :
    (edat V c).flushed 5 t = ((cfg0.win 5).blk t).view.read (Elt F) (EG5 (V c main_arg3) (V c main_v19) (V c main_v41)) := by
  show (cfg0.win 5).cut (grid0.coords t) ((edat V c).after 5 t) = _
  rw [eafter5]
  unfold eout5
  rw [View.canon_unit_zero hzE]
  simp only [View.ld_unit_zero (S := S98304) hzE]
  rw [epay5_eq]
  obtain ⟨e0, e1, e2, e3, e5, e6, e7, -⟩ := eidx_facts t
  funext j
  show FloatOps.mulf (FloatOps.mulf (V c main_arg3 (((cfg0.win 0).blk t).view.emb j)) (V c main_v19 (((cfg0.win 1).blk t).view.emb j))) (V c main_v41 (((cfg0.win 3).blk t).view.emb j))
    = FloatOps.mulf (FloatOps.mulf (V c main_arg3 (((cfg0.win 5).blk t).view.emb j)) (V c main_v19 (((cfg0.win 5).blk t).view.emb j))) (V c main_v41 (((cfg0.win 5).blk t).view.emb j))
  have h0 : ((cfg0.win 0).blk t).view.emb j = ((cfg0.win 5).blk t).view.emb j := by
    funext a; apply Fin.ext
    match a with
    | ⟨0, _⟩ => show win0_0.index t (0 : Fin 1) * 98304 + 1 * (j 0).val = win0_5.index t (0 : Fin 1) * 98304 + 1 * (j 0).val; omega
  have h1 : ((cfg0.win 1).blk t).view.emb j = ((cfg0.win 5).blk t).view.emb j := by
    funext a; apply Fin.ext
    match a with
    | ⟨0, _⟩ => show win0_1.index t (0 : Fin 1) * 98304 + 1 * (j 0).val = win0_5.index t (0 : Fin 1) * 98304 + 1 * (j 0).val; omega
  have h2 : ((cfg0.win 3).blk t).view.emb j = ((cfg0.win 5).blk t).view.emb j := by
    funext a; apply Fin.ext
    match a with
    | ⟨0, _⟩ => show win0_3.index t (0 : Fin 1) * 98304 + 1 * (j 0).val = win0_5.index t (0 : Fin 1) * 98304 + 1 * (j 0).val; omega
  rw [h0, h1, h2]

/-- An entry is in point t's block iff it lies in that block's range. -/
theorem emem_blk5 (t : Fin cfg0.N) (i : S1572864.Idx) :
    i ∈ ((cfg0.win 5).blk t).view.set ↔ ∀ a : Fin 1, win0_5.index t a * S98304.size a ≤ (i a).val ∧ (i a).val < win0_5.index t a * S98304.size a + S98304.size a := by
  show i ∈ ((View.whole main_v42_1).slice (win0_5.rect t)).set ↔ _
  rw [View.set_slice_whole, Rect.mem_set_unit]
  exact Iff.rfl

/-- Every entry is in the block of the point its position divided by the block length names. -/
theorem ecover5 (i : S1572864.Idx) : ∃ t : Fin cfg0.N, (cfg0.win 5).flush t = true ∧ i ∈ ((cfg0.win 5).blk t).view.set := by
  have hi0 : (i 0).val < 1572864 := (i 0).isLt
  obtain ⟨t, ht⟩ := eidx_onto ⟨(i 0).val / 98304, by omega⟩
  have q0 : win0_4.index t (0 : Fin 1) = (i 0).val / 98304 := congrFun ht 0
  obtain ⟨e0, e1, e2, e3, e5, e6, e7, -⟩ := eidx_facts t
  refine ⟨t, flush0_5 t, ?_⟩
  rw [emem_blk5]
  intro a
  match a with
  | ⟨0, _⟩ => show win0_5.index t (0 : Fin 1) * 98304 ≤ (i 0).val ∧ (i 0).val < win0_5.index t (0 : Fin 1) * 98304 + 98304; omega

/-- THE ARRAY after the region: (w·s)·xi of the arrays the region found. -/
theorem efinal5 (c : Dev nD) : (edat V c).arrAt 5 cfg0.N = EG5 (V c main_arg3) (V c main_v19) (V c main_v41) :=
  (edat V c).arrAt_eq_of_cover 5 _ (fun t _ => eflushed5 V c t) (ecover5)

/-! ## Output window 6: (w − w·s)·xr -/

/-- (w − w·s)·xr of three arrays, entry by entry. -/
abbrev EG6 (a0 a1 a2 : S1572864.Idx → Elt F .f32) : S1572864.Idx → Elt F .f32 := fun i => FloatOps.mulf (FloatOps.subf (a0 i) (FloatOps.mulf (a0 i) (a1 i))) (a2 i)

/-- The body's payload is that product of its loaded blocks. -/
theorem epay6_eq (x0 x1 x2 : Vec F S98304 .f32) : k0_pay7 x0 x1 x2 = fun j => FloatOps.mulf (FloatOps.subf (x0 j) (FloatOps.mulf (x0 j) (x1 j))) (x2 j) := by
  unfold k0_pay7 k0_pay4 k0_pay3 k0_pay1
  simp only [shapeCast_self]
  rfl

/-- What point t writes back is block t of the product of the arrays as the region finds them. -/
theorem eflushed6 (c : Dev nD) (t : Fin cfg0.N) :
    (edat V c).flushed 6 t = ((cfg0.win 6).blk t).view.read (Elt F) (EG6 (V c main_arg3) (V c main_v19) (V c main_v30)) := by
  show (cfg0.win 6).cut (grid0.coords t) ((edat V c).after 6 t) = _
  rw [eafter6]
  unfold eout6
  rw [View.canon_unit_zero hzE]
  simp only [View.ld_unit_zero (S := S98304) hzE]
  rw [epay6_eq]
  obtain ⟨e0, e1, e2, e3, e5, e6, e7, -⟩ := eidx_facts t
  funext j
  show FloatOps.mulf (FloatOps.subf (V c main_arg3 (((cfg0.win 0).blk t).view.emb j)) (FloatOps.mulf (V c main_arg3 (((cfg0.win 0).blk t).view.emb j)) (V c main_v19 (((cfg0.win 1).blk t).view.emb j)))) (V c main_v30 (((cfg0.win 2).blk t).view.emb j))
    = FloatOps.mulf (FloatOps.subf (V c main_arg3 (((cfg0.win 6).blk t).view.emb j)) (FloatOps.mulf (V c main_arg3 (((cfg0.win 6).blk t).view.emb j)) (V c main_v19 (((cfg0.win 6).blk t).view.emb j)))) (V c main_v30 (((cfg0.win 6).blk t).view.emb j))
  have h0 : ((cfg0.win 0).blk t).view.emb j = ((cfg0.win 6).blk t).view.emb j := by
    funext a; apply Fin.ext
    match a with
    | ⟨0, _⟩ => show win0_0.index t (0 : Fin 1) * 98304 + 1 * (j 0).val = win0_6.index t (0 : Fin 1) * 98304 + 1 * (j 0).val; omega
  have h1 : ((cfg0.win 1).blk t).view.emb j = ((cfg0.win 6).blk t).view.emb j := by
    funext a; apply Fin.ext
    match a with
    | ⟨0, _⟩ => show win0_1.index t (0 : Fin 1) * 98304 + 1 * (j 0).val = win0_6.index t (0 : Fin 1) * 98304 + 1 * (j 0).val; omega
  have h2 : ((cfg0.win 2).blk t).view.emb j = ((cfg0.win 6).blk t).view.emb j := by
    funext a; apply Fin.ext
    match a with
    | ⟨0, _⟩ => show win0_2.index t (0 : Fin 1) * 98304 + 1 * (j 0).val = win0_6.index t (0 : Fin 1) * 98304 + 1 * (j 0).val; omega
  rw [h0, h1, h2]

/-- An entry is in point t's block iff it lies in that block's range. -/
theorem emem_blk6 (t : Fin cfg0.N) (i : S1572864.Idx) :
    i ∈ ((cfg0.win 6).blk t).view.set ↔ ∀ a : Fin 1, win0_6.index t a * S98304.size a ≤ (i a).val ∧ (i a).val < win0_6.index t a * S98304.size a + S98304.size a := by
  show i ∈ ((View.whole main_v42_2).slice (win0_6.rect t)).set ↔ _
  rw [View.set_slice_whole, Rect.mem_set_unit]
  exact Iff.rfl

/-- Every entry is in the block of the point its position divided by the block length names. -/
theorem ecover6 (i : S1572864.Idx) : ∃ t : Fin cfg0.N, (cfg0.win 6).flush t = true ∧ i ∈ ((cfg0.win 6).blk t).view.set := by
  have hi0 : (i 0).val < 1572864 := (i 0).isLt
  obtain ⟨t, ht⟩ := eidx_onto ⟨(i 0).val / 98304, by omega⟩
  have q0 : win0_4.index t (0 : Fin 1) = (i 0).val / 98304 := congrFun ht 0
  obtain ⟨e0, e1, e2, e3, e5, e6, e7, -⟩ := eidx_facts t
  refine ⟨t, flush0_6 t, ?_⟩
  rw [emem_blk6]
  intro a
  match a with
  | ⟨0, _⟩ => show win0_6.index t (0 : Fin 1) * 98304 ≤ (i 0).val ∧ (i 0).val < win0_6.index t (0 : Fin 1) * 98304 + 98304; omega

/-- THE ARRAY after the region: (w − w·s)·xr of the arrays the region found. -/
theorem efinal6 (c : Dev nD) : (edat V c).arrAt 6 cfg0.N = EG6 (V c main_arg3) (V c main_v19) (V c main_v30) :=
  (edat V c).arrAt_eq_of_cover 6 _ (fun t _ => eflushed6 V c t) (ecover6)

/-! ## Output window 7: (w − w·s)·xi -/

/-- (w − w·s)·xi of three arrays, entry by entry. -/
abbrev EG7 (a0 a1 a2 : S1572864.Idx → Elt F .f32) : S1572864.Idx → Elt F .f32 := fun i => FloatOps.mulf (FloatOps.subf (a0 i) (FloatOps.mulf (a0 i) (a1 i))) (a2 i)

/-- The body's payload is that product of its loaded blocks. -/
theorem epay7_eq (x0 x1 x2 : Vec F S98304 .f32) : k0_pay8 x0 x1 x2 = fun j => FloatOps.mulf (FloatOps.subf (x0 j) (FloatOps.mulf (x0 j) (x1 j))) (x2 j) := by
  unfold k0_pay8 k0_pay4 k0_pay3 k0_pay2
  simp only [shapeCast_self]
  rfl

/-- What point t writes back is block t of the product of the arrays as the region finds them. -/
theorem eflushed7 (c : Dev nD) (t : Fin cfg0.N) :
    (edat V c).flushed 7 t = ((cfg0.win 7).blk t).view.read (Elt F) (EG7 (V c main_arg3) (V c main_v19) (V c main_v41)) := by
  show (cfg0.win 7).cut (grid0.coords t) ((edat V c).after 7 t) = _
  rw [eafter7]
  unfold eout7
  rw [View.canon_unit_zero hzE]
  simp only [View.ld_unit_zero (S := S98304) hzE]
  rw [epay7_eq]
  obtain ⟨e0, e1, e2, e3, e5, e6, e7, -⟩ := eidx_facts t
  funext j
  show FloatOps.mulf (FloatOps.subf (V c main_arg3 (((cfg0.win 0).blk t).view.emb j)) (FloatOps.mulf (V c main_arg3 (((cfg0.win 0).blk t).view.emb j)) (V c main_v19 (((cfg0.win 1).blk t).view.emb j)))) (V c main_v41 (((cfg0.win 3).blk t).view.emb j))
    = FloatOps.mulf (FloatOps.subf (V c main_arg3 (((cfg0.win 7).blk t).view.emb j)) (FloatOps.mulf (V c main_arg3 (((cfg0.win 7).blk t).view.emb j)) (V c main_v19 (((cfg0.win 7).blk t).view.emb j)))) (V c main_v41 (((cfg0.win 7).blk t).view.emb j))
  have h0 : ((cfg0.win 0).blk t).view.emb j = ((cfg0.win 7).blk t).view.emb j := by
    funext a; apply Fin.ext
    match a with
    | ⟨0, _⟩ => show win0_0.index t (0 : Fin 1) * 98304 + 1 * (j 0).val = win0_7.index t (0 : Fin 1) * 98304 + 1 * (j 0).val; omega
  have h1 : ((cfg0.win 1).blk t).view.emb j = ((cfg0.win 7).blk t).view.emb j := by
    funext a; apply Fin.ext
    match a with
    | ⟨0, _⟩ => show win0_1.index t (0 : Fin 1) * 98304 + 1 * (j 0).val = win0_7.index t (0 : Fin 1) * 98304 + 1 * (j 0).val; omega
  have h2 : ((cfg0.win 3).blk t).view.emb j = ((cfg0.win 7).blk t).view.emb j := by
    funext a; apply Fin.ext
    match a with
    | ⟨0, _⟩ => show win0_3.index t (0 : Fin 1) * 98304 + 1 * (j 0).val = win0_7.index t (0 : Fin 1) * 98304 + 1 * (j 0).val; omega
  rw [h0, h1, h2]

/-- An entry is in point t's block iff it lies in that block's range. -/
theorem emem_blk7 (t : Fin cfg0.N) (i : S1572864.Idx) :
    i ∈ ((cfg0.win 7).blk t).view.set ↔ ∀ a : Fin 1, win0_7.index t a * S98304.size a ≤ (i a).val ∧ (i a).val < win0_7.index t a * S98304.size a + S98304.size a := by
  show i ∈ ((View.whole main_v42_3).slice (win0_7.rect t)).set ↔ _
  rw [View.set_slice_whole, Rect.mem_set_unit]
  exact Iff.rfl

/-- Every entry is in the block of the point its position divided by the block length names. -/
theorem ecover7 (i : S1572864.Idx) : ∃ t : Fin cfg0.N, (cfg0.win 7).flush t = true ∧ i ∈ ((cfg0.win 7).blk t).view.set := by
  have hi0 : (i 0).val < 1572864 := (i 0).isLt
  obtain ⟨t, ht⟩ := eidx_onto ⟨(i 0).val / 98304, by omega⟩
  have q0 : win0_4.index t (0 : Fin 1) = (i 0).val / 98304 := congrFun ht 0
  obtain ⟨e0, e1, e2, e3, e5, e6, e7, -⟩ := eidx_facts t
  refine ⟨t, flush0_7 t, ?_⟩
  rw [emem_blk7]
  intro a
  match a with
  | ⟨0, _⟩ => show win0_7.index t (0 : Fin 1) * 98304 ≤ (i 0).val ∧ (i 0).val < win0_7.index t (0 : Fin 1) * 98304 + 98304; omega

/-- THE ARRAY after the region: (w − w·s)·xi of the arrays the region found. -/
theorem efinal7 (c : Dev nD) : (edat V c).arrAt 7 cfg0.N = EG7 (V c main_arg3) (V c main_v19) (V c main_v41) :=
  (edat V c).arrAt_eq_of_cover 7 _ (fun t _ => eflushed7 V c t) (ecover7)

end Cert.KernelIdeal.Pipes

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.NodeArrays.lean ====
/-
  What the second kernel region leaves in its two output arrays.

  At point t the first input window holds rows 2048·t … 2048·t + 2047 of the [98304, 4] array of edge sums and the
  second the whole [4, 64] array of weight rows; the output windows' blocks are rows 2048·t … of the [98304, 64]
  results, and the 48 blocks tile them. With silu u = u · logistic u the arrays the write-backs leave are, at node n
  and feature h,

      re(n, h) = silu (S(n,0)·W(0,h) − S(n,1)·W(1,h)) + silu (S(n,2)·W(2,h) − S(n,3)·W(3,h))
      im(n, h) = silu (S(n,0)·W(1,h) + S(n,1)·W(0,h)) + silu (S(n,2)·W(3,h) + S(n,3)·W(2,h))

  of the arrays S and W as the region finds them.
-/
import proofs.«140219_j61804579389717_1_alg».proof.Proof.NodeRegion
import proofs.«140219_j61804579389717_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Pipes

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The body's arithmetic at one node and one feature -/

/-- silu u = u · logistic u. -/
def siluF (u : Elt F .f32) : Elt F .f32 := FloatOps.mulf u (FloatOps.logistic u)
/-- The real part: the two branches' silu (Sr·Wr − Si·Wi), added. -/
def combRe (s0 s1 s2 s3 w0 w1 w2 w3 : Elt F .f32) : Elt F .f32 :=
  FloatOps.addf (siluF (FloatOps.subf (FloatOps.mulf s0 w0) (FloatOps.mulf s1 w1)))
    (siluF (FloatOps.subf (FloatOps.mulf s2 w2) (FloatOps.mulf s3 w3)))
/-- The imaginary part: the two branches' silu (Sr·Wi + Si·Wr), added. -/
def combIm (s0 s1 s2 s3 w0 w1 w2 w3 : Elt F .f32) : Elt F .f32 :=
  FloatOps.addf (siluF (FloatOps.addf (FloatOps.mulf s0 w1) (FloatOps.mulf s1 w0)))
    (siluF (FloatOps.addf (FloatOps.mulf s2 w3) (FloatOps.mulf s3 w2)))

/-- Column k of the loaded [2048, 4] block, spread along the features, read at (p, q): the block at (p, k). -/
theorem col_at (x0 : Vec F S2048x4 .f32) (k : ℕ) (hk : k < 4) (h : S2048x4.Slices ![0, k] S2048x1) (p : Fin 2048) (q : Fin 64) :
    broadcastTo S2048x64 (extractStridedSlice S2048x1 ![0, k] (shapeCast S2048x4 x0 shapeCasts_S2048x4_S2048x4) h)
      broadcasts_S2048x1_S2048x64 (ix2 p q) = x0 (ix2 p (⟨k, hk⟩ : Fin 4)) := by
  rw [Cert.LibKeepdims.broadcastTo_a1_ab_apply, shapeCast_self]
  exact slice2_axis1_apply k x0 h p (0 : Fin 1) ⟨k, hk⟩ (by simp)

/-- Row k of the loaded [4, 64] block, spread along the nodes, read at (p, q): the block at (k, q). -/
theorem row_at (x1 : Vec F S4x64 .f32) (k : ℕ) (hk : k < 4) (h : S4x64.Slices ![k, 0] S1x64) (p : Fin 2048) (q : Fin 64) :
    broadcastTo S2048x64 (extractStridedSlice S1x64 ![k, 0] (shapeCast S4x64 x1 shapeCasts_S4x64_S4x64) h)
      broadcasts_S1x64_S2048x64 (ix2 p q) = x1 (ix2 (⟨k, hk⟩ : Fin 4) q) := by
  rw [broadcastTo_1b_ab_apply, shapeCast_self]
  exact slice2_axis0_apply k x1 h (0 : Fin 1) q ⟨k, hk⟩ (by simp)

/-- The real-part payload at (p, q). -/
theorem npay11_at (x0 : Vec F S2048x4 .f32) (x1 : Vec F S4x64 .f32) (p : Fin 2048) (q : Fin 64) :
    k1_pay11 x0 x1 (ix2 p q) = combRe (x0 (ix2 p (0 : Fin 4))) (x0 (ix2 p (1 : Fin 4))) (x0 (ix2 p (2 : Fin 4))) (x0 (ix2 p (3 : Fin 4))) (x1 (ix2 (0 : Fin 4) q)) (x1 (ix2 (1 : Fin 4) q)) (x1 (ix2 (2 : Fin 4) q)) (x1 (ix2 (3 : Fin 4) q)) := by
  have c0 := col_at x0 0 (by omega) slices_S2048x4_o0_0_S2048x1 p q
  have c1 := col_at x0 1 (by omega) slices_S2048x4_o0_1_S2048x1 p q
  have c2 := col_at x0 2 (by omega) slices_S2048x4_o0_2_S2048x1 p q
  have c3 := col_at x0 3 (by omega) slices_S2048x4_o0_3_S2048x1 p q
  have r0 := row_at x1 0 (by omega) slices_S4x64_o0_0_S1x64 p q
  have r1 := row_at x1 1 (by omega) slices_S4x64_o1_0_S1x64 p q
  have r2 := row_at x1 2 (by omega) slices_S4x64_o2_0_S1x64 p q
  have r3 := row_at x1 3 (by omega) slices_S4x64_o3_0_S1x64 p q
  unfold k1_pay11 k1_pay3 k1_pay4 k1_pay5 k1_pay6 k1_pay7 k1_pay8 k1_pay9 k1_pay10 k1_pay1 k1_pay2
  simp only [Idealize.ShloMosaic.addf, Idealize.ShloMosaic.subf, Idealize.ShloMosaic.mulf, Idealize.ShloMosaic.logistic]
  rw [c0, c1, c2, c3, r0, r1, r2, r3]
  rfl

/-- The imaginary-part payload at (p, q). -/
theorem npay12_at (x0 : Vec F S2048x4 .f32) (x1 : Vec F S4x64 .f32) (p : Fin 2048) (q : Fin 64) :
    k1_pay12 x0 x1 (ix2 p q) = combIm (x0 (ix2 p (0 : Fin 4))) (x0 (ix2 p (1 : Fin 4))) (x0 (ix2 p (2 : Fin 4))) (x0 (ix2 p (3 : Fin 4))) (x1 (ix2 (0 : Fin 4) q)) (x1 (ix2 (1 : Fin 4) q)) (x1 (ix2 (2 : Fin 4) q)) (x1 (ix2 (3 : Fin 4) q)) := by
  have c0 := col_at x0 0 (by omega) slices_S2048x4_o0_0_S2048x1 p q
  have c1 := col_at x0 1 (by omega) slices_S2048x4_o0_1_S2048x1 p q
  have c2 := col_at x0 2 (by omega) slices_S2048x4_o0_2_S2048x1 p q
  have c3 := col_at x0 3 (by omega) slices_S2048x4_o0_3_S2048x1 p q
  have r0 := row_at x1 0 (by omega) slices_S4x64_o0_0_S1x64 p q
  have r1 := row_at x1 1 (by omega) slices_S4x64_o1_0_S1x64 p q
  have r2 := row_at x1 2 (by omega) slices_S4x64_o2_0_S1x64 p q
  have r3 := row_at x1 3 (by omega) slices_S4x64_o3_0_S1x64 p q
  unfold k1_pay12 k1_pay3 k1_pay4 k1_pay5 k1_pay6 k1_pay7 k1_pay8 k1_pay9 k1_pay10 k1_pay1 k1_pay2
  simp only [Idealize.ShloMosaic.addf, Idealize.ShloMosaic.subf, Idealize.ShloMosaic.mulf, Idealize.ShloMosaic.logistic]
  rw [c0, c1, c2, c3, r0, r1, r2, r3]
  rfl

/-! ## From blocks to the arrays -/

variable (V : (c : Dev nD) → (b : Ref sig .tc) → Buf (Elt F) ((c : Thread nD τ).loc b))

theorem hzN : (![0, 0] : Fin 2 → Nat) = fun _ => 0 := funext fun a => by fin_cases a <;> rfl

/-- The real part of the whole arrays S : [98304, 4] and W : [4, 64], node by node and feature by feature. -/
abbrev NRe (a0 : S98304x4.Idx → Elt F .f32) (a1 : S4x64.Idx → Elt F .f32) : S98304x64.Idx → Elt F .f32 := fun i =>
  combRe (a0 (ix2 (i 0) (0 : Fin 4))) (a0 (ix2 (i 0) (1 : Fin 4))) (a0 (ix2 (i 0) (2 : Fin 4))) (a0 (ix2 (i 0) (3 : Fin 4))) (a1 (ix2 (0 : Fin 4) (i 1))) (a1 (ix2 (1 : Fin 4) (i 1))) (a1 (ix2 (2 : Fin 4) (i 1))) (a1 (ix2 (3 : Fin 4) (i 1)))
/-- The imaginary part likewise. -/
abbrev NIm (a0 : S98304x4.Idx → Elt F .f32) (a1 : S4x64.Idx → Elt F .f32) : S98304x64.Idx → Elt F .f32 := fun i =>
  combIm (a0 (ix2 (i 0) (0 : Fin 4))) (a0 (ix2 (i 0) (1 : Fin 4))) (a0 (ix2 (i 0) (2 : Fin 4))) (a0 (ix2 (i 0) (3 : Fin 4))) (a1 (ix2 (0 : Fin 4) (i 1))) (a1 (ix2 (1 : Fin 4) (i 1))) (a1 (ix2 (2 : Fin 4) (i 1))) (a1 (ix2 (3 : Fin 4) (i 1)))

/-- The windows' block indices over the grid: the node blocks move with the point, the weights' block stays, and the
    column blocks are the only ones. -/
theorem nidx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_3.index t (0 : Fin 2) = win1_2.index t (0 : Fin 2)
    ∧ win1_2.index t (1 : Fin 2) = 0
    ∧ win1_3.index t (1 : Fin 2) = 0
    ∧ win1_2.index t (0 : Fin 2) ≤ 47 :=
  (by decide +kernel : ∀ t : Fin grid1.N, _)

/-- Every row block of an output array is some point's. -/
theorem nidx_onto : ∀ q0 : Fin 48, ∃ t : Fin cfg1.N, win1_2.index t = ![q0.val, 0] :=
  (by decide +kernel : ∀ q0 : Fin 48, ∃ t : Fin grid1.N, win1_2.index t = ![q0.val, 0])

/-! ## Output window 2 -/

/-- What point t writes back is block t of the combination of the arrays as the region finds them. -/
theorem nflushed2 (c : Dev nD) (t : Fin cfg1.N) :
    (ndat V c).flushed 2 t = ((cfg1.win 2).blk t).view.read (Elt F) (NRe (V c main_v59) (V c main_v64)) := by
  show (cfg1.win 2).cut (grid1.coords t) ((ndat V c).after 2 t) = _
  rw [nafter2]
  unfold nout2
  rw [View.canon_unit_zero hzN]
  simp only [View.ld_unit_zero (S := S2048x4) hzN, View.ld_unit_zero (S := S4x64) hzN]
  obtain ⟨e0, e1, e2, e3, e4, e5, e6, -⟩ := nidx_facts t
  funext j
  obtain ⟨p, q, rfl⟩ : ∃ (p : Fin 2048) (q : Fin 64), j = ix2 p q := ⟨j 0, j 1, eq_ix2 j⟩
  refine (npay11_at (nblk V c 0 t) (nblk V c 1 t) p q).trans ?_
  have hS : ∀ k : Fin 4, nblk V c 0 t (ix2 p k) = V c main_v59 (ix2 ((((cfg1.win 2).blk t).view.emb (ix2 p q)) 0) k) := fun k => by
    show V c main_v59 (((cfg1.win 0).blk t).view.emb (ix2 p k)) = _
    congr 1
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 4 + 1 * k.val = k.val; omega
  have hW : ∀ k : Fin 4, nblk V c 1 t (ix2 k q) = V c main_v64 (ix2 k ((((cfg1.win 2).blk t).view.emb (ix2 p q)) 1)) := fun k => by
    show V c main_v64 (((cfg1.win 1).blk t).view.emb (ix2 k q)) = _
    congr 1
    funext a; apply Fin.ext
    match a with
    | ⟨0, _⟩ => show win1_1.index t (0 : Fin 2) * 4 + 1 * k.val = k.val; omega
    | ⟨1, _⟩ => show win1_1.index t (1 : Fin 2) * 64 + 1 * q.val = win1_2.index t (1 : Fin 2) * 64 + 1 * q.val; omega
  rw [hS 0, hS 1, hS 2, hS 3, hW 0, hW 1, hW 2, hW 3]
  rfl

/-- An entry is in point t's block iff each coordinate lies in the block's range on its axis. -/
theorem nmem_blk2 (t : Fin cfg1.N) (i : S98304x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v65_0).slice (win1_2.rect t)).set ↔ _
  rw [View.set_slice_whole, Rect.mem_set_unit]
  exact Iff.rfl

/-- Every entry is in the block of the point its row divided by the block height names. -/
theorem ncover2 (i : S98304x64.Idx) : ∃ t : Fin cfg1.N, (cfg1.win 2).flush t = true ∧ i ∈ ((cfg1.win 2).blk t).view.set := by
  have hi0 : (i 0).val < 98304 := (i 0).isLt
  have hi1 : (i 1).val < 64 := (i 1).isLt
  obtain ⟨t, ht⟩ := nidx_onto ⟨(i 0).val / 2048, by omega⟩
  have q0 : win1_2.index t (0 : Fin 2) = (i 0).val / 2048 := congrFun ht 0
  obtain ⟨e0, e1, e2, e3, e4, e5, e6, -⟩ := nidx_facts t
  refine ⟨t, flush1_2 t, ?_⟩
  rw [nmem_blk2]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 64 ≤ (i 1).val ∧ (i 1).val < win1_2.index t (1 : Fin 2) * 64 + 64; omega

/-- THE ARRAY after the region. -/
theorem nfinal2 (c : Dev nD) : (ndat V c).arrAt 2 cfg1.N = NRe (V c main_v59) (V c main_v64) :=
  (ndat V c).arrAt_eq_of_cover 2 _ (fun t _ => nflushed2 V c t) (ncover2)

/-! ## Output window 3 -/

/-- What point t writes back is block t of the combination of the arrays as the region finds them. -/
theorem nflushed3 (c : Dev nD) (t : Fin cfg1.N) :
    (ndat V c).flushed 3 t = ((cfg1.win 3).blk t).view.read (Elt F) (NIm (V c main_v59) (V c main_v64)) := by
  show (cfg1.win 3).cut (grid1.coords t) ((ndat V c).after 3 t) = _
  rw [nafter3]
  unfold nout3
  rw [View.canon_unit_zero hzN]
  simp only [View.ld_unit_zero (S := S2048x4) hzN, View.ld_unit_zero (S := S4x64) hzN]
  obtain ⟨e0, e1, e2, e3, e4, e5, e6, -⟩ := nidx_facts t
  funext j
  obtain ⟨p, q, rfl⟩ : ∃ (p : Fin 2048) (q : Fin 64), j = ix2 p q := ⟨j 0, j 1, eq_ix2 j⟩
  refine (npay12_at (nblk V c 0 t) (nblk V c 1 t) p q).trans ?_
  have hS : ∀ k : Fin 4, nblk V c 0 t (ix2 p k) = V c main_v59 (ix2 ((((cfg1.win 3).blk t).view.emb (ix2 p q)) 0) k) := fun k => by
    show V c main_v59 (((cfg1.win 0).blk t).view.emb (ix2 p k)) = _
    congr 1
    funext a; apply Fin.ext
    match a with
    | ⟨0, _⟩ => show win1_0.index t (0 : Fin 2) * 2048 + 1 * p.val = win1_3.index t (0 : Fin 2) * 2048 + 1 * p.val; omega
    | ⟨1, _⟩ => show win1_0.index t (1 : Fin 2) * 4 + 1 * k.val = k.val; omega
  have hW : ∀ k : Fin 4, nblk V c 1 t (ix2 k q) = V c main_v64 (ix2 k ((((cfg1.win 3).blk t).view.emb (ix2 p q)) 1)) := fun k => by
    show V c main_v64 (((cfg1.win 1).blk t).view.emb (ix2 k q)) = _
    congr 1
    funext a; apply Fin.ext
    match a with
    | ⟨0, _⟩ => show win1_1.index t (0 : Fin 2) * 4 + 1 * k.val = k.val; omega
    | ⟨1, _⟩ => show win1_1.index t (1 : Fin 2) * 64 + 1 * q.val = win1_3.index t (1 : Fin 2) * 64 + 1 * q.val; omega
  rw [hS 0, hS 1, hS 2, hS 3, hW 0, hW 1, hW 2, hW 3]
  rfl

/-- An entry is in point t's block iff each coordinate lies in the block's range on its axis. -/
theorem nmem_blk3 (t : Fin cfg1.N) (i : S98304x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v65_1).slice (win1_3.rect t)).set ↔ _
  rw [View.set_slice_whole, Rect.mem_set_unit]
  exact Iff.rfl

/-- Every entry is in the block of the point its row divided by the block height names. -/
theorem ncover3 (i : S98304x64.Idx) : ∃ t : Fin cfg1.N, (cfg1.win 3).flush t = true ∧ i ∈ ((cfg1.win 3).blk t).view.set := by
  have hi0 : (i 0).val < 98304 := (i 0).isLt
  have hi1 : (i 1).val < 64 := (i 1).isLt
  obtain ⟨t, ht⟩ := nidx_onto ⟨(i 0).val / 2048, by omega⟩
  have q0 : win1_2.index t (0 : Fin 2) = (i 0).val / 2048 := congrFun ht 0
  obtain ⟨e0, e1, e2, e3, e4, e5, e6, -⟩ := nidx_facts t
  refine ⟨t, flush1_3 t, ?_⟩
  rw [nmem_blk3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 64 ≤ (i 1).val ∧ (i 1).val < win1_3.index t (1 : Fin 2) * 64 + 64; omega

/-- THE ARRAY after the region. -/
theorem nfinal3 (c : Dev nD) : (ndat V c).arrAt 3 cfg1.N = NIm (V c main_v59) (V c main_v64) :=
  (ndat V c).arrAt_eq_of_cover 3 _ (fun t _ => nflushed3 V c t) (ncover3)

end Cert.KernelIdeal.Pipes

end
-- ==== Proof.Boundaries.lean ====
/-
  The contents of the buffers at each boundary of the run, with the regions' outputs named.

  The run's contents at a region's exit are the entry contents with the region's arrays replaced by what its
  write-backs leave. Naming what the two regions leave in their OUTPUT arrays — the four edge products after the
  first, the two combined parts after the second — the exit contents are the entry contents updated at those arrays
  only (an input array is left as entered), which is the form the boundary contents are stated in over unknown
  outputs. So every fact about those contents holds of the run's: in particular each argument array ends as
  launched, and the result array ends at the last stretch's operations of the second region's outputs.
-/
import proofs.«140219_j61804579389717_1_alg».proof.Proof.WholeRun
import proofs.«140219_j61804579389717_1_alg».proof.Proof.EdgeArrays
import proofs.«140219_j61804579389717_1_alg».proof.Proof.NodeArrays

set_option maxRecDepth 16384

noncomputable section

namespace Cert.KernelIdeal.Pipes

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The first region's exit -/

theorem W2_eq (c : Dev nD) : W2 m ρ c = Gen.V2 m (regionOuts m ρ) c := by
  funext b
  by_cases hb : ∃ w, Proc.devRef .tc (Pipeline.arrRef spec0 w) = b
  · obtain ⟨w, rfl⟩ := hb
    match w with
    | ⟨0, _⟩ => exact ((W2_arr m ρ c 0).trans (((edat (U1 m ρ) c).arrAt_in 0 rfl _).trans (eA_eq (U1 m ρ) c 0))).trans (Gen.V2_of m _ c main_arg3 (by decide)).symm
    | ⟨1, _⟩ => exact ((W2_arr m ρ c 1).trans (((edat (U1 m ρ) c).arrAt_in 1 rfl _).trans (eA_eq (U1 m ρ) c 1))).trans (Gen.V2_of m _ c main_v19 (by decide)).symm
    | ⟨2, _⟩ => exact ((W2_arr m ρ c 2).trans (((edat (U1 m ρ) c).arrAt_in 2 rfl _).trans (eA_eq (U1 m ρ) c 2))).trans (Gen.V2_of m _ c main_v30 (by decide)).symm
    | ⟨3, _⟩ => exact ((W2_arr m ρ c 3).trans (((edat (U1 m ρ) c).arrAt_in 3 rfl _).trans (eA_eq (U1 m ρ) c 3))).trans (Gen.V2_of m _ c main_v41 (by decide)).symm
    | ⟨4, _⟩ =>
      show W2 m ρ c (Proc.devRef .tc main_v42_0) = Gen.V2 m (regionOuts m ρ) c (Proc.devRef .tc main_v42_0)
      simp only [Gen.V2, Function.update_of_ne (StableHlo.devRef_ne_of_ne (by decide) : (Proc.devRef .tc main_v42_0 : DevRef τ sig) ≠ Proc.devRef .tc main_v42_1), Function.update_of_ne (StableHlo.devRef_ne_of_ne (by decide) : (Proc.devRef .tc main_v42_0 : DevRef τ sig) ≠ Proc.devRef .tc main_v42_2), Function.update_of_ne (StableHlo.devRef_ne_of_ne (by decide) : (Proc.devRef .tc main_v42_0 : DevRef τ sig) ≠ Proc.devRef .tc main_v42_3), Function.update_self]
      rfl
    | ⟨5, _⟩ =>
      show W2 m ρ c (Proc.devRef .tc main_v42_1) = Gen.V2 m (regionOuts m ρ) c (Proc.devRef .tc main_v42_1)
      simp only [Gen.V2, Function.update_of_ne (StableHlo.devRef_ne_of_ne (by decide) : (Proc.devRef .tc main_v42_1 : DevRef τ sig) ≠ Proc.devRef .tc main_v42_2), Function.update_of_ne (StableHlo.devRef_ne_of_ne (by decide) : (Proc.devRef .tc main_v42_1 : DevRef τ sig) ≠ Proc.devRef .tc main_v42_3), Function.update_self]
      rfl
    | ⟨6, _⟩ =>
      show W2 m ρ c (Proc.devRef .tc main_v42_2) = Gen.V2 m (regionOuts m ρ) c (Proc.devRef .tc main_v42_2)
      simp only [Gen.V2, Function.update_of_ne (StableHlo.devRef_ne_of_ne (by decide) : (Proc.devRef .tc main_v42_2 : DevRef τ sig) ≠ Proc.devRef .tc main_v42_3), Function.update_self]
      rfl
    | ⟨7, _⟩ =>
      show W2 m ρ c (Proc.devRef .tc main_v42_3) = Gen.V2 m (regionOuts m ρ) c (Proc.devRef .tc main_v42_3)
      simp only [Gen.V2, Function.update_self]
      rfl
  · have h1 : W2 m ρ c b = W1 m ρ c b := by unfold W2 Pipeline.withArrays; rw [dif_neg hb]
    have ne : ∀ w, b ≠ Proc.devRef .tc (Pipeline.arrRef spec0 w) := fun w e => hb ⟨w, e.symm⟩
    rw [h1]
    show Gen.V1 m c b = _
    simp only [Gen.V2, Function.update_of_ne (ne 7), Function.update_of_ne (ne 6), Function.update_of_ne (ne 5), Function.update_of_ne (ne 4)]

theorem W3_eq (c : Dev nD) : W3 m ρ c = Gen.V3 m (regionOuts m ρ) c := by
  show StableHlo.after hostOps1 (W2 m ρ c) = StableHlo.after hostOps1 (Gen.V2 m (regionOuts m ρ) c)
  rw [W2_eq]

/-! ## The second region's exit -/

theorem W4_eq (c : Dev nD) : W4 m ρ c = Gen.V4 m (regionOuts m ρ) c := by
  funext b
  by_cases hb : ∃ w, Proc.devRef .tc (Pipeline.arrRef spec1 w) = b
  · obtain ⟨w, rfl⟩ := hb
    match w with
    | ⟨0, _⟩ => exact ((W4_arr m ρ c 0).trans (((ndat (U3 m ρ) c).arrAt_in 0 rfl _).trans (nA_eq (U3 m ρ) c 0))).trans ((congrFun (W3_eq m ρ c) _).trans (Gen.V4_of m _ c main_v59 (by decide)).symm)
    | ⟨1, _⟩ => exact ((W4_arr m ρ c 1).trans (((ndat (U3 m ρ) c).arrAt_in 1 rfl _).trans (nA_eq (U3 m ρ) c 1))).trans ((congrFun (W3_eq m ρ c) _).trans (Gen.V4_of m _ c main_v64 (by decide)).symm)
    | ⟨2, _⟩ =>
      show W4 m ρ c (Proc.devRef .tc main_v65_0) = Gen.V4 m (regionOuts m ρ) c (Proc.devRef .tc main_v65_0)
      simp only [Gen.V4, Function.update_of_ne (StableHlo.devRef_ne_of_ne (by decide) : (Proc.devRef .tc main_v65_0 : DevRef τ sig) ≠ Proc.devRef .tc main_v65_1), Function.update_self]
      rfl
    | ⟨3, _⟩ =>
      show W4 m ρ c (Proc.devRef .tc main_v65_1) = Gen.V4 m (regionOuts m ρ) c (Proc.devRef .tc main_v65_1)
      simp only [Gen.V4, Function.update_self]
      rfl
  · have h1 : W4 m ρ c b = W3 m ρ c b := by unfold W4 Pipeline.withArrays; rw [dif_neg hb]
    have ne : ∀ w, b ≠ Proc.devRef .tc (Pipeline.arrRef spec1 w) := fun w e => hb ⟨w, e.symm⟩
    rw [h1, W3_eq]
    simp only [Gen.V4, Function.update_of_ne (ne 3), Function.update_of_ne (ne 2)]

theorem W5_eq (c : Dev nD) : W5 m ρ c = Gen.V5 m (regionOuts m ρ) c := by
  show StableHlo.after hostOps2 (W4 m ρ c) = StableHlo.after hostOps2 (Gen.V4 m (regionOuts m ρ) c)
  rw [W4_eq]

/-! ## What the regions leave in their output arrays -/

/-- The first region's output main_v42_0: the edge product of the arrays the region found. -/
theorem out_main_v42_0 (c : Dev nD) : regionOuts m ρ 2 main_v42_0 c
    = EG4 (Gen.V1 m c main_arg3) (Gen.V1 m c main_v19) (Gen.V1 m c main_v30) :=
  (W2_arr m ρ c 4).trans (efinal4 (U1 m ρ) c)
/-- The first region's output main_v42_1: the edge product of the arrays the region found. -/
theorem out_main_v42_1 (c : Dev nD) : regionOuts m ρ 2 main_v42_1 c
    = EG5 (Gen.V1 m c main_arg3) (Gen.V1 m c main_v19) (Gen.V1 m c main_v41) :=
  (W2_arr m ρ c 5).trans (efinal5 (U1 m ρ) c)
/-- The first region's output main_v42_2: the edge product of the arrays the region found. -/
theorem out_main_v42_2 (c : Dev nD) : regionOuts m ρ 2 main_v42_2 c
    = EG6 (Gen.V1 m c main_arg3) (Gen.V1 m c main_v19) (Gen.V1 m c main_v30) :=
  (W2_arr m ρ c 6).trans (efinal6 (U1 m ρ) c)
/-- The first region's output main_v42_3: the edge product of the arrays the region found. -/
theorem out_main_v42_3 (c : Dev nD) : regionOuts m ρ 2 main_v42_3 c
    = EG7 (Gen.V1 m c main_arg3) (Gen.V1 m c main_v19) (Gen.V1 m c main_v41) :=
  (W2_arr m ρ c 7).trans (efinal7 (U1 m ρ) c)

/-- The second region's real-part output: the combination of the edge-sum array and the weight array it found. -/
theorem out_main_v65_0 (c : Dev nD) : regionOuts m ρ 4 main_v65_0 c
    = NRe (Gen.V3 m (regionOuts m ρ) c main_v59) (Gen.V3 m (regionOuts m ρ) c main_v64) := by
  refine ((W4_arr m ρ c 2).trans (nfinal2 (U3 m ρ) c)).trans ?_
  show NRe (W3 m ρ c (Proc.devRef .tc main_v59)) (W3 m ρ c (Proc.devRef .tc main_v64)) = _
  rw [W3_eq]
/-- The second region's imaginary-part output likewise. -/
theorem out_main_v65_1 (c : Dev nD) : regionOuts m ρ 4 main_v65_1 c
    = NIm (Gen.V3 m (regionOuts m ρ) c main_v59) (Gen.V3 m (regionOuts m ρ) c main_v64) := by
  refine ((W4_arr m ρ c 3).trans (nfinal3 (U3 m ρ) c)).trans ?_
  show NIm (W3 m ρ c (Proc.devRef .tc main_v59)) (W3 m ρ c (Proc.devRef .tc main_v64)) = _
  rw [W3_eq]

/-! ## The run, read -/

/-- The program runs, the result array ends at the last boundary's contents and every argument array as launched. -/
theorem run_read : θ_run defs (onTc (τ := τ) (main (F := F))) ⟨m, fun _ => 0, ρ⟩ (fun r => ∀ c : Dev nD,
      r.2.mem ((c.tc : Thread nD τ).loc main_v68) = Gen.V5 m (regionOuts m ρ) c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v68 (by decide))).trans (congrFun (W5_eq m ρ c) _),
     (h c _ (mem_uc main_arg0 (by decide))).trans ((congrFun (W5_eq m ρ c) _).trans (Gen.V5_main_arg0 m (regionOuts m ρ) c)),
     (h c _ (mem_uc main_arg1 (by decide))).trans ((congrFun (W5_eq m ρ c) _).trans (Gen.V5_main_arg1 m (regionOuts m ρ) c)),
     (h c _ (mem_uc main_arg2 (by decide))).trans ((congrFun (W5_eq m ρ c) _).trans (Gen.V5_main_arg2 m (regionOuts m ρ) c)),
     (h c _ (mem_uc main_arg3 (by decide))).trans ((congrFun (W5_eq m ρ c) _).trans (Gen.V5_main_arg3 m (regionOuts m ρ) c)),
     (h c _ (mem_uc main_arg4 (by decide))).trans ((congrFun (W5_eq m ρ c) _).trans (Gen.V5_main_arg4 m (regionOuts m ρ) c)),
     (h c _ (mem_uc main_arg5 (by decide))).trans ((congrFun (W5_eq m ρ c) _).trans (Gen.V5_main_arg5 m (regionOuts m ρ) c)),
     (h c _ (mem_uc main_arg6 (by decide))).trans ((congrFun (W5_eq m ρ c) _).trans (Gen.V5_main_arg6 m (regionOuts m ρ) c)),
     (h c _ (mem_uc main_arg7 (by decide))).trans ((congrFun (W5_eq m ρ c) _).trans (Gen.V5_main_arg7 m (regionOuts m ρ) c)),
     (h c _ (mem_uc main_arg8 (by decide))).trans ((congrFun (W5_eq m ρ c) _).trans (Gen.V5_main_arg8 m (regionOuts m ρ) c))⟩)
    (run_all m ρ)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_read m ρ)

end Cert.KernelIdeal.Pipes

end
-- ==== Proof.LibFiniteReals.lean ====
/-
  Finite extended reals. An extended real is FINITE when it is the coercion of a real number; on finite values the
  extended reals' arithmetic is the reals', so negation distributes over sums and division is multiplication by the
  inverse. This module states the predicate, with its nonnegative and positive refinements, and its closure under the
  operations a loss is written with: sums, products, differences, quotients by a positive value, maxima, suprema over a
  nonempty finite set, square roots of nonnegative values, exponentials, logarithms of positive values.
-/
import Idealize.ShloMosaic.PureOps.Ideal
import Mathlib.Algebra.BigOperators.Fin

noncomputable section

namespace Cert.Law

open Idealize.ShloMosaic

/-- `x` is a real number. -/
def IsR (x : EReal) : Prop := ∃ r : ℝ, x = (r : EReal)
/-- `x` is a nonnegative real number. -/
def IsNN (x : EReal) : Prop := ∃ r : ℝ, 0 ≤ r ∧ x = (r : EReal)
/-- `x` is a positive real number. -/
def IsPos (x : EReal) : Prop := ∃ r : ℝ, 0 < r ∧ x = (r : EReal)

variable {x y : EReal}

theorem IsPos.isNN (h : IsPos x) : IsNN x := let ⟨r, hr, e⟩ := h; ⟨r, hr.le, e⟩
theorem IsNN.isR (h : IsNN x) : IsR x := let ⟨r, _, e⟩ := h; ⟨r, e⟩
theorem IsPos.isR (h : IsPos x) : IsR x := h.isNN.isR

theorem isNN_zero : IsNN 0 := ⟨0, le_rfl, rfl⟩
theorem isNN_one : IsNN 1 := ⟨1, zero_le_one, rfl⟩
theorem isR_zero : IsR 0 := isNN_zero.isR
theorem isR_one : IsR 1 := isNN_one.isR

theorem IsR.add (hx : IsR x) (hy : IsR y) : IsR (x + y) := by
  obtain ⟨a, rfl⟩ := hx; obtain ⟨b, rfl⟩ := hy; exact ⟨a + b, (EReal.coe_add a b).symm⟩
theorem IsR.sub (hx : IsR x) (hy : IsR y) : IsR (x - y) := by
  obtain ⟨a, rfl⟩ := hx; obtain ⟨b, rfl⟩ := hy; exact ⟨a - b, (EReal.coe_sub a b).symm⟩
theorem IsR.mul (hx : IsR x) (hy : IsR y) : IsR (x * y) := by
  obtain ⟨a, rfl⟩ := hx; obtain ⟨b, rfl⟩ := hy; exact ⟨a * b, (EReal.coe_mul a b).symm⟩
theorem IsR.neg (hx : IsR x) : IsR (-x) := by
  obtain ⟨a, rfl⟩ := hx; exact ⟨-a, (EReal.coe_neg a).symm⟩
/-- A square is nonnegative. -/
theorem IsR.mul_self (hx : IsR x) : IsNN (x * x) := by
  obtain ⟨a, rfl⟩ := hx; exact ⟨a * a, mul_self_nonneg a, (EReal.coe_mul a a).symm⟩
theorem IsNN.add (hx : IsNN x) (hy : IsNN y) : IsNN (x + y) := by
  obtain ⟨a, ha, rfl⟩ := hx; obtain ⟨b, hb, rfl⟩ := hy
  exact ⟨a + b, add_nonneg ha hb, (EReal.coe_add a b).symm⟩
theorem IsNN.add_pos (hx : IsNN x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem IsPos.add (hx : IsPos x) (hy : IsPos y) : IsPos (x + y) := hx.isNN.add_pos hy

/-- A finite sum of real numbers is a real number. -/
theorem IsR.sum {ι : Type*} (s : Finset ι) (f : ι → EReal) (h : ∀ i ∈ s, IsR (f i)) : IsR (∑ i ∈ s, f i) :=
  Finset.sum_induction f IsR (fun _ _ => IsR.add) isR_zero h
/-- A finite sum of nonnegative real numbers is one. -/
theorem IsNN.sum {ι : Type*} (s : Finset ι) (f : ι → EReal) (h : ∀ i ∈ s, IsNN (f i)) : IsNN (∑ i ∈ s, f i) :=
  Finset.sum_induction f IsNN (fun _ _ => IsNN.add) isNN_zero h
/-- A nonempty finite sum of positive real numbers is one. -/
theorem IsPos.sum {ι : Type*} (s : Finset ι) (hs : s.Nonempty) (f : ι → EReal) (h : ∀ i ∈ s, IsPos (f i)) :
    IsPos (∑ i ∈ s, f i) :=
  Finset.sum_induction_nonempty f IsPos (fun _ _ => IsPos.add) hs h

/-- The quotient of a real number by a positive one is real: division by a nonzero real is multiplication by its
    inverse. -/
theorem IsR.div (hx : IsR x) (hy : IsPos y) : IsR (Ideal.div x y) := by
  obtain ⟨a, rfl⟩ := hx; obtain ⟨b, hb, rfl⟩ := hy
  rw [Ideal.div_coe hb.ne']; exact ⟨a * (1 / b), (EReal.coe_mul _ _).symm⟩

/-- The greater of a real number and a positive one is positive. -/
theorem IsR.max_pos (hx : IsR x) (hy : IsPos y) : IsPos (max x y) := by
  obtain ⟨a, rfl⟩ := hx; obtain ⟨b, hb, rfl⟩ := hy
  rcases le_total (a : EReal) (b : EReal) with h | h
  · rw [max_eq_right h]; exact ⟨b, hb, rfl⟩
  · rw [max_eq_left h]; exact ⟨a, lt_of_lt_of_le hb (EReal.coe_le_coe_iff.mp h), rfl⟩

/-- The square root of a nonnegative real number is one. -/
theorem IsNN.sqrt (hx : IsNN x) : IsNN (Ideal.sqrt x) := by
  obtain ⟨a, ha, rfl⟩ := hx
  rw [Ideal.sqrt_coe, if_neg (not_lt.mpr ha)]; exact ⟨Real.sqrt a, Real.sqrt_nonneg a, rfl⟩

/-- The exponential of a real number is a positive real. -/
theorem IsR.exp (hx : IsR x) : IsPos (Ideal.exp x) := by
  obtain ⟨a, rfl⟩ := hx; exact ⟨Real.exp a, Real.exp_pos a, rfl⟩

/-- The logarithm of a positive real number is real. -/
theorem IsPos.log (hx : IsPos x) : IsR (Ideal.log x) := by
  obtain ⟨a, ha, rfl⟩ := hx
  rw [Ideal.log_coe, if_neg (not_le.mpr ha)]; exact ⟨Real.log a, rfl⟩

/-- The supremum of real numbers over a nonempty finite set is one of them, so it is real. -/
theorem IsR.sup {ι : Type*} (s : Finset ι) (hs : s.Nonempty) (f : ι → EReal) (h : ∀ i ∈ s, IsR (f i)) :
    IsR (s.sup f) := by
  obtain ⟨i, hi, e⟩ := Finset.exists_mem_eq_sup s hs f
  rw [e]; exact h i hi

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- With every factor a real number, subtracting a finite sum of products from zero is summing the products with
    their first factors negated. (On the extended reals at large negation does not distribute over a sum: a term
    `+∞` beside a term `-∞` breaks it. Finiteness of every term is what makes the two spellings agree.) -/
theorem zero_sub_sum_mul {ι : Type*} [Fintype ι] (t l : ι → EReal) (ht : ∀ i, IsR (t i)) (hl : ∀ i, IsR (l i)) :
    0 - ∑ i, t i * l i = ∑ i, (-(t i)) * l i := by
  choose a ha using ht
  choose b hb using hl
  have e1 : ∀ i, t i * l i = ((a i * b i : ℝ) : EReal) := fun i => by rw [ha i, hb i, EReal.coe_mul]
  have e2 : ∀ i, (-(t i)) * l i = ((-(a i * b i) : ℝ) : EReal) := fun i => by
    rw [ha i, hb i, ← neg_mul, EReal.coe_mul, EReal.coe_neg]
  simp only [e1, e2]
  rw [← coe_sum, ← coe_sum, Finset.sum_neg_distrib]
  show ((0 : ℝ) : EReal) - _ = _
  rw [← EReal.coe_sub, zero_sub]

end Cert.Law

end
-- ==== Proof.LibGraphConv.lean ====
/-
  Message passing along the edges of a graph, over the extended reals.

  A ROW GATHER reads, for edge e, the row of an [N, C] table named by a signed index word (clamped into [0, N − 1]);
  a ROW SCATTER-ADD adds, for edge e, a row of an [E, C] array into the row of an [N, C] accumulator named by a signed
  index word, dropping the edge when the word is outside [0, N).  With s(e), t(e) the source and target words:

      out(n, c) = Σ_{e : t(e) = n} upd(e, c).

  THE LAW (`conv_factor`).  Let d : [N] hold nonnegative REAL numbers.  Then, for any table P (its entries may be
  infinite),

      ( Σ_{e : t(e) = n} P(s(e), c) · d(s(e)) ) · d(n)  =  Σ_{e : t(e) = n} P(s(e), c) · ( d(s(e)) · d(t(e)) ):

  scaling the table before the gather and the sum after the scatter is scaling each message by the product of the two
  end points' factors.  Every edge that lands in row n has t(e) = n, so the second factor is constant over the sum and
  comes out of it; a factor comes out of a sum of extended reals when it is a nonnegative real, whatever the summands
  (for a negative or infinite factor, +∞ beside −∞ among the summands would break it).
-/
import Idealize.ShloMosaic.Lib.ValueIdx
import Idealize.ShloMosaic.PureOps.Ideal.Laws
import proofs.«140219_j61804579389717_1_alg».proof.Proof.LibFiniteReals

noncomputable section

namespace Cert.GraphConv

open Idealize.ShloMosaic Idealize.ShloMosaic.ValueIdx Cert.Law

variable {N E C w : ℕ}

/-! ## The dimension numbers of `table[idx]` along the rows, and of the matching scatter -/

/-- Row gather of an [N, C] table at [E, 1] index words into [E, C]. -/
abbrev rowGather (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of a vector [N] at [E, 1] index words into [E]. -/
abbrev vecGather (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter of [E, C] updates into an [N, C] accumulator at [E, 1] index words. -/
abbrev rowScatter (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row an index word names in a gather: the word read signed, clamped into [0, N − 1]. -/
def clampRow (hN : 0 < N) (v : BitVec w) : Fin N := ⟨min v.toInt.toNat (N - 1), by omega⟩

/-- THE ROW GATHER READ AT (e, c): the table at row `clampRow (idx(e, 0))`, column c. -/
theorem rowGather_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow hN (idx (ix2 e (0 : Fin 1)))) c) := by
  unfold Host.gather
  congr 1
  funext a
  refine Fin.ext ?_
  have hsi : (rowGather N E C wf).siIdx (ix2 e c) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl), hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show ¬ (1 : Fin 2) ∈ (rowGather N E C wf).startIndexMap from
        fun h => absurd (congrArg Fin.val (List.mem_singleton.mp h)) Nat.one_ne_zero)]
    have ho : (rowGather N E C wf).offCoord (ix2 e c) 1 = c.val := by
      unfold GatherDims.offCoord
      rw [dif_pos (show (1 : Fin 2) ∈ (rowGather N E C wf).sKept from
        (GatherDims.mem_sKept _ _).mpr ⟨fun h => absurd (congrArg Fin.val (List.mem_singleton.mp h)) Nat.one_ne_zero, List.not_mem_nil⟩)]
      rfl
    rw [hs, ho]; omega

/-- THE VECTOR GATHER READ AT e: the vector at `clampRow (idx(e, 0))`. -/
theorem vecGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- WHERE A ROW SCATTER LANDS: update (e, c) lands on element i only if the index word of edge e, read signed, is
    i's row. -/
theorem rowScatter_lands (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : Int) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hstart : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hwin : (rowScatter N E C wf).window (ix2 e c) 0 = 0 := by
    unfold ScatterDims.window
    rw [dif_neg (show ¬ (0 : Fin 2) ∈ (rowScatter N E C wf).sKept from by
      simp [ScatterDims.sKept, Shape.kept, List.mem_filter])]
  unfold ScatterDims.resultIdx? at h
  split at h
  · rename_i hin
    have h0 := hin 0
    have hi : (fun a => (⟨((rowScatter N E C wf).start (ix2 e c) idx a + (rowScatter N E C wf).window (ix2 e c) a).toNat,
        by have := hin a; omega⟩ : Fin ((⟨2, ![N, C]⟩ : Shape).size a))) = i := Option.some.inj h
    have hv : ((rowScatter N E C wf).start (ix2 e c) idx 0 + (rowScatter N E C wf).window (ix2 e c) 0).toNat = (i 0).val := by
      rw [← hi]
    rw [hstart, hwin] at h0 hv
    omega
  · exact absurd h (by simp)

/-! ## A nonnegative real factor comes out of a finite sum of extended reals -/

theorem sum_mul_of_isNN {ι : Type*} (s : Finset ι) (f : ι → EReal) {d : EReal} (hd : IsNN d) :
    (∑ j ∈ s, f j) * d = ∑ j ∈ s, f j * d := by
  classical
  obtain ⟨r, hr, rfl⟩ := hd
  induction s using Finset.induction_on with
  | empty => simp
  | insert j s hj ih =>
    rw [Finset.sum_insert hj, Finset.sum_insert hj,
      EReal.right_distrib_of_nonneg_of_ne_top (EReal.coe_nonneg.mpr hr) (EReal.coe_ne_top r), ih]

/-! ## The law -/

/-- SCALE–GATHER–SCATTER–SCALE IS GATHER–SCALE BY BOTH ENDS–SCATTER, for a nonnegative real factor vector `D`.
    `DB` is `D` spread over the columns of [N, C]; `NB` is the per-edge product of the two gathered factors spread
    over the columns of [E, C]; `dst'` is the target index word as the reference's gather sees it, equal to the
    scatter's word `dst` whenever that word is a row of the table. -/
theorem conv_factor (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (P : FVec Ideal ⟨2, ![N, C]⟩ .f32) (D : FVec Ideal ⟨1, ![N]⟩ .f32) (hD : ∀ n, IsNN (D n))
    (Z : FVec Ideal ⟨2, ![N, C]⟩ .f32) (hZ : ∀ i, Z i = 0)
    (src dst dst' : IVec ⟨2, ![E, 1]⟩ w)
    (hdst : ∀ e : Fin E, ∀ n : Fin N, (dst (ix2 e (0 : Fin 1))).toInt = (n.val : Int) →
      dst' (ix2 e (0 : Fin 1)) = dst (ix2 e (0 : Fin 1)))
    (DB : FVec Ideal ⟨2, ![N, C]⟩ .f32) (hDB : ∀ n c, DB (ix2 n c) = D (ix1 n))
    (NB : FVec Ideal ⟨2, ![E, C]⟩ .f32)
    (hNB : ∀ e c, NB (ix2 e c) = Host.gather (vecGather N E wfv) D src (ix1 e) * Host.gather (vecGather N E wfv) D dst' (ix1 e)) :
    mulf (Host.scatterAdd (rowScatter N E C wfs) Z dst (Host.gather (rowGather N E C wfg) (mulf P DB) src)) DB
      = Host.scatterAdd (rowScatter N E C wfs) Z dst (mulf (Host.gather (rowGather N E C wfg) P src) NB) := by
  funext i
  obtain ⟨n, c, rfl⟩ : ∃ (n : Fin N) (c : Fin C), i = ix2 n c := ⟨i 0, i 1, eq_ix2 i⟩
  rw [mulf_apply, hDB]
  show (Z (ix2 n c) + ∑ j ∈ Finset.univ.filter (fun j => (rowScatter N E C wfs).resultIdx? j dst = some (ix2 n c)),
      Host.gather (rowGather N E C wfg) (mulf P DB) src j) * D (ix1 n)
    = Z (ix2 n c) + ∑ j ∈ Finset.univ.filter (fun j => (rowScatter N E C wfs).resultIdx? j dst = some (ix2 n c)),
      mulf (Host.gather (rowGather N E C wfg) P src) NB j
  rw [hZ, zero_add, zero_add, sum_mul_of_isNN _ _ (hD (ix1 n))]
  refine Finset.sum_congr rfl fun j hj => ?_
  obtain ⟨e, c', rfl⟩ : ∃ (e : Fin E) (c' : Fin C), j = ix2 e c' := ⟨j 0, j 1, eq_ix2 j⟩
  have hland : (dst (ix2 e (0 : Fin 1))).toInt = (n.val : Int) :=
    rowScatter_lands wfs dst e c' (ix2 n c) (Finset.mem_filter.mp hj).2
  have hw : dst' (ix2 e (0 : Fin 1)) = dst (ix2 e (0 : Fin 1)) := hdst e n hland
  have hrow : clampRow hN (dst' (ix2 e (0 : Fin 1))) = n := by
    refine Fin.ext ?_
    show min (dst' (ix2 e (0 : Fin 1))).toInt.toNat (N - 1) = n.val
    rw [hw, hland, Int.toNat_natCast]
    have hn : n.val < N := n.isLt
    omega
  rw [mulf_apply, rowGather_apply hN wfg, rowGather_apply hN wfg, mulf_apply, hDB, hNB,
    vecGather_apply hN wfv, vecGather_apply hN wfv, hrow, mul_assoc]

end Cert.GraphConv

end
-- ==== Proof.EdgeWords.lean ====
/-
  The index words of a graph's edges, as both programs read them.

  An edge list is a [2, E] array of signed 32-bit words: row 0 holds each edge's source word, row 1 its target word.
  A GATHER along the rows of an N-row table first wraps a negative word by N (indexing from the end), then clamps the
  word read signed into [0, N − 1]: the row it reads. A SCATTER-ADD takes the raw target word and adds an edge's
  update into row n exactly when the word read signed IS n; an edge whose word names no row is dropped.
  Here N = 98304 and E = 1572864.
-/
import Idealize.ShloMosaic.Lib.ValueIdx
import Idealize.ShloMosaic.PureOps.Ideal.Laws
import proofs.«140219_j61804579389717_1_alg».proof.Proof.LibGraphConv

noncomputable section

namespace Cert.EdgeWords

open Idealize.ShloMosaic Idealize.ShloMosaic.ValueIdx

/-- The edge list's shape, [2, E]. -/
abbrev SEdges : Shape := ⟨2, ![2, 1572864]⟩

/-- A negative word counts rows from the end: it is wrapped by the number of rows. -/
def wrap (v : BitVec 32) : BitVec 32 :=
  Scalar.select (IntOp.cmpi .slt v 0#32) (IntOp.addi v 98304#32) v

/-- Edge e's source word. -/
def srcW (ei : IVec SEdges 32) (e : Fin 1572864) : BitVec 32 := ei (ix2 (0 : Fin 2) e)
/-- Edge e's target word. -/
def dstW (ei : IVec SEdges 32) (e : Fin 1572864) : BitVec 32 := ei (ix2 (1 : Fin 2) e)

/-- The row a gather reads for edge e's source: the wrapped word clamped into the table. -/
def srcRow (ei : IVec SEdges 32) (e : Fin 1572864) : Fin 98304 :=
  Cert.GraphConv.clampRow (by decide) (wrap (srcW ei e))
/-- The row a gather reads for edge e's target. -/
def dstRow (ei : IVec SEdges 32) (e : Fin 1572864) : Fin 98304 :=
  Cert.GraphConv.clampRow (by decide) (wrap (dstW ei e))

/-- Edge e's update lands in row n of a scatter-add: its raw target word, read signed, is n. -/
def lands (ei : IVec SEdges 32) (e : Fin 1572864) (n : Fin 98304) : Prop :=
  (dstW ei e).toInt = (n.val : Int)

instance (ei : IVec SEdges 32) (e : Fin 1572864) (n : Fin 98304) : Decidable (lands ei e n) := by
  unfold lands; infer_instance

end Cert.EdgeWords

end
-- ==== Proof.LibVectorScatter.lean ====
/-
  Single cells gathered from a one-column table, and a vector scatter-add, over the extended reals.

  A CELL GATHER reads, for edge e, one entry of an [N, 1] table at an index vector (row word, column word): the row
  word is read signed and clamped into [0, N − 1]; the column word is clamped into [0, 1 − 1], so the one column is
  read whatever that word says:

      out(e) = table( clamp(row word of e), 0 ).

  A VECTOR SCATTER-ADD adds, for edge e, the number upd(e) into entry n of an [N] accumulator exactly when e's index
  word, read signed and NOT clamped, is n; an edge whose word names no entry is dropped. As an iff: the update of edge
  e lands on n if and only if its word read signed equals n. Hence, entry by entry,

      out(n) = acc(n) + Σ_{e : word(e) = n} upd(e),

  the sum over update indices re-indexed by the edge number.
-/
import Idealize.ShloMosaic.Lib.ValueIdx
import Idealize.ShloMosaic.PureOps.Ideal.Laws
import proofs.«140219_j61804579389717_1_alg».proof.Proof.LibGraphConv

noncomputable section

namespace Cert.VectorScatter

open Idealize.ShloMosaic Idealize.ShloMosaic.ValueIdx

/-! ## The dimension records -/

section Dims
variable {N E w : ℕ}

/-- Gather of single cells of an [N, 1] table at [E, 2] index vectors (row word, column word) into [E]. -/
abbrev cellGather (N E : ℕ)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- Scatter of [E] updates into an [N] accumulator at [E, 1] index words. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- THE CELL GATHER READ AT e: the table at row `clampRow (idx(e, 0))`, column 0 — the one column there is, whatever
    the column word says (its start is clamped into [0, 1 − 1]). -/
theorem cellGather_apply {α : Type} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (cellGather N E wf) x idx (ix1 e)
      = x (ix2 (Cert.GraphConv.clampRow hN (idx (ix2 e (0 : Fin 2)))) (0 : Fin 1)) := by
  unfold Host.gather
  congr 1
  funext a
  refine Fin.ext ?_
  match a with
  | ⟨0, _⟩ =>
    show (cellGather N E wf).start (ix1 e) idx 0 + (cellGather N E wf).batchCoord (ix1 e) 0
      + (cellGather N E wf).offCoord (ix1 e) 0 = _
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    rw [dif_pos (show (0 : Fin 2) ∈ (cellGather N E wf).startIndexMap from List.mem_cons_self)]
    have hsi : (cellGather N E wf).siIdx (ix1 e) ⟨List.idxOf (0 : Fin 2) (cellGather N E wf).startIndexMap,
        List.idxOf_lt_length_iff.2 (List.mem_cons_self)⟩ = ix2 e (0 : Fin 2) := by
      funext b; refine Fin.ext ?_
      match b with
      | ⟨0, _⟩ => rfl
      | ⟨1, _⟩ => rfl
    rw [hsi]
    rfl
  | ⟨1, _⟩ =>
    show (cellGather N E wf).start (ix1 e) idx 1 + (cellGather N E wf).batchCoord (ix1 e) 1
      + (cellGather N E wf).offCoord (ix1 e) 1 = 0
    rw [GatherDims.batchCoord_eq_zero _ _ _ List.not_mem_nil,
      GatherDims.offCoord_eq_zero _ _ _ (fun h => ((GatherDims.mem_sKept _ _).mp h).1
        (List.mem_cons_of_mem _ List.mem_cons_self))]
    have hs : (cellGather N E wf).start (ix1 e) idx 1 ≤ 1 - 1 := (cellGather N E wf).start_le (ix1 e) idx 1
    omega

/-- WHERE A VECTOR SCATTER LANDS: update e lands on element n exactly when the index word of edge e, read signed,
    is n. -/
theorem vecScatter_lands_iff (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hstart : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hwin : (vecScatter N E wf).window (ix1 e) 0 = 0 := by
    unfold ScatterDims.window
    rw [dif_neg (show ¬ (0 : Fin 1) ∈ (vecScatter N E wf).sKept from by
      simp [ScatterDims.sKept, Shape.kept, List.mem_filter])]
  constructor
  · intro h
    unfold ScatterDims.resultIdx? at h
    split at h
    · rename_i hin
      have h0 := hin 0
      have hi : (fun a => (⟨((vecScatter N E wf).start (ix1 e) idx a + (vecScatter N E wf).window (ix1 e) a).toNat,
          by have := hin a; omega⟩ : Fin ((⟨1, ![N]⟩ : Shape).size a))) = ix1 n := Option.some.inj h
      have hv : ((vecScatter N E wf).start (ix1 e) idx 0 + (vecScatter N E wf).window (ix1 e) 0).toNat = n.val := by
        have := congrArg (fun f => (f 0).val) hi
        exact this
      rw [hstart, hwin] at h0 hv
      omega
    · exact absurd h (by simp)
  · intro h
    have hin : ∀ a, 0 ≤ (vecScatter N E wf).start (ix1 e) idx a + (vecScatter N E wf).window (ix1 e) a
        ∧ (vecScatter N E wf).start (ix1 e) idx a + (vecScatter N E wf).window (ix1 e) a < ((⟨1, ![N]⟩ : Shape).size a : Int) := by
      intro a
      obtain rfl : a = 0 := Subsingleton.elim _ _
      rw [hstart, hwin, h]
      have hn : n.val < N := n.isLt
      show (0 : Int) ≤ (n.val : Int) + ((0 : ℕ) : Int) ∧ (n.val : Int) + ((0 : ℕ) : Int) < ((N : ℕ) : Int)
      omega
    unfold ScatterDims.resultIdx?
    rw [dif_pos hin]
    refine congrArg some (funext fun a => Fin.ext ?_)
    obtain rfl : a = 0 := Subsingleton.elim _ _
    show ((vecScatter N E wf).start (ix1 e) idx 0 + (vecScatter N E wf).window (ix1 e) 0).toNat = n.val
    rw [hstart, hwin, h]
    omega

/-- A rank-1 index set is its one coordinate's range: the bijection the scatter-add's sum over update indices is
    re-indexed through. -/
def idxEquiv1 {n : ℕ} : (⟨1, ![n]⟩ : Shape).Idx ≃ Fin n where
  toFun i := i 0
  invFun a := ix1 a
  left_inv i := (eq_ix1 i).symm
  right_inv _ := rfl

/-- THE VECTOR SCATTER-ADD READ AT n: the accumulator at n plus the updates of the edges whose index word, read
    signed, is n. -/
theorem vecScatterAdd_apply (wf : ScatterDims.WF ⟨1, ![N]⟩ ⟨2, ![E, 1]⟩ ⟨1, ![E]⟩ [] [0] [0] 1)
    (Z : FVec Ideal ⟨1, ![N]⟩ .f32) (idx : IVec ⟨2, ![E, 1]⟩ w) (u : FVec Ideal ⟨1, ![E]⟩ .f32) (n : Fin N) :
    Host.scatterAdd (vecScatter N E wf) Z idx u (ix1 n)
      = Z (ix1 n) + ∑ e ∈ Finset.univ.filter (fun e : Fin E => (idx (ix2 e (0 : Fin 1))).toInt = (n.val : Int)), u (ix1 e) := by
  show Z (ix1 n) + ∑ j ∈ Finset.univ.filter (fun j => (vecScatter N E wf).resultIdx? j idx = some (ix1 n)), u j = _
  congr 1
  refine Finset.sum_equiv idxEquiv1 (fun j => ?_) (fun j _ => ?_)
  · obtain ⟨e, rfl⟩ : ∃ e : Fin E, j = ix1 e := ⟨j 0, eq_ix1 j⟩
    rw [Finset.mem_filter, Finset.mem_filter, vecScatter_lands_iff]
    exact ⟨fun h => ⟨Finset.mem_univ _, h.2⟩, fun h => ⟨Finset.mem_univ _, h.2⟩⟩
  · obtain ⟨e, rfl⟩ : ∃ e : Fin E, j = ix1 e := ⟨j 0, eq_ix1 j⟩
    rfl

end Dims

end Cert.VectorScatter

end
-- ==== Proof.HostAtIndex.lean ====
/-
  The kernel's host stretches, read entry by entry.

  Between its two grid regions the kernel's program runs plain array operations. This module reads what they leave, at
  one index, in terms of the argument arrays and of the (unknown) arrays the regions write:

  * before the first region — the edge weights untouched; the mask, at edge e the number 1 when the community words
    of the rows read for e's source and target are equal, else 0; the two scalars gathered for edge e, the entries of
    the real and the imaginary input at the row read for e's source;
  * before the second region — the [N, 4] array whose entry (n, j) is the sum, over the edges whose raw target word
    is n, of the j-th array the first region wrote; the [4, C] array whose row j is the j-th weight column;
  * at the end — the [N, C, 2] result whose two slices on the last axis are the two arrays the second region wrote.

  A gather reads the row named by the word after wrapping a negative word by N and clamping into [0, N − 1]; a
  scatter-add takes the raw word and drops an edge whose word names no row.  N = 98304, E = 1572864, C = 64.
-/
import proofs.«140219_j61804579389717_1_alg».proof.Proof.Gen.KernelIdeal.Regions
import proofs.«140219_j61804579389717_1_alg».proof.Proof.EdgeWords
import proofs.«140219_j61804579389717_1_alg».proof.Proof.LibVectorScatter
import Idealize.ShloMosaic.Lib.Pipeline.Value
import Idealize.ShloMosaic.Lib.ValueIdx

noncomputable section
namespace Cert.HostAtIndex
open Idealize.ShloMosaic Idealize.ShloMosaic.TcCoe Idealize.ShloMosaic.ValueIdx
open Cert.KernelIdeal Cert.KernelIdeal.Gen Cert.EdgeWords Cert.VectorScatter

/-! ## The first host stretch: the wrapped source and target words, the mask, the gathered scalars -/

section Stretch0

/-- The source words: row 0 of the edge list, as a vector. -/
def srcVec (ei : IVec S2x1572864 32) : IVec S1572864 32 :=
  shapeCast S1572864 (extractStridedSlice S1x1572864 ![0, 0] ei slices_S2x1572864_S1x1572864_0_0) shapeCasts_S1x1572864_S1572864
/-- The target words: row 1 of the edge list, as a vector. -/
def dstVec (ei : IVec S2x1572864 32) : IVec S1572864 32 :=
  shapeCast S1572864 (extractStridedSlice S1x1572864 ![1, 0] ei slices_S2x1572864_S1x1572864_1_0) shapeCasts_S1x1572864_S1572864
/-- A vector of words, each negative one wrapped by the number of rows. -/
def wrapVec (v : IVec S1572864 32) : IVec S1572864 32 :=
  select (cmpi .slt v (broadcastInDim S1572864 ![] bcast_S_S1572864 (constantI S_ 32 0#32)))
    (addi v (broadcastInDim S1572864 ![] bcast_S_S1572864 (constantI S_ 32 98304#32))) v
/-- A vector of words set as a column. -/
def asColumn (v : IVec S1572864 32) : IVec S1572864x1 32 := broadcastInDim S1572864x1 ![0] bcast_S1572864_S1572864x1_0 v
/-- The index vectors (row word, 0) of a cell gather from a one-column table. -/
def cellIdx (v : IVec S1572864 32) : IVec S1572864x2 32 :=
  concatenate S1572864x2 1 [⟨S1572864x1, asColumn v⟩,
    ⟨S1572864x1, asColumn (id (broadcastInDim S1572864 ![] bcast_S_S1572864 (constantI S_ 32 0#32)))⟩]
    concatenates_S1572864x1_S1572864x1_S1572864x2_d1

theorem srcVec_apply (ei : IVec S2x1572864 32) (e : Fin 1572864) : srcVec ei (ix1 e) = srcW ei e := by
  unfold srcVec srcW
  refine (shapeCast_apply _ shapeCasts_S1x1572864_S1572864 (ix1 e) (ix2 (0 : Fin 1) e) ?_).trans ?_
  · rw [Shape.rowMajor_val_two, Shape.rowMajor_val_one]
    show (0 : ℕ) * 1572864 + e.val = e.val
    omega
  · refine extractStridedSlice_apply _ ei slices_S2x1572864_S1x1572864_0_0 (ix2 (0 : Fin 1) e) (ix2 (0 : Fin 2) e) fun a => ?_
    match a with
    | ⟨0, _⟩ => rfl
    | ⟨1, _⟩ => show e.val = 0 + e.val; omega

theorem dstVec_apply (ei : IVec S2x1572864 32) (e : Fin 1572864) : dstVec ei (ix1 e) = dstW ei e := by
  unfold dstVec dstW
  refine (shapeCast_apply _ shapeCasts_S1x1572864_S1572864 (ix1 e) (ix2 (0 : Fin 1) e) ?_).trans ?_
  · rw [Shape.rowMajor_val_two, Shape.rowMajor_val_one]
    show (0 : ℕ) * 1572864 + e.val = e.val
    omega
  · refine extractStridedSlice_apply _ ei slices_S2x1572864_S1x1572864_1_0 (ix2 (0 : Fin 1) e) (ix2 (1 : Fin 2) e) fun a => ?_
    match a with
    | ⟨0, _⟩ => rfl
    | ⟨1, _⟩ => show e.val = 0 + e.val; omega

theorem wrapVec_apply (v : IVec S1572864 32) (e : Fin 1572864) : wrapVec v (ix1 e) = wrap (v (ix1 e)) := rfl

theorem asColumn_apply (v : IVec S1572864 32) (e : Fin 1572864) : asColumn v (ix2 e (0 : Fin 1)) = v (ix1 e) := by
  unfold asColumn
  refine broadcastInDim_apply _ bcast_S1572864_S1572864x1_0 v (ix2 e (0 : Fin 1)) (ix1 e) fun a => ?_
  match a with
  | ⟨0, _⟩ => rfl

theorem cellIdx_apply (v : IVec S1572864 32) (e : Fin 1572864) : cellIdx v (ix2 e (0 : Fin 2)) = v (ix1 e) := by
  unfold cellIdx
  refine (concatenate_pair_apply_left (t := S1572864x2) (s₁ := S1572864x1) (s₂ := S1572864x1) (1 : Fin 2) _ _
    concatenates_S1572864x1_S1572864x1_S1572864x2_d1 (ix2 e (0 : Fin 2)) rfl (ix2 e (0 : Fin 1)) fun b => ?_).trans
    (asColumn_apply v e)
  match b with
  | ⟨0, _⟩ => rfl
  | ⟨1, _⟩ => rfl

end Stretch0

/-! ## The printed dimension records are the general ones -/

theorem commGather_apply (x : IVec S98304 32) (idx : IVec S1572864x1 32) (e : Fin 1572864) :
    Host.gather gather_S98304_S1572864x1_S1572864_n_0_n_n_0_1_1 x idx (ix1 e)
      = x (ix1 (Cert.GraphConv.clampRow (N := 98304) (by decide) (idx (ix2 e (0 : Fin 1))))) :=
  Cert.GraphConv.vecGather_apply (N := 98304) (E := 1572864) (by decide)
    gather_S98304_S1572864x1_S1572864_n_0_n_n_0_1_1.wf x idx e

theorem scalarGather_apply (x : FVec Ideal S98304x1 .f32) (idx : IVec S1572864x2 32) (e : Fin 1572864) :
    Host.gather gather_S98304x1_S1572864x2_S1572864_n_01_n_n_01_1_11 x idx (ix1 e)
      = x (ix2 (Cert.GraphConv.clampRow (N := 98304) (by decide) (idx (ix2 e (0 : Fin 2)))) (0 : Fin 1)) :=
  cellGather_apply (N := 98304) (E := 1572864) (by decide)
    gather_S98304x1_S1572864x2_S1572864_n_01_n_n_01_1_11.wf x idx e

theorem edgeScatterAdd_apply (Z : FVec Ideal S98304 .f32) (idx : IVec S1572864x1 32) (u : FVec Ideal S1572864 .f32)
    (n : Fin 98304) :
    Host.scatterAdd scatter_S98304_S1572864x1_S1572864_n_0_0_1 Z idx u (ix1 n)
      = Z (ix1 n) + ∑ e ∈ Finset.univ.filter (fun e : Fin 1572864 => (idx (ix2 e (0 : Fin 1))).toInt = (n.val : Int)), u (ix1 e) :=
  vecScatterAdd_apply (N := 98304) (E := 1572864) scatter_S98304_S1572864x1_S1572864_n_0_0_1.wf Z idx u n

/-- The mask as a number: 1 when the two words are equal, else 0. -/
theorem mask_value (a b : BitVec 32) :
    (FloatOps.uitofp (F := Ideal) .f32 (IntOp.cmpi .eq a b) : EReal) = if a = b then 1 else 0 := by
  show (((BitVec.ofBool (a == b)).toNat : ℝ) : EReal) = _
  by_cases h : a = b
  · subst h
    rw [if_pos rfl]
    simp
  · rw [if_neg h]
    have hb : (a == b) = false := by simpa using h
    rw [hb]
    simp

section V1

variable (m : (ℓ : Loc nD τ sig) → Buf (Elt Ideal) ℓ) (c : Dev nD)

set_option quotPrecheck false in
local notation "A0" => (m ((c : Thread nD τ).loc main_arg0) : FVec Ideal S98304x1 .f32)
set_option quotPrecheck false in
local notation "A1" => (m ((c : Thread nD τ).loc main_arg1) : FVec Ideal S98304x1 .f32)
set_option quotPrecheck false in
local notation "A2" => (m ((c : Thread nD τ).loc main_arg2) : IVec S2x1572864 32)
set_option quotPrecheck false in
local notation "A4" => (m ((c : Thread nD τ).loc main_arg4) : IVec S98304 32)

/-- No host operation writes an argument: the first region finds the edge weights as launched. -/
theorem V1_arg3 : V1 m c main_arg3 = m ((c : Thread nD τ).loc main_arg3) :=
  (V1_of m c main_arg3 (by decide)).trans rfl

set_option maxHeartbeats 1000000 in
theorem V1_v19_eq : (V1 m c main_v19 : S1572864.Idx → EReal)
    = uitofp (F := Ideal) .f32 (cmpi .eq
        (Host.gather gather_S98304_S1572864x1_S1572864_n_0_n_n_0_1_1 A4 (asColumn (wrapVec (srcVec A2))))
        (Host.gather gather_S98304_S1572864x1_S1572864_n_0_n_n_0_1_1 A4 (asColumn (wrapVec (dstVec A2))))) := by
  dsimp only [Gen.V1, Gen.hostOps0]
  after_results_simp
  rfl

set_option maxHeartbeats 1000000 in
theorem V1_v30_eq : (V1 m c main_v30 : S1572864.Idx → EReal)
    = Host.gather gather_S98304x1_S1572864x2_S1572864_n_01_n_n_01_1_11 A0 (cellIdx (wrapVec (srcVec A2))) := by
  dsimp only [Gen.V1, Gen.hostOps0]
  after_results_simp
  rfl

set_option maxHeartbeats 1000000 in
theorem V1_v41_eq : (V1 m c main_v41 : S1572864.Idx → EReal)
    = Host.gather gather_S98304x1_S1572864x2_S1572864_n_01_n_n_01_1_11 A1 (cellIdx (wrapVec (srcVec A2))) := by
  dsimp only [Gen.V1, Gen.hostOps0]
  after_results_simp
  rfl

/-- THE MASK AT EDGE e: the bit "the two end points' community words are equal", as a float. -/
theorem V1_v19_apply (e : Fin 1572864) :
    (V1 m c main_v19 : S1572864.Idx → EReal) (ix1 e)
      = FloatOps.uitofp (F := Ideal) .f32 (IntOp.cmpi .eq (A4 (ix1 (srcRow A2 e))) (A4 (ix1 (dstRow A2 e)))) := by
  rw [V1_v19_eq]
  show FloatOps.uitofp (F := Ideal) .f32 (IntOp.cmpi .eq
      (Host.gather gather_S98304_S1572864x1_S1572864_n_0_n_n_0_1_1 A4 (asColumn (wrapVec (srcVec A2))) (ix1 e))
      (Host.gather gather_S98304_S1572864x1_S1572864_n_0_n_n_0_1_1 A4 (asColumn (wrapVec (dstVec A2))) (ix1 e))) = _
  rw [commGather_apply, commGather_apply, asColumn_apply, asColumn_apply, wrapVec_apply, wrapVec_apply,
    srcVec_apply, dstVec_apply]
  rfl

/-- Its value: 1 on an edge inside one community, 0 on an edge between two. -/
theorem V1_v19_value (e : Fin 1572864) :
    (V1 m c main_v19 : S1572864.Idx → EReal) (ix1 e)
      = if A4 (ix1 (srcRow A2 e)) = A4 (ix1 (dstRow A2 e)) then (1 : EReal) else 0 := by
  rw [V1_v19_apply, mask_value]

/-- THE GATHERED REAL PART AT EDGE e: the source row's entry. -/
theorem V1_v30_apply (e : Fin 1572864) :
    (V1 m c main_v30 : S1572864.Idx → EReal) (ix1 e) = A0 (ix2 (srcRow A2 e) (0 : Fin 1)) := by
  rw [V1_v30_eq, scalarGather_apply, cellIdx_apply, wrapVec_apply, srcVec_apply]
  rfl

/-- THE GATHERED IMAGINARY PART AT EDGE e: the source row's entry. -/
theorem V1_v41_apply (e : Fin 1572864) :
    (V1 m c main_v41 : S1572864.Idx → EReal) (ix1 e) = A1 (ix2 (srcRow A2 e) (0 : Fin 1)) := by
  rw [V1_v41_eq, scalarGather_apply, cellIdx_apply, wrapVec_apply, srcVec_apply]
  rfl

end V1

/-! ## Layout reads of the second and third host stretches -/

section Layout
variable {α : Type}

/-- Four columns [N, 1] laid side by side into [N, 4]: column k of the result is the k-th piece. -/
theorem cols4_apply0 (x0 x1 x2 x3 : S98304x1.Idx → α) (n : Fin 98304) :
    concatenate S98304x4 1 [⟨S98304x1, x0⟩, ⟨S98304x1, x1⟩, ⟨S98304x1, x2⟩, ⟨S98304x1, x3⟩]
      concatenates_S98304x1_S98304x1_S98304x1_S98304x1_S98304x4_d1 (ix2 n (0 : Fin 4)) = x0 (ix2 n (0 : Fin 1)) := by
  refine concatenate_apply_piece (t := S98304x4) (1 : Fin 2) _ _ (ix2 n (0 : Fin 4)) 0 (by show (0 : ℕ) < 4; omega) S98304x1 x0 rfl rfl 0 rfl
    (ix2 n (0 : Fin 1)) (fun b hb => ?_) rfl
  match b, hb with
  | ⟨0, _⟩, _ => rfl
  | ⟨1, _⟩, hb => exact absurd rfl hb
theorem cols4_apply1 (x0 x1 x2 x3 : S98304x1.Idx → α) (n : Fin 98304) :
    concatenate S98304x4 1 [⟨S98304x1, x0⟩, ⟨S98304x1, x1⟩, ⟨S98304x1, x2⟩, ⟨S98304x1, x3⟩]
      concatenates_S98304x1_S98304x1_S98304x1_S98304x1_S98304x4_d1 (ix2 n (1 : Fin 4)) = x1 (ix2 n (0 : Fin 1)) := by
  refine concatenate_apply_piece (t := S98304x4) (1 : Fin 2) _ _ (ix2 n (1 : Fin 4)) 1 (by show (1 : ℕ) < 4; omega) S98304x1 x1 rfl rfl 1 rfl
    (ix2 n (0 : Fin 1)) (fun b hb => ?_) rfl
  match b, hb with
  | ⟨0, _⟩, _ => rfl
  | ⟨1, _⟩, hb => exact absurd rfl hb
theorem cols4_apply2 (x0 x1 x2 x3 : S98304x1.Idx → α) (n : Fin 98304) :
    concatenate S98304x4 1 [⟨S98304x1, x0⟩, ⟨S98304x1, x1⟩, ⟨S98304x1, x2⟩, ⟨S98304x1, x3⟩]
      concatenates_S98304x1_S98304x1_S98304x1_S98304x1_S98304x4_d1 (ix2 n (2 : Fin 4)) = x2 (ix2 n (0 : Fin 1)) := by
  refine concatenate_apply_piece (t := S98304x4) (1 : Fin 2) _ _ (ix2 n (2 : Fin 4)) 2 (by show (2 : ℕ) < 4; omega) S98304x1 x2 rfl rfl 2 rfl
    (ix2 n (0 : Fin 1)) (fun b hb => ?_) rfl
  match b, hb with
  | ⟨0, _⟩, _ => rfl
  | ⟨1, _⟩, hb => exact absurd rfl hb
theorem cols4_apply3 (x0 x1 x2 x3 : S98304x1.Idx → α) (n : Fin 98304) :
    concatenate S98304x4 1 [⟨S98304x1, x0⟩, ⟨S98304x1, x1⟩, ⟨S98304x1, x2⟩, ⟨S98304x1, x3⟩]
      concatenates_S98304x1_S98304x1_S98304x1_S98304x1_S98304x4_d1 (ix2 n (3 : Fin 4)) = x3 (ix2 n (0 : Fin 1)) := by
  refine concatenate_apply_piece (t := S98304x4) (1 : Fin 2) _ _ (ix2 n (3 : Fin 4)) 3 (by show (3 : ℕ) < 4; omega) S98304x1 x3 rfl rfl 3 rfl
    (ix2 n (0 : Fin 1)) (fun b hb => ?_) rfl
  match b, hb with
  | ⟨0, _⟩, _ => rfl
  | ⟨1, _⟩, hb => exact absurd rfl hb

/-- Four rows [1, C] laid one under the other into [4, C]: row k of the result is the k-th piece. -/
theorem rows4_apply0 (x0 x1 x2 x3 : S1x64.Idx → α) (h : Fin 64) :
    concatenate S4x64 0 [⟨S1x64, x0⟩, ⟨S1x64, x1⟩, ⟨S1x64, x2⟩, ⟨S1x64, x3⟩]
      concatenates_S1x64_S1x64_S1x64_S1x64_S4x64_d0 (ix2 (0 : Fin 4) h) = x0 (ix2 (0 : Fin 1) h) := by
  refine concatenate_apply_piece (t := S4x64) (0 : Fin 2) _ _ (ix2 (0 : Fin 4) h) 0 (by show (0 : ℕ) < 4; omega) S1x64 x0 rfl rfl 0 rfl
    (ix2 (0 : Fin 1) h) (fun b hb => ?_) rfl
  match b, hb with
  | ⟨0, _⟩, hb => exact absurd rfl hb
  | ⟨1, _⟩, _ => rfl
theorem rows4_apply1 (x0 x1 x2 x3 : S1x64.Idx → α) (h : Fin 64) :
    concatenate S4x64 0 [⟨S1x64, x0⟩, ⟨S1x64, x1⟩, ⟨S1x64, x2⟩, ⟨S1x64, x3⟩]
      concatenates_S1x64_S1x64_S1x64_S1x64_S4x64_d0 (ix2 (1 : Fin 4) h) = x1 (ix2 (0 : Fin 1) h) := by
  refine concatenate_apply_piece (t := S4x64) (0 : Fin 2) _ _ (ix2 (1 : Fin 4) h) 1 (by show (1 : ℕ) < 4; omega) S1x64 x1 rfl rfl 1 rfl
    (ix2 (0 : Fin 1) h) (fun b hb => ?_) rfl
  match b, hb with
  | ⟨0, _⟩, hb => exact absurd rfl hb
  | ⟨1, _⟩, _ => rfl
theorem rows4_apply2 (x0 x1 x2 x3 : S1x64.Idx → α) (h : Fin 64) :
    concatenate S4x64 0 [⟨S1x64, x0⟩, ⟨S1x64, x1⟩, ⟨S1x64, x2⟩, ⟨S1x64, x3⟩]
      concatenates_S1x64_S1x64_S1x64_S1x64_S4x64_d0 (ix2 (2 : Fin 4) h) = x2 (ix2 (0 : Fin 1) h) := by
  refine concatenate_apply_piece (t := S4x64) (0 : Fin 2) _ _ (ix2 (2 : Fin 4) h) 2 (by show (2 : ℕ) < 4; omega) S1x64 x2 rfl rfl 2 rfl
    (ix2 (0 : Fin 1) h) (fun b hb => ?_) rfl
  match b, hb with
  | ⟨0, _⟩, hb => exact absurd rfl hb
  | ⟨1, _⟩, _ => rfl
theorem rows4_apply3 (x0 x1 x2 x3 : S1x64.Idx → α) (h : Fin 64) :
    concatenate S4x64 0 [⟨S1x64, x0⟩, ⟨S1x64, x1⟩, ⟨S1x64, x2⟩, ⟨S1x64, x3⟩]
      concatenates_S1x64_S1x64_S1x64_S1x64_S4x64_d0 (ix2 (3 : Fin 4) h) = x3 (ix2 (0 : Fin 1) h) := by
  refine concatenate_apply_piece (t := S4x64) (0 : Fin 2) _ _ (ix2 (3 : Fin 4) h) 3 (by show (3 : ℕ) < 4; omega) S1x64 x3 rfl rfl 3 rfl
    (ix2 (0 : Fin 1) h) (fun b hb => ?_) rfl
  match b, hb with
  | ⟨0, _⟩, hb => exact absurd rfl hb
  | ⟨1, _⟩, _ => rfl

/-- A weight column [C, 1] transposed to the row [1, C]. -/
theorem weightRow_apply (x : S64x1.Idx → α) (h : Fin 64) :
    transpose S1x64 [1, 0] x transposes_S64x1_S1x64_1_0 (ix2 (0 : Fin 1) h) = x (ix2 h (0 : Fin 1)) := by
  refine transpose_apply _ x transposes_S64x1_S1x64_1_0 (ix2 (0 : Fin 1) h) (ix2 h (0 : Fin 1)) fun b => ?_
  match b with
  | ⟨0, _⟩ => rfl
  | ⟨1, _⟩ => rfl

/-- A vector [N] set as the column [N, 1]. -/
theorem nodeColumn_apply (v : S98304.Idx → α) (n : Fin 98304) :
    broadcastInDim S98304x1 ![0] bcast_S98304_S98304x1_0 v (ix2 n (0 : Fin 1)) = v (ix1 n) := by
  refine broadcastInDim_apply _ bcast_S98304_S98304x1_0 v (ix2 n (0 : Fin 1)) (ix1 n) fun a => ?_
  match a with
  | ⟨0, _⟩ => rfl

/-- A matrix [N, C] given a last unit axis. -/
theorem lastUnit_apply (x : S98304x64.Idx → α) (n : Fin 98304) (h : Fin 64) :
    broadcastInDim S98304x64x1 ![0, 1] bcast_S98304x64_S98304x64x1_0_1 x (ix3 n h (0 : Fin 1)) = x (ix2 n h) := by
  refine broadcastInDim_apply _ bcast_S98304x64_S98304x64x1_0_1 x (ix3 n h (0 : Fin 1)) (ix2 n h) fun a => ?_
  match a with
  | ⟨0, _⟩ => rfl
  | ⟨1, _⟩ => rfl

/-- Two [N, C, 1] arrays stacked on the last axis into [N, C, 2]: the first … -/
theorem stack2_apply0 (x0 x1 : S98304x64x1.Idx → α) (n : Fin 98304) (h : Fin 64) :
    concatenate S98304x64x2 2 [⟨S98304x64x1, x0⟩, ⟨S98304x64x1, x1⟩] concatenates_S98304x64x1_S98304x64x1_S98304x64x2_d2
      (ix3 n h (0 : Fin 2)) = x0 (ix3 n h (0 : Fin 1)) := by
  refine concatenate_pair_apply_left (t := S98304x64x2) (s₁ := S98304x64x1) (s₂ := S98304x64x1) (2 : Fin 3) x0 x1
    concatenates_S98304x64x1_S98304x64x1_S98304x64x2_d2 (ix3 n h (0 : Fin 2)) rfl (ix3 n h (0 : Fin 1)) fun b => ?_
  match b with
  | ⟨0, _⟩ => rfl
  | ⟨1, _⟩ => rfl
  | ⟨2, _⟩ => rfl
/-- … and the second. -/
theorem stack2_apply1 (x0 x1 : S98304x64x1.Idx → α) (n : Fin 98304) (h : Fin 64) :
    concatenate S98304x64x2 2 [⟨S98304x64x1, x0⟩, ⟨S98304x64x1, x1⟩] concatenates_S98304x64x1_S98304x64x1_S98304x64x2_d2
      (ix3 n h (1 : Fin 2)) = x1 (ix3 n h (0 : Fin 1)) := by
  refine concatenate_pair_apply_right (t := S98304x64x2) (s₁ := S98304x64x1) (s₂ := S98304x64x1) (2 : Fin 3) x0 x1
    concatenates_S98304x64x1_S98304x64x1_S98304x64x2_d2 (ix3 n h (1 : Fin 2)) rfl rfl (ix3 n h (0 : Fin 1)) (fun b hb => ?_) rfl
  match b, hb with
  | ⟨0, _⟩, _ => rfl
  | ⟨1, _⟩, _ => rfl
  | ⟨2, _⟩, hb => exact absurd rfl hb

end Layout

/-! ## The second and third host stretches: the scattered sums, the stacked weights, the stacked result -/

/-- An [E] array scatter-added into a zero [N] accumulator at the target words, set as a column [N, 1]. -/
def sumColumn (dst : IVec S1572864 32) (u : FVec Ideal S1572864 .f32) : FVec Ideal S98304x1 .f32 :=
  broadcastInDim S98304x1 ![0] bcast_S98304_S98304x1_0
    (Host.scatterAdd scatter_S98304_S1572864x1_S1572864_n_0_0_1
      (broadcastInDim S98304 ![] bcast_S_S98304 (constant (F := Ideal) S_ .f32 0x00000000#32))
      (broadcastInDim S1572864x1 ![0] bcast_S1572864_S1572864x1_0 dst) u)

/-- THE SCATTERED SUM AT ROW n: the sum of the updates of the edges that land in row n. -/
theorem sumColumn_apply (ei : IVec S2x1572864 32) (u : FVec Ideal S1572864 .f32) (n : Fin 98304) :
    sumColumn (dstVec ei) u (ix2 n (0 : Fin 1)) = ∑ e ∈ Finset.univ.filter (fun e => lands ei e n), u (ix1 e) := by
  unfold sumColumn
  rw [nodeColumn_apply, edgeScatterAdd_apply]
  have hz : (broadcastInDim S98304 ![] bcast_S_S98304 (constant (F := Ideal) S_ .f32 0x00000000#32)) (ix1 n) = 0 :=
    Ideal.ofBits_zero_f32
  rw [hz, zero_add]
  refine Finset.sum_congr (Finset.filter_congr fun e _ => ?_) fun _ _ => rfl
  rw [show broadcastInDim S1572864x1 ![0] bcast_S1572864_S1572864x1_0 (dstVec ei) (ix2 e (0 : Fin 1)) = dstVec ei (ix1 e)
    from asColumn_apply (dstVec ei) e, dstVec_apply]
  exact Iff.rfl

/-- Four columns side by side, column by column. -/
theorem cols4_congr {α : Type} {x0 y0 x1 y1 x2 y2 x3 y3 : S98304x1.Idx → α}
    (e0 : x0 = y0) (e1 : x1 = y1) (e2 : x2 = y2) (e3 : x3 = y3) :
    concatenate S98304x4 1 [⟨S98304x1, x0⟩, ⟨S98304x1, x1⟩, ⟨S98304x1, x2⟩, ⟨S98304x1, x3⟩]
        concatenates_S98304x1_S98304x1_S98304x1_S98304x1_S98304x4_d1
      = concatenate S98304x4 1 [⟨S98304x1, y0⟩, ⟨S98304x1, y1⟩, ⟨S98304x1, y2⟩, ⟨S98304x1, y3⟩]
        concatenates_S98304x1_S98304x1_S98304x1_S98304x1_S98304x4_d1 := by
  rw [e0, e1, e2, e3]

/-- Four rows one under the other, row by row. -/
theorem rows4_congr {α : Type} {x0 y0 x1 y1 x2 y2 x3 y3 : S1x64.Idx → α}
    (e0 : x0 = y0) (e1 : x1 = y1) (e2 : x2 = y2) (e3 : x3 = y3) :
    concatenate S4x64 0 [⟨S1x64, x0⟩, ⟨S1x64, x1⟩, ⟨S1x64, x2⟩, ⟨S1x64, x3⟩]
        concatenates_S1x64_S1x64_S1x64_S1x64_S4x64_d0
      = concatenate S4x64 0 [⟨S1x64, y0⟩, ⟨S1x64, y1⟩, ⟨S1x64, y2⟩, ⟨S1x64, y3⟩]
        concatenates_S1x64_S1x64_S1x64_S1x64_S4x64_d0 := by
  rw [e0, e1, e2, e3]

section V3V5

variable (m : (ℓ : Loc nD τ sig) → Buf (Elt Ideal) ℓ) (outs : Outs (F := Ideal)) (c : Dev nD)

set_option quotPrecheck false in
local notation "A2" => (m ((c : Thread nD τ).loc main_arg2) : IVec S2x1572864 32)

/-- What the first region leaves in its four output arrays: the unknowns. -/
theorem V2_v42_0 : V2 m outs c main_v42_0 = outs 2 main_v42_0 c := by
  simp only [V2,
    Function.update_of_ne (StableHlo.devRef_ne_of_ne (by decide) : (Proc.devRef .tc main_v42_0 : DevRef τ sig) ≠ Proc.devRef .tc main_v42_3),
    Function.update_of_ne (StableHlo.devRef_ne_of_ne (by decide) : (Proc.devRef .tc main_v42_0 : DevRef τ sig) ≠ Proc.devRef .tc main_v42_2),
    Function.update_of_ne (StableHlo.devRef_ne_of_ne (by decide) : (Proc.devRef .tc main_v42_0 : DevRef τ sig) ≠ Proc.devRef .tc main_v42_1),
    Function.update_self]
theorem V2_v42_1 : V2 m outs c main_v42_1 = outs 2 main_v42_1 c := by
  simp only [V2,
    Function.update_of_ne (StableHlo.devRef_ne_of_ne (by decide) : (Proc.devRef .tc main_v42_1 : DevRef τ sig) ≠ Proc.devRef .tc main_v42_3),
    Function.update_of_ne (StableHlo.devRef_ne_of_ne (by decide) : (Proc.devRef .tc main_v42_1 : DevRef τ sig) ≠ Proc.devRef .tc main_v42_2),
    Function.update_self]
theorem V2_v42_2 : V2 m outs c main_v42_2 = outs 2 main_v42_2 c := by
  simp only [V2,
    Function.update_of_ne (StableHlo.devRef_ne_of_ne (by decide) : (Proc.devRef .tc main_v42_2 : DevRef τ sig) ≠ Proc.devRef .tc main_v42_3),
    Function.update_self]
theorem V2_v42_3 : V2 m outs c main_v42_3 = outs 2 main_v42_3 c := by
  simp only [V2, Function.update_self]

/-- What the second region leaves in its two output arrays: the unknowns. -/
theorem V4_v65_0 : V4 m outs c main_v65_0 = outs 4 main_v65_0 c := by
  simp only [V4,
    Function.update_of_ne (StableHlo.devRef_ne_of_ne (by decide) : (Proc.devRef .tc main_v65_0 : DevRef τ sig) ≠ Proc.devRef .tc main_v65_1),
    Function.update_self]
theorem V4_v65_1 : V4 m outs c main_v65_1 = outs 4 main_v65_1 c := by
  simp only [V4, Function.update_self]

/-- The target words as the second stretch finds them: row 1 of the edge list. -/
theorem V2_v3_eq : (V2 m outs c main_v3 : S1572864.Idx → BitVec 32) = dstVec A2 := by
  rw [V2_of m outs c main_v3 (by decide)]
  dsimp only [Gen.V1, Gen.hostOps0]
  after_results_simp
  rfl

set_option maxHeartbeats 1000000 in
theorem V3_v59_eq : (V3 m outs c main_v59 : S98304x4.Idx → EReal)
    = concatenate S98304x4 1
        [⟨S98304x1, sumColumn (V2 m outs c main_v3) (V2 m outs c main_v42_0)⟩,
         ⟨S98304x1, sumColumn (V2 m outs c main_v3) (V2 m outs c main_v42_1)⟩,
         ⟨S98304x1, sumColumn (V2 m outs c main_v3) (V2 m outs c main_v42_2)⟩,
         ⟨S98304x1, sumColumn (V2 m outs c main_v3) (V2 m outs c main_v42_3)⟩]
        concatenates_S98304x1_S98304x1_S98304x1_S98304x1_S98304x4_d1 := by
  dsimp only [Gen.V3, Gen.hostOps1]
  after_results_simp
  dsimp only [Matrix.cons_val]
  refine cols4_congr ?_ ?_ ?_ ?_ <;> (after_results_simp; rfl)

/-- THE FIRST REGION'S FOUR ARRAYS SCATTERED: entry (n, j) of the [N, 4] array the second region reads is the sum of
    the j-th array over the edges that land in row n. -/
theorem V3_v59_apply0 (n : Fin 98304) :
    (V3 m outs c main_v59 : S98304x4.Idx → EReal) (ix2 n (0 : Fin 4))
      = (∑ e ∈ Finset.univ.filter (fun e => lands A2 e n), (outs 2 main_v42_0 c : S1572864.Idx → EReal) (ix1 e) : EReal) := by
  rw [V3_v59_eq, cols4_apply0, V2_v3_eq, V2_v42_0, sumColumn_apply]
theorem V3_v59_apply1 (n : Fin 98304) :
    (V3 m outs c main_v59 : S98304x4.Idx → EReal) (ix2 n (1 : Fin 4))
      = (∑ e ∈ Finset.univ.filter (fun e => lands A2 e n), (outs 2 main_v42_1 c : S1572864.Idx → EReal) (ix1 e) : EReal) := by
  rw [V3_v59_eq, cols4_apply1, V2_v3_eq, V2_v42_1, sumColumn_apply]
theorem V3_v59_apply2 (n : Fin 98304) :
    (V3 m outs c main_v59 : S98304x4.Idx → EReal) (ix2 n (2 : Fin 4))
      = (∑ e ∈ Finset.univ.filter (fun e => lands A2 e n), (outs 2 main_v42_2 c : S1572864.Idx → EReal) (ix1 e) : EReal) := by
  rw [V3_v59_eq, cols4_apply2, V2_v3_eq, V2_v42_2, sumColumn_apply]
theorem V3_v59_apply3 (n : Fin 98304) :
    (V3 m outs c main_v59 : S98304x4.Idx → EReal) (ix2 n (3 : Fin 4))
      = (∑ e ∈ Finset.univ.filter (fun e => lands A2 e n), (outs 2 main_v42_3 c : S1572864.Idx → EReal) (ix1 e) : EReal) := by
  rw [V3_v59_eq, cols4_apply3, V2_v3_eq, V2_v42_3, sumColumn_apply]

set_option maxHeartbeats 1000000 in
theorem V3_v64_eq : (V3 m outs c main_v64 : S4x64.Idx → EReal)
    = concatenate S4x64 0
        [⟨S1x64, transpose S1x64 [1, 0] (V2 m outs c main_arg5) transposes_S64x1_S1x64_1_0⟩,
         ⟨S1x64, transpose S1x64 [1, 0] (V2 m outs c main_arg6) transposes_S64x1_S1x64_1_0⟩,
         ⟨S1x64, transpose S1x64 [1, 0] (V2 m outs c main_arg7) transposes_S64x1_S1x64_1_0⟩,
         ⟨S1x64, transpose S1x64 [1, 0] (V2 m outs c main_arg8) transposes_S64x1_S1x64_1_0⟩]
        concatenates_S1x64_S1x64_S1x64_S1x64_S4x64_d0 := by
  dsimp only [Gen.V3, Gen.hostOps1]
  after_results_simp
  dsimp only [Matrix.cons_val]
  refine rows4_congr ?_ ?_ ?_ ?_ <;> after_results_simp

theorem V2_arg5 : V2 m outs c main_arg5 = m ((c : Thread nD τ).loc main_arg5) :=
  (V2_of m outs c main_arg5 (by decide)).trans ((V1_of m c main_arg5 (by decide)).trans rfl)
theorem V2_arg6 : V2 m outs c main_arg6 = m ((c : Thread nD τ).loc main_arg6) :=
  (V2_of m outs c main_arg6 (by decide)).trans ((V1_of m c main_arg6 (by decide)).trans rfl)
theorem V2_arg7 : V2 m outs c main_arg7 = m ((c : Thread nD τ).loc main_arg7) :=
  (V2_of m outs c main_arg7 (by decide)).trans ((V1_of m c main_arg7 (by decide)).trans rfl)
theorem V2_arg8 : V2 m outs c main_arg8 = m ((c : Thread nD τ).loc main_arg8) :=
  (V2_of m outs c main_arg8 (by decide)).trans ((V1_of m c main_arg8 (by decide)).trans rfl)

/-- THE FOUR WEIGHT COLUMNS STACKED AS ROWS: row j of the [4, C] array the second region reads is the j-th weight
    argument. -/
theorem V3_v64_apply0 (h : Fin 64) :
    (V3 m outs c main_v64 : S4x64.Idx → EReal) (ix2 (0 : Fin 4) h)
      = (m ((c : Thread nD τ).loc main_arg5) : S64x1.Idx → EReal) (ix2 h (0 : Fin 1)) := by
  rw [V3_v64_eq, rows4_apply0, weightRow_apply, V2_arg5]
theorem V3_v64_apply1 (h : Fin 64) :
    (V3 m outs c main_v64 : S4x64.Idx → EReal) (ix2 (1 : Fin 4) h)
      = (m ((c : Thread nD τ).loc main_arg6) : S64x1.Idx → EReal) (ix2 h (0 : Fin 1)) := by
  rw [V3_v64_eq, rows4_apply1, weightRow_apply, V2_arg6]
theorem V3_v64_apply2 (h : Fin 64) :
    (V3 m outs c main_v64 : S4x64.Idx → EReal) (ix2 (2 : Fin 4) h)
      = (m ((c : Thread nD τ).loc main_arg7) : S64x1.Idx → EReal) (ix2 h (0 : Fin 1)) := by
  rw [V3_v64_eq, rows4_apply2, weightRow_apply, V2_arg7]
theorem V3_v64_apply3 (h : Fin 64) :
    (V3 m outs c main_v64 : S4x64.Idx → EReal) (ix2 (3 : Fin 4) h)
      = (m ((c : Thread nD τ).loc main_arg8) : S64x1.Idx → EReal) (ix2 h (0 : Fin 1)) := by
  rw [V3_v64_eq, rows4_apply3, weightRow_apply, V2_arg8]

theorem V5_v68_eq : (V5 m outs c main_v68 : S98304x64x2.Idx → EReal)
    = concatenate S98304x64x2 2
        [⟨S98304x64x1, broadcastInDim S98304x64x1 ![0, 1] bcast_S98304x64_S98304x64x1_0_1 (V4 m outs c main_v65_0)⟩,
         ⟨S98304x64x1, broadcastInDim S98304x64x1 ![0, 1] bcast_S98304x64_S98304x64x1_0_1 (V4 m outs c main_v65_1)⟩]
        concatenates_S98304x64x1_S98304x64x1_S98304x64x2_d2 := by
  dsimp only [Gen.V5, Gen.hostOps2]
  after_results

/-- THE RESULT: the second region's two arrays stacked on a last axis of extent 2. -/
theorem V5_v68_apply0 (n : Fin 98304) (h : Fin 64) :
    (V5 m outs c main_v68 : S98304x64x2.Idx → EReal) (ix3 n h (0 : Fin 2))
      = (outs 4 main_v65_0 c : S98304x64.Idx → EReal) (ix2 n h) := by
  rw [V5_v68_eq, stack2_apply0, lastUnit_apply, V4_v65_0]
theorem V5_v68_apply1 (n : Fin 98304) (h : Fin 64) :
    (V5 m outs c main_v68 : S98304x64x2.Idx → EReal) (ix3 n h (1 : Fin 2))
      = (outs 4 main_v65_1 c : S98304x64.Idx → EReal) (ix2 n h) := by
  rw [V5_v68_eq, stack2_apply1, lastUnit_apply, V4_v65_1]

end V3V5

end Cert.HostAtIndex
end
-- ==== Proof.LibRowScatterAdd.lean ====
/-
  A row scatter-add read at an index, over the extended reals.

  A ROW SCATTER-ADD adds, for each edge e, row e of an [E, C] array of updates into the row of an [N, C] accumulator
  named by e's signed index word; an edge whose word names no row is dropped.

  WHERE AN UPDATE LANDS (`rowScatter_resultIdx_iff`). Update (e, c') lands on element (n, c) if and only if the index
  word of e, read signed, is n and c' = c: the row comes from the word alone, the column passes through unchanged.

  THE SUM (`rowScatterAdd_apply`). Hence the scatter-add at (n, c) is the accumulator there plus the sum, over the
  edges whose word is n, of the update at (e, c):

      out(n, c) = acc(n, c) + Σ_{e : word(e) = n} upd(e, c).

  The updates that land on (n, c) are indexed by pairs (e, c') with c' = c; sending e to (e, c) is a bijection from
  the edges whose word is n onto them, and the sum is re-indexed along it. No entry needs to be finite.

  Two facts about words used beside it: the f32 word 0x3F800000 is the number 1, and a select on the bit of an
  equality test of two words is the `if` on their equality.
-/
import Idealize.ShloMosaic.Lib.ValueIdx
import Idealize.ShloMosaic.PureOps.Ideal.Laws
import proofs.«140219_j61804579389717_1_alg».proof.Proof.LibGraphConv

noncomputable section

namespace Cert.RowScatterAdd

open Idealize.ShloMosaic Idealize.ShloMosaic.ValueIdx Cert.GraphConv

/-! ## Two small facts about words: the unit literal, and a select on an equality test -/

/-- The f32 word 0x3F800000 is the extended real 1. -/
theorem ofBits_one_f32 : Ideal.ofBits .f32 0x3F800000#32 = 1 := by
  simp [Ideal.ofBits, Ideal.ieee]
  rw [← EReal.coe_mul]
  norm_num

/-- A select on the bit of an equality test is the `if` on the equality. -/
theorem select_cmpi_eq {α : Type} (a b : BitVec 32) (u v : α) :
    Scalar.select (IntOp.cmpi .eq a b) u v = if a = b then u else v := by
  by_cases h : a = b
  · have hc : IntOp.cmpi .eq a b = 1#1 := by simp [IntOp.cmpi, h]
    rw [hc, select_one, if_pos h]
  · have hc : IntOp.cmpi .eq a b = 0#1 := by
      show BitVec.ofBool (a == b) = 0#1
      rw [beq_eq_false_iff_ne.mpr h]
      rfl
    rw [hc, select_zero, if_neg h]

/-! ## The row scatter-add -/

section Scatter
variable {N E C w : ℕ}
/-- WHERE A ROW SCATTER LANDS, both ways: update (e, c') lands on element (n, c) exactly when edge e's index word, read
    signed, is n and the columns agree. -/
theorem rowScatter_resultIdx_iff (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatter N E C wf).resultIdx? (ix2 e c') idx = some (ix2 n c)
      ↔ (idx (ix2 e (0 : Fin 1))).toInt = (n.val : Int) ∧ c' = c := by
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hstart0 : (rowScatter N E C wf).start (ix2 e c') idx 0 = (idx (ix2 e (0 : Fin 1))).toInt := by
    unfold ScatterDims.start
    rw [dif_pos (show (0 : Fin 2) ∈ (rowScatter N E C wf).scatterDimsToOperandDims from List.mem_singleton.mpr rfl), hsi]
  have hstart1 : (rowScatter N E C wf).start (ix2 e c') idx 1 = 0 := by
    unfold ScatterDims.start
    rw [dif_neg (show ¬ (1 : Fin 2) ∈ (rowScatter N E C wf).scatterDimsToOperandDims from
      fun h => absurd (congrArg Fin.val (List.mem_singleton.mp h)) Nat.one_ne_zero)]
  have hwin0 : (rowScatter N E C wf).window (ix2 e c') 0 = 0 := by
    unfold ScatterDims.window
    rw [dif_neg (show ¬ (0 : Fin 2) ∈ (rowScatter N E C wf).sKept from by
      simp [ScatterDims.sKept, Shape.kept, List.mem_filter])]
  have hwin1 : (rowScatter N E C wf).window (ix2 e c') 1 = c'.val := by
    unfold ScatterDims.window
    rw [dif_pos (show (1 : Fin 2) ∈ (rowScatter N E C wf).sKept from by
      simp [ScatterDims.sKept, Shape.kept, List.mem_filter])]
    rfl
  constructor
  · intro h
    refine ⟨rowScatter_lands wf idx e c' (ix2 n c) h, ?_⟩
    unfold ScatterDims.resultIdx? at h
    split at h
    · rename_i hin
      have hi : (fun a => (⟨((rowScatter N E C wf).start (ix2 e c') idx a + (rowScatter N E C wf).window (ix2 e c') a).toNat,
          by have := hin a; omega⟩ : Fin ((⟨2, ![N, C]⟩ : Shape).size a))) = ix2 n c := Option.some.inj h
      have hv : ((rowScatter N E C wf).start (ix2 e c') idx 1 + (rowScatter N E C wf).window (ix2 e c') 1).toNat = c.val := by
        have := congrArg (fun f => (f 1).val) hi
        exact this
      rw [hstart1, hwin1] at hv
      exact Fin.ext (by omega)
    · exact absurd h (by simp)
  · rintro ⟨hl, rfl⟩
    have hin : ∀ a, 0 ≤ (rowScatter N E C wf).start (ix2 e c') idx a + (rowScatter N E C wf).window (ix2 e c') a
        ∧ (rowScatter N E C wf).start (ix2 e c') idx a + (rowScatter N E C wf).window (ix2 e c') a < (⟨2, ![N, C]⟩ : Shape).size a := by
      intro a
      match a with
      | ⟨0, _⟩ =>
        show 0 ≤ (rowScatter N E C wf).start (ix2 e c') idx 0 + (rowScatter N E C wf).window (ix2 e c') 0
          ∧ (rowScatter N E C wf).start (ix2 e c') idx 0 + (rowScatter N E C wf).window (ix2 e c') 0 < (N : Int)
        rw [hstart0, hwin0, hl]
        have := n.isLt
        omega
      | ⟨1, _⟩ =>
        show 0 ≤ (rowScatter N E C wf).start (ix2 e c') idx 1 + (rowScatter N E C wf).window (ix2 e c') 1
          ∧ (rowScatter N E C wf).start (ix2 e c') idx 1 + (rowScatter N E C wf).window (ix2 e c') 1 < (C : Int)
        rw [hstart1, hwin1]
        have := c'.isLt
        omega
    unfold ScatterDims.resultIdx?
    rw [dif_pos hin]
    congr 1
    funext a
    refine Fin.ext ?_
    match a with
    | ⟨0, _⟩ =>
      show ((rowScatter N E C wf).start (ix2 e c') idx 0 + (rowScatter N E C wf).window (ix2 e c') 0).toNat = n.val
      rw [hstart0, hwin0, hl]
      omega
    | ⟨1, _⟩ =>
      show ((rowScatter N E C wf).start (ix2 e c') idx 1 + (rowScatter N E C wf).window (ix2 e c') 1).toNat = c'.val
      rw [hstart1, hwin1]
      omega

/-- A ROW SCATTER-ADD READ AT (n, c): the accumulator there plus the sum, over the edges whose index word read
    signed is n (a set given by any predicate `P` that says so), of the update at (e, c). -/
theorem rowScatterAdd_apply (wf : ScatterDims.WF ⟨2, ![N, C]⟩ ⟨2, ![E, 1]⟩ ⟨2, ![E, C]⟩ [1] [0] [0] 1)
    (Z : FVec Ideal ⟨2, ![N, C]⟩ .f32) (idx : IVec ⟨2, ![E, 1]⟩ w) (upd : FVec Ideal ⟨2, ![E, C]⟩ .f32)
    (n : Fin N) (c : Fin C) (P : Fin E → Prop) [DecidablePred P]
    (hP : ∀ e, P e ↔ (idx (ix2 e (0 : Fin 1))).toInt = (n.val : Int)) :
    Host.scatterAdd (rowScatter N E C wf) Z idx upd (ix2 n c)
      = Z (ix2 n c) + ∑ e ∈ Finset.univ.filter P, upd (ix2 e c) := by
  show Z (ix2 n c) + ∑ j ∈ Finset.univ.filter (fun j => (rowScatter N E C wf).resultIdx? j idx = some (ix2 n c)), upd j = _
  congr 1
  symm
  refine Finset.sum_nbij' (fun e => ix2 e c) (fun j => j 0) ?_ ?_ ?_ ?_ ?_
  · intro e he
    exact Finset.mem_filter.mpr ⟨Finset.mem_univ _,
      (rowScatter_resultIdx_iff wf idx e c n c).mpr ⟨(hP e).mp (Finset.mem_filter.mp he).2, rfl⟩⟩
  · intro j hj
    have h2 := (Finset.mem_filter.mp hj).2
    rw [eq_ix2 j] at h2
    exact Finset.mem_filter.mpr ⟨Finset.mem_univ _,
      (hP (j 0)).mpr ((rowScatter_resultIdx_iff wf idx (j 0) (j 1) n c).mp h2).1⟩
  · intro e _; rfl
  · intro j hj
    have h2 := (Finset.mem_filter.mp hj).2
    rw [eq_ix2 j] at h2
    have hc := ((rowScatter_resultIdx_iff wf idx (j 0) (j 1) n c).mp h2).2
    show ix2 (j 0) c = j
    rw [← hc]
    exact (eq_ix2 j).symm
  · intro e _; rfl

end Scatter

end Cert.RowScatterAdd

end
-- ==== Proof.RefAtIndex.lean ====
/-
  The reference program read at an index.

  A graph has N = 98304 nodes and E = 1572864 edges; node r carries a complex number x(r) = x0(r) + i·x1(r), edge e a
  real weight x3(e), a source row src(e) and a target word; node r belongs to the community x4(r). Edge e is SAME when
  the communities of its source row and of its target row agree. The reference computes two message-passing layers,
  a LOCAL one over the same-community edges with the complex weight column x5 + i·x6 and a GLOBAL one over the other
  edges with x7 + i·x8. For a layer with weight column Wr + i·Wi and edge weights w(e), output channel c:

      Ar(n, c) = Σ_{e lands in n} w(e) · ( x0(src e) · Wr(c) − x1(src e) · Wi(c) )
      Ai(n, c) = Σ_{e lands in n} w(e) · ( x0(src e) · Wi(c) + x1(src e) · Wr(c) )

  where w(e) = x3(e) on the layer's edges and 0 on the others (so every edge that lands appears in every sum), and
  "e lands in n" says that e's raw target word, read signed, is n. With silu(t) = t · (1 / (1 + exp(−t))) the result
  is, at (n, c, 0), silu(Ar_local) + silu(Ar_global) and, at (n, c, 1), silu(Ai_local) + silu(Ai_global).

  This module proves exactly that of the program's last value, for all argument arrays: every operation is read at
  an index, the one-term contractions are collapsed to products, a row gather reads the clamped wrapped source row,
  a row scatter-add is the sum over the edges that land, and the last concatenation picks the real or the imaginary
  sheet by its last coordinate. Nothing here needs the entries to be finite.
-/
import proofs.«140219_j61804579389717_1_alg».proof.Proof.Gen.ReferenceIdeal.Read
import proofs.«140219_j61804579389717_1_alg».proof.Proof.EdgeWords
import proofs.«140219_j61804579389717_1_alg».proof.Proof.LibRowScatterAdd

noncomputable section

namespace Cert.RefAtIndex

open Idealize.ShloMosaic Idealize.ShloMosaic.ValueIdx Cert.ReferenceIdeal Cert.ReferenceIdeal.Gen
  Cert.ReferenceIdeal.Read Cert.EdgeWords Cert.GraphConv Cert.RowScatterAdd

/-- A column of node features, [N, 1]. -/
abbrev NodeCol : Type := (⟨S98304x1, .f32⟩ : BufTy).Contents (Elt Ideal)
/-- The edge list, [2, E] signed words. -/
abbrev EdgeList : Type := (⟨S2x1572864, .i32⟩ : BufTy).Contents (Elt Ideal)
/-- The edge weights, [E]. -/
abbrev EdgeWeights : Type := (⟨S1572864, .f32⟩ : BufTy).Contents (Elt Ideal)
/-- The community of each node, [N] words. -/
abbrev Communities : Type := (⟨S98304, .i32⟩ : BufTy).Contents (Elt Ideal)
/-- A column of layer weights, [64, 1]. -/
abbrev WeightCol : Type := (⟨S64x1, .f32⟩ : BufTy).Contents (Elt Ideal)

/-- Two rank-1 indices with the same coordinate are equal. -/
local macro "idx1" : tactic => `(tactic| (funext a; match a with | ⟨0, _⟩ => rfl))
/-- Two rank-2 indices with the same coordinates are equal. -/
local macro "idx2" : tactic => `(tactic| (funext a; match a with | ⟨0, _⟩ => rfl | ⟨1, _⟩ => rfl))

/-! ## What the reference computes -/

/-- Edge e is SAME: the community of its source row is the community of its target row (both rows as a gather
    reads them: the wrapped word clamped into the table). -/
def same (x2 : EdgeList) (x4 : Communities) (e : Fin 1572864) : Prop :=
  (x4 (ix1 (srcRow x2 e)) : BitVec 32) = x4 (ix1 (dstRow x2 e))

instance (x2 : EdgeList) (x4 : Communities) (e : Fin 1572864) : Decidable (same x2 x4 e) :=
  inferInstanceAs (Decidable ((x4 (ix1 (srcRow x2 e)) : BitVec 32) = x4 (ix1 (dstRow x2 e))))

/-- silu(t) = t · (1 / (1 + exp(−t))), every operation the exact one on the extended reals. -/
def silu (t : EReal) : EReal := t * Ideal.div 1 (1 + Ideal.exp (-t))

/-- The LOCAL layer's real pre-activation at (n, c): the same-community edges' weighted messages that land in n. -/
def refArL (x0 x1 : NodeCol) (x2 : EdgeList) (x3 : EdgeWeights) (x4 : Communities) (x5 x6 : WeightCol)
    (n : Fin 98304) (c : Fin 64) : EReal :=
  ∑ e ∈ Finset.univ.filter (fun e : Fin 1572864 => lands x2 e n),
    (if same x2 x4 e then x3 (ix1 e) else 0) * (x0 (ix2 (srcRow x2 e) (0 : Fin 1)) * x5 (ix2 c (0 : Fin 1)) - x1 (ix2 (srcRow x2 e) (0 : Fin 1)) * x6 (ix2 c (0 : Fin 1)))

/-- The LOCAL layer's imaginary pre-activation at (n, c). -/
def refAiL (x0 x1 : NodeCol) (x2 : EdgeList) (x3 : EdgeWeights) (x4 : Communities) (x5 x6 : WeightCol)
    (n : Fin 98304) (c : Fin 64) : EReal :=
  ∑ e ∈ Finset.univ.filter (fun e : Fin 1572864 => lands x2 e n),
    (if same x2 x4 e then x3 (ix1 e) else 0) * (x0 (ix2 (srcRow x2 e) (0 : Fin 1)) * x6 (ix2 c (0 : Fin 1)) + x1 (ix2 (srcRow x2 e) (0 : Fin 1)) * x5 (ix2 c (0 : Fin 1)))

/-- The GLOBAL layer's real pre-activation at (n, c): the other edges' weighted messages that land in n. -/
def refArG (x0 x1 : NodeCol) (x2 : EdgeList) (x3 : EdgeWeights) (x4 : Communities) (x7 x8 : WeightCol)
    (n : Fin 98304) (c : Fin 64) : EReal :=
  ∑ e ∈ Finset.univ.filter (fun e : Fin 1572864 => lands x2 e n),
    (if same x2 x4 e then 0 else x3 (ix1 e)) * (x0 (ix2 (srcRow x2 e) (0 : Fin 1)) * x7 (ix2 c (0 : Fin 1)) - x1 (ix2 (srcRow x2 e) (0 : Fin 1)) * x8 (ix2 c (0 : Fin 1)))

/-- The GLOBAL layer's imaginary pre-activation at (n, c). -/
def refAiG (x0 x1 : NodeCol) (x2 : EdgeList) (x3 : EdgeWeights) (x4 : Communities) (x7 x8 : WeightCol)
    (n : Fin 98304) (c : Fin 64) : EReal :=
  ∑ e ∈ Finset.univ.filter (fun e : Fin 1572864 => lands x2 e n),
    (if same x2 x4 e then 0 else x3 (ix1 e)) * (x0 (ix2 (srcRow x2 e) (0 : Fin 1)) * x8 (ix2 c (0 : Fin 1)) + x1 (ix2 (srcRow x2 e) (0 : Fin 1)) * x7 (ix2 c (0 : Fin 1)))

/-! ## The edge words -/

/-- The sliced and flattened row 0 of the edge list at e is edge e's source word. -/
theorem v1_at (x2 : EdgeList) (e : Fin 1572864) : val_main_v1 (F := Ideal) x2 (ix1 e) = srcW x2 e := by
  rw [val_main_v1_apply, val_main_v0_apply]
  unfold srcW
  congr 1
  funext a
  refine Fin.ext ?_
  match a with
  | ⟨0, _⟩ => rfl
  | ⟨1, _⟩ => exact Nat.mod_eq_of_lt e.isLt

/-- The sliced and flattened row 1 of the edge list at e is edge e's target word. -/
theorem v3_at (x2 : EdgeList) (e : Fin 1572864) : val_main_v3 (F := Ideal) x2 (ix1 e) = dstW x2 e := by
  rw [val_main_v3_apply, val_main_v2_apply]
  unfold dstW
  congr 1
  funext a
  refine Fin.ext ?_
  match a with
  | ⟨0, _⟩ => rfl
  | ⟨1, _⟩ => exact Nat.mod_eq_of_lt e.isLt

/-! Each gather's index column at (e, 0) is the wrapped source (once: target) word. -/

theorem v9_at (x2 : EdgeList) (e : Fin 1572864) :
    val_main_v9 (F := Ideal) x2 (ix2 e (0 : Fin 1)) = wrap (srcW x2 e) := by
  rw [val_main_v9_apply, show idx_main_v9 (ix2 e (0 : Fin 1)) = ix1 e from by idx1,
    val_main_v8_apply, val_main_v5_apply, val_main_v7_apply, val_main_v4_apply, val_main_v6_apply,
    val_main_c_apply, val_main_c_0_apply, v1_at]
  rfl

theorem v16_at (x2 : EdgeList) (e : Fin 1572864) :
    val_main_v16 (F := Ideal) x2 (ix2 e (0 : Fin 1)) = wrap (dstW x2 e) := by
  rw [val_main_v16_apply, show idx_main_v16 (ix2 e (0 : Fin 1)) = ix1 e from by idx1,
    val_main_v15_apply, val_main_v12_apply, val_main_v14_apply, val_main_v11_apply, val_main_v13_apply,
    val_main_c_1_apply, val_main_c_2_apply, v3_at]
  rfl

theorem v37_at (x2 : EdgeList) (e : Fin 1572864) :
    val_main_v37 (F := Ideal) x2 (ix2 e (0 : Fin 1)) = wrap (srcW x2 e) := by
  rw [val_main_v37_apply, show idx_main_v37 (ix2 e (0 : Fin 1)) = ix1 e from by idx1,
    val_main_v36_apply, val_main_v33_apply, val_main_v35_apply, val_main_v32_apply, val_main_v34_apply,
    val_main_c_4_apply, val_main_c_5_apply, v1_at]
  rfl

theorem v47_at (x2 : EdgeList) (e : Fin 1572864) :
    val_main_v47 (F := Ideal) x2 (ix2 e (0 : Fin 1)) = wrap (srcW x2 e) := by
  rw [val_main_v47_apply, show idx_main_v47 (ix2 e (0 : Fin 1)) = ix1 e from by idx1,
    val_main_v46_apply, val_main_v43_apply, val_main_v45_apply, val_main_v42_apply, val_main_v44_apply,
    val_main_c_6_apply, val_main_c_7_apply, v1_at]
  rfl

theorem v75_at (x2 : EdgeList) (e : Fin 1572864) :
    val_main_v75 (F := Ideal) x2 (ix2 e (0 : Fin 1)) = wrap (srcW x2 e) := by
  rw [val_main_v75_apply, show idx_main_v75 (ix2 e (0 : Fin 1)) = ix1 e from by idx1,
    val_main_v74_apply, val_main_v71_apply, val_main_v73_apply, val_main_v70_apply, val_main_v72_apply,
    val_main_c_10_apply, val_main_c_11_apply, v1_at]
  rfl

theorem v85_at (x2 : EdgeList) (e : Fin 1572864) :
    val_main_v85 (F := Ideal) x2 (ix2 e (0 : Fin 1)) = wrap (srcW x2 e) := by
  rw [val_main_v85_apply, show idx_main_v85 (ix2 e (0 : Fin 1)) = ix1 e from by idx1,
    val_main_v84_apply, val_main_v81_apply, val_main_v83_apply, val_main_v80_apply, val_main_v82_apply,
    val_main_c_12_apply, val_main_c_13_apply, v1_at]
  rfl

/-! Each scatter's index column at (e, 0) is the raw target word. -/

theorem v52_at (x2 : EdgeList) (e : Fin 1572864) :
    val_main_v52 (F := Ideal) x2 (ix2 e (0 : Fin 1)) = dstW x2 e := by
  rw [val_main_v52_apply, show idx_main_v52 (ix2 e (0 : Fin 1)) = ix1 e from by idx1, v3_at]

theorem v55_at (x2 : EdgeList) (e : Fin 1572864) :
    val_main_v55 (F := Ideal) x2 (ix2 e (0 : Fin 1)) = dstW x2 e := by
  rw [val_main_v55_apply, show idx_main_v55 (ix2 e (0 : Fin 1)) = ix1 e from by idx1, v3_at]

theorem v90_at (x2 : EdgeList) (e : Fin 1572864) :
    val_main_v90 (F := Ideal) x2 (ix2 e (0 : Fin 1)) = dstW x2 e := by
  rw [val_main_v90_apply, show idx_main_v90 (ix2 e (0 : Fin 1)) = ix1 e from by idx1, v3_at]

theorem v93_at (x2 : EdgeList) (e : Fin 1572864) :
    val_main_v93 (F := Ideal) x2 (ix2 e (0 : Fin 1)) = dstW x2 e := by
  rw [val_main_v93_apply, show idx_main_v93 (ix2 e (0 : Fin 1)) = ix1 e from by idx1, v3_at]

/-! ## The community test and the masked edge weights -/

theorem v10_at (x2 : EdgeList) (x4 : Communities) (e : Fin 1572864) :
    val_main_v10 (F := Ideal) x2 x4 (ix1 e) = x4 (ix1 (srcRow x2 e)) := by
  unfold val_main_v10
  refine (vecGather_apply (N := 98304) (E := 1572864) (by decide) gather_S98304_S1572864x1_S1572864_n_0_n_n_0_1_1_wf x4 (val_main_v9 (F := Ideal) x2) e).trans ?_
  rw [v9_at]
  rfl

theorem v17_at (x2 : EdgeList) (x4 : Communities) (e : Fin 1572864) :
    val_main_v17 (F := Ideal) x2 x4 (ix1 e) = x4 (ix1 (dstRow x2 e)) := by
  unfold val_main_v17
  refine (vecGather_apply (N := 98304) (E := 1572864) (by decide) gather_S98304_S1572864x1_S1572864_n_0_n_n_0_1_1_wf x4 (val_main_v16 (F := Ideal) x2) e).trans ?_
  rw [v16_at]
  rfl

/-- The local layer's edge weight: x3(e) on a same-community edge, 0 on the others. -/
theorem v19_at (x2 : EdgeList) (x3 : EdgeWeights) (x4 : Communities) (e : Fin 1572864) :
    val_main_v19 (F := Ideal) x2 x3 x4 (ix1 e) = if same x2 x4 e then x3 (ix1 e) else 0 := by
  rw [val_main_v19_apply, val_main_v18_apply, v10_at, v17_at, val_main_call0_v1_apply, val_main_call0_v0_apply,
    val_main_cst_apply, select_cmpi_eq, Ideal.ofBits_def, Ideal.ofBits_zero_f32]
  rfl

/-- The global layer's edge weight: 0 on a same-community edge, x3(e) on the others. -/
theorem v20_at (x2 : EdgeList) (x3 : EdgeWeights) (x4 : Communities) (e : Fin 1572864) :
    val_main_v20 (F := Ideal) x2 x3 x4 (ix1 e) = if same x2 x4 e then 0 else x3 (ix1 e) := by
  rw [val_main_v20_apply, val_main_v18_apply, v10_at, v17_at, val_main_call1_v1_apply, val_main_call1_v0_apply,
    val_main_cst_3_apply, select_cmpi_eq, Ideal.ofBits_def, Ideal.ofBits_zero_f32]
  rfl

/-! ## The complex linear layer: each one-term contraction is a product -/

theorem v22_at (x0 : NodeCol) (x5 : WeightCol) (r : Fin 98304) (c : Fin 64) :
    val_main_v22 (F := Ideal) x0 x5 (ix2 r c) = x0 (ix2 r (0 : Fin 1)) * x5 (ix2 c (0 : Fin 1)) := by
  rw [val_main_v22_apply, Fin.sum_univ_one, val_main_v21_apply,
    show lidx_main_v22 (ix2 r c) (0 : Fin 1) = ix2 r (0 : Fin 1) from by idx2,
    show idx_main_v21 (ridx_main_v22 (ix2 r c) (0 : Fin 1)) = ix2 c (0 : Fin 1) from by idx2]

theorem v24_at (x1 : NodeCol) (x6 : WeightCol) (r : Fin 98304) (c : Fin 64) :
    val_main_v24 (F := Ideal) x1 x6 (ix2 r c) = x1 (ix2 r (0 : Fin 1)) * x6 (ix2 c (0 : Fin 1)) := by
  rw [val_main_v24_apply, Fin.sum_univ_one, val_main_v23_apply,
    show lidx_main_v24 (ix2 r c) (0 : Fin 1) = ix2 r (0 : Fin 1) from by idx2,
    show idx_main_v23 (ridx_main_v24 (ix2 r c) (0 : Fin 1)) = ix2 c (0 : Fin 1) from by idx2]

theorem v27_at (x0 : NodeCol) (x6 : WeightCol) (r : Fin 98304) (c : Fin 64) :
    val_main_v27 (F := Ideal) x0 x6 (ix2 r c) = x0 (ix2 r (0 : Fin 1)) * x6 (ix2 c (0 : Fin 1)) := by
  rw [val_main_v27_apply, Fin.sum_univ_one, val_main_v26_apply,
    show lidx_main_v27 (ix2 r c) (0 : Fin 1) = ix2 r (0 : Fin 1) from by idx2,
    show idx_main_v26 (ridx_main_v27 (ix2 r c) (0 : Fin 1)) = ix2 c (0 : Fin 1) from by idx2]

theorem v29_at (x1 : NodeCol) (x5 : WeightCol) (r : Fin 98304) (c : Fin 64) :
    val_main_v29 (F := Ideal) x1 x5 (ix2 r c) = x1 (ix2 r (0 : Fin 1)) * x5 (ix2 c (0 : Fin 1)) := by
  rw [val_main_v29_apply, Fin.sum_univ_one, val_main_v28_apply,
    show lidx_main_v29 (ix2 r c) (0 : Fin 1) = ix2 r (0 : Fin 1) from by idx2,
    show idx_main_v28 (ridx_main_v29 (ix2 r c) (0 : Fin 1)) = ix2 c (0 : Fin 1) from by idx2]

theorem v60_at (x0 : NodeCol) (x7 : WeightCol) (r : Fin 98304) (c : Fin 64) :
    val_main_v60 (F := Ideal) x0 x7 (ix2 r c) = x0 (ix2 r (0 : Fin 1)) * x7 (ix2 c (0 : Fin 1)) := by
  rw [val_main_v60_apply, Fin.sum_univ_one, val_main_v59_apply,
    show lidx_main_v60 (ix2 r c) (0 : Fin 1) = ix2 r (0 : Fin 1) from by idx2,
    show idx_main_v59 (ridx_main_v60 (ix2 r c) (0 : Fin 1)) = ix2 c (0 : Fin 1) from by idx2]

theorem v62_at (x1 : NodeCol) (x8 : WeightCol) (r : Fin 98304) (c : Fin 64) :
    val_main_v62 (F := Ideal) x1 x8 (ix2 r c) = x1 (ix2 r (0 : Fin 1)) * x8 (ix2 c (0 : Fin 1)) := by
  rw [val_main_v62_apply, Fin.sum_univ_one, val_main_v61_apply,
    show lidx_main_v62 (ix2 r c) (0 : Fin 1) = ix2 r (0 : Fin 1) from by idx2,
    show idx_main_v61 (ridx_main_v62 (ix2 r c) (0 : Fin 1)) = ix2 c (0 : Fin 1) from by idx2]

theorem v65_at (x0 : NodeCol) (x8 : WeightCol) (r : Fin 98304) (c : Fin 64) :
    val_main_v65 (F := Ideal) x0 x8 (ix2 r c) = x0 (ix2 r (0 : Fin 1)) * x8 (ix2 c (0 : Fin 1)) := by
  rw [val_main_v65_apply, Fin.sum_univ_one, val_main_v64_apply,
    show lidx_main_v65 (ix2 r c) (0 : Fin 1) = ix2 r (0 : Fin 1) from by idx2,
    show idx_main_v64 (ridx_main_v65 (ix2 r c) (0 : Fin 1)) = ix2 c (0 : Fin 1) from by idx2]

theorem v67_at (x1 : NodeCol) (x7 : WeightCol) (r : Fin 98304) (c : Fin 64) :
    val_main_v67 (F := Ideal) x1 x7 (ix2 r c) = x1 (ix2 r (0 : Fin 1)) * x7 (ix2 c (0 : Fin 1)) := by
  rw [val_main_v67_apply, Fin.sum_univ_one, val_main_v66_apply,
    show lidx_main_v67 (ix2 r c) (0 : Fin 1) = ix2 r (0 : Fin 1) from by idx2,
    show idx_main_v66 (ridx_main_v67 (ix2 r c) (0 : Fin 1)) = ix2 c (0 : Fin 1) from by idx2]

theorem v25_at (x0 x1 : NodeCol) (x5 x6 : WeightCol) (r : Fin 98304) (c : Fin 64) :
    val_main_v25 (F := Ideal) x0 x1 x5 x6 (ix2 r c) = (x0 (ix2 r (0 : Fin 1)) * x5 (ix2 c (0 : Fin 1)) - x1 (ix2 r (0 : Fin 1)) * x6 (ix2 c (0 : Fin 1))) := by
  rw [val_main_v25_apply, v22_at, v24_at]
  rfl

theorem v30_at (x0 x1 : NodeCol) (x5 x6 : WeightCol) (r : Fin 98304) (c : Fin 64) :
    val_main_v30 (F := Ideal) x0 x1 x5 x6 (ix2 r c) = (x0 (ix2 r (0 : Fin 1)) * x6 (ix2 c (0 : Fin 1)) + x1 (ix2 r (0 : Fin 1)) * x5 (ix2 c (0 : Fin 1))) := by
  rw [val_main_v30_apply, v27_at, v29_at]
  rfl

theorem v63_at (x0 x1 : NodeCol) (x7 x8 : WeightCol) (r : Fin 98304) (c : Fin 64) :
    val_main_v63 (F := Ideal) x0 x1 x7 x8 (ix2 r c) = (x0 (ix2 r (0 : Fin 1)) * x7 (ix2 c (0 : Fin 1)) - x1 (ix2 r (0 : Fin 1)) * x8 (ix2 c (0 : Fin 1))) := by
  rw [val_main_v63_apply, v60_at, v62_at]
  rfl

theorem v68_at (x0 x1 : NodeCol) (x7 x8 : WeightCol) (r : Fin 98304) (c : Fin 64) :
    val_main_v68 (F := Ideal) x0 x1 x7 x8 (ix2 r c) = (x0 (ix2 r (0 : Fin 1)) * x8 (ix2 c (0 : Fin 1)) + x1 (ix2 r (0 : Fin 1)) * x7 (ix2 c (0 : Fin 1))) := by
  rw [val_main_v68_apply, v65_at, v67_at]
  rfl

/-! ## Gathered rows, messages, and the scatter-adds -/

theorem v38_at (x0 x1 : NodeCol) (x2 : EdgeList) (x5 x6 : WeightCol) (e : Fin 1572864) (c : Fin 64) :
    val_main_v38 (F := Ideal) x0 x1 x2 x5 x6 (ix2 e c) = (x0 (ix2 (srcRow x2 e) (0 : Fin 1)) * x5 (ix2 c (0 : Fin 1)) - x1 (ix2 (srcRow x2 e) (0 : Fin 1)) * x6 (ix2 c (0 : Fin 1))) := by
  unfold val_main_v38
  refine (rowGather_apply (N := 98304) (E := 1572864) (C := 64) (by decide) gather_S98304x64_S1572864x1_S1572864x64_1_0_n_n_0_1_164_wf
    (val_main_v25 (F := Ideal) x0 x1 x5 x6) (val_main_v37 (F := Ideal) x2) e c).trans ?_
  rw [v37_at, v25_at]
  rfl

theorem v48_at (x0 x1 : NodeCol) (x2 : EdgeList) (x5 x6 : WeightCol) (e : Fin 1572864) (c : Fin 64) :
    val_main_v48 (F := Ideal) x0 x1 x2 x5 x6 (ix2 e c) = (x0 (ix2 (srcRow x2 e) (0 : Fin 1)) * x6 (ix2 c (0 : Fin 1)) + x1 (ix2 (srcRow x2 e) (0 : Fin 1)) * x5 (ix2 c (0 : Fin 1))) := by
  unfold val_main_v48
  refine (rowGather_apply (N := 98304) (E := 1572864) (C := 64) (by decide) gather_S98304x64_S1572864x1_S1572864x64_1_0_n_n_0_1_164_wf
    (val_main_v30 (F := Ideal) x0 x1 x5 x6) (val_main_v47 (F := Ideal) x2) e c).trans ?_
  rw [v47_at, v30_at]
  rfl

theorem v76_at (x0 x1 : NodeCol) (x2 : EdgeList) (x7 x8 : WeightCol) (e : Fin 1572864) (c : Fin 64) :
    val_main_v76 (F := Ideal) x0 x1 x2 x7 x8 (ix2 e c) = (x0 (ix2 (srcRow x2 e) (0 : Fin 1)) * x7 (ix2 c (0 : Fin 1)) - x1 (ix2 (srcRow x2 e) (0 : Fin 1)) * x8 (ix2 c (0 : Fin 1))) := by
  unfold val_main_v76
  refine (rowGather_apply (N := 98304) (E := 1572864) (C := 64) (by decide) gather_S98304x64_S1572864x1_S1572864x64_1_0_n_n_0_1_164_wf
    (val_main_v63 (F := Ideal) x0 x1 x7 x8) (val_main_v75 (F := Ideal) x2) e c).trans ?_
  rw [v75_at, v63_at]
  rfl

theorem v86_at (x0 x1 : NodeCol) (x2 : EdgeList) (x7 x8 : WeightCol) (e : Fin 1572864) (c : Fin 64) :
    val_main_v86 (F := Ideal) x0 x1 x2 x7 x8 (ix2 e c) = (x0 (ix2 (srcRow x2 e) (0 : Fin 1)) * x8 (ix2 c (0 : Fin 1)) + x1 (ix2 (srcRow x2 e) (0 : Fin 1)) * x7 (ix2 c (0 : Fin 1))) := by
  unfold val_main_v86
  refine (rowGather_apply (N := 98304) (E := 1572864) (C := 64) (by decide) gather_S98304x64_S1572864x1_S1572864x64_1_0_n_n_0_1_164_wf
    (val_main_v68 (F := Ideal) x0 x1 x7 x8) (val_main_v85 (F := Ideal) x2) e c).trans ?_
  rw [v85_at, v68_at]
  rfl

theorem v40_at (x0 x1 : NodeCol) (x2 : EdgeList) (x3 : EdgeWeights) (x4 : Communities) (x5 x6 : WeightCol)
    (e : Fin 1572864) (c : Fin 64) :
    val_main_v40 (F := Ideal) x0 x1 x2 x3 x4 x5 x6 (ix2 e c) = (if same x2 x4 e then x3 (ix1 e) else 0) * (x0 (ix2 (srcRow x2 e) (0 : Fin 1)) * x5 (ix2 c (0 : Fin 1)) - x1 (ix2 (srcRow x2 e) (0 : Fin 1)) * x6 (ix2 c (0 : Fin 1))) := by
  rw [val_main_v40_apply, val_main_v39_apply, val_main_v31_apply,
    show idx_main_v31 (idx_main_v39 (ix2 e c)) = ix1 e from by idx1, v19_at, v38_at]
  rfl

theorem v50_at (x0 x1 : NodeCol) (x2 : EdgeList) (x3 : EdgeWeights) (x4 : Communities) (x5 x6 : WeightCol)
    (e : Fin 1572864) (c : Fin 64) :
    val_main_v50 (F := Ideal) x0 x1 x2 x3 x4 x5 x6 (ix2 e c) = (if same x2 x4 e then x3 (ix1 e) else 0) * (x0 (ix2 (srcRow x2 e) (0 : Fin 1)) * x6 (ix2 c (0 : Fin 1)) + x1 (ix2 (srcRow x2 e) (0 : Fin 1)) * x5 (ix2 c (0 : Fin 1))) := by
  rw [val_main_v50_apply, val_main_v49_apply, val_main_v41_apply,
    show idx_main_v41 (idx_main_v49 (ix2 e c)) = ix1 e from by idx1, v19_at, v48_at]
  rfl

theorem v78_at (x0 x1 : NodeCol) (x2 : EdgeList) (x3 : EdgeWeights) (x4 : Communities) (x7 x8 : WeightCol)
    (e : Fin 1572864) (c : Fin 64) :
    val_main_v78 (F := Ideal) x0 x1 x2 x3 x4 x7 x8 (ix2 e c) = (if same x2 x4 e then 0 else x3 (ix1 e)) * (x0 (ix2 (srcRow x2 e) (0 : Fin 1)) * x7 (ix2 c (0 : Fin 1)) - x1 (ix2 (srcRow x2 e) (0 : Fin 1)) * x8 (ix2 c (0 : Fin 1))) := by
  rw [val_main_v78_apply, val_main_v77_apply, val_main_v69_apply,
    show idx_main_v69 (idx_main_v77 (ix2 e c)) = ix1 e from by idx1, v20_at, v76_at]
  rfl

theorem v88_at (x0 x1 : NodeCol) (x2 : EdgeList) (x3 : EdgeWeights) (x4 : Communities) (x7 x8 : WeightCol)
    (e : Fin 1572864) (c : Fin 64) :
    val_main_v88 (F := Ideal) x0 x1 x2 x3 x4 x7 x8 (ix2 e c) = (if same x2 x4 e then 0 else x3 (ix1 e)) * (x0 (ix2 (srcRow x2 e) (0 : Fin 1)) * x8 (ix2 c (0 : Fin 1)) + x1 (ix2 (srcRow x2 e) (0 : Fin 1)) * x7 (ix2 c (0 : Fin 1))) := by
  rw [val_main_v88_apply, val_main_v87_apply, val_main_v79_apply,
    show idx_main_v79 (idx_main_v87 (ix2 e c)) = ix1 e from by idx1, v20_at, v86_at]
  rfl

theorem v53_at (x0 x1 : NodeCol) (x2 : EdgeList) (x3 : EdgeWeights) (x4 : Communities) (x5 x6 : WeightCol)
    (n : Fin 98304) (c : Fin 64) :
    val_main_v53 (F := Ideal) x0 x1 x2 x3 x4 x5 x6 (ix2 n c) = refArL x0 x1 x2 x3 x4 x5 x6 n c := by
  unfold val_main_v53
  refine (rowScatterAdd_apply scatter_S98304x64_S1572864x1_S1572864x64_1_0_0_1_wf (val_main_v51 (F := Ideal)) (val_main_v52 (F := Ideal) x2)
    (val_main_v40 (F := Ideal) x0 x1 x2 x3 x4 x5 x6) n c (fun e => lands x2 e n)
    (fun e => by rw [v52_at]; exact Iff.rfl)).trans ?_
  rw [val_main_v51_apply, val_main_cst_8_apply, Ideal.ofBits_def, Ideal.ofBits_zero_f32, zero_add]
  unfold refArL
  exact Finset.sum_congr rfl fun e _ => v40_at x0 x1 x2 x3 x4 x5 x6 e c

theorem v56_at (x0 x1 : NodeCol) (x2 : EdgeList) (x3 : EdgeWeights) (x4 : Communities) (x5 x6 : WeightCol)
    (n : Fin 98304) (c : Fin 64) :
    val_main_v56 (F := Ideal) x0 x1 x2 x3 x4 x5 x6 (ix2 n c) = refAiL x0 x1 x2 x3 x4 x5 x6 n c := by
  unfold val_main_v56
  refine (rowScatterAdd_apply scatter_S98304x64_S1572864x1_S1572864x64_1_0_0_1_wf (val_main_v54 (F := Ideal)) (val_main_v55 (F := Ideal) x2)
    (val_main_v50 (F := Ideal) x0 x1 x2 x3 x4 x5 x6) n c (fun e => lands x2 e n)
    (fun e => by rw [v55_at]; exact Iff.rfl)).trans ?_
  rw [val_main_v54_apply, val_main_cst_9_apply, Ideal.ofBits_def, Ideal.ofBits_zero_f32, zero_add]
  unfold refAiL
  exact Finset.sum_congr rfl fun e _ => v50_at x0 x1 x2 x3 x4 x5 x6 e c

theorem v91_at (x0 x1 : NodeCol) (x2 : EdgeList) (x3 : EdgeWeights) (x4 : Communities) (x7 x8 : WeightCol)
    (n : Fin 98304) (c : Fin 64) :
    val_main_v91 (F := Ideal) x0 x1 x2 x3 x4 x7 x8 (ix2 n c) = refArG x0 x1 x2 x3 x4 x7 x8 n c := by
  unfold val_main_v91
  refine (rowScatterAdd_apply scatter_S98304x64_S1572864x1_S1572864x64_1_0_0_1_wf (val_main_v89 (F := Ideal)) (val_main_v90 (F := Ideal) x2)
    (val_main_v78 (F := Ideal) x0 x1 x2 x3 x4 x7 x8) n c (fun e => lands x2 e n)
    (fun e => by rw [v90_at]; exact Iff.rfl)).trans ?_
  rw [val_main_v89_apply, val_main_cst_14_apply, Ideal.ofBits_def, Ideal.ofBits_zero_f32, zero_add]
  unfold refArG
  exact Finset.sum_congr rfl fun e _ => v78_at x0 x1 x2 x3 x4 x7 x8 e c

theorem v94_at (x0 x1 : NodeCol) (x2 : EdgeList) (x3 : EdgeWeights) (x4 : Communities) (x7 x8 : WeightCol)
    (n : Fin 98304) (c : Fin 64) :
    val_main_v94 (F := Ideal) x0 x1 x2 x3 x4 x7 x8 (ix2 n c) = refAiG x0 x1 x2 x3 x4 x7 x8 n c := by
  unfold val_main_v94
  refine (rowScatterAdd_apply scatter_S98304x64_S1572864x1_S1572864x64_1_0_0_1_wf (val_main_v92 (F := Ideal)) (val_main_v93 (F := Ideal) x2)
    (val_main_v88 (F := Ideal) x0 x1 x2 x3 x4 x7 x8) n c (fun e => lands x2 e n)
    (fun e => by rw [v93_at]; exact Iff.rfl)).trans ?_
  rw [val_main_v92_apply, val_main_cst_15_apply, Ideal.ofBits_def, Ideal.ofBits_zero_f32, zero_add]
  unfold refAiG
  exact Finset.sum_congr rfl fun e _ => v88_at x0 x1 x2 x3 x4 x7 x8 e c

/-! ## The activation and the sum of the two layers -/

theorem v57_at (x0 x1 : NodeCol) (x2 : EdgeList) (x3 : EdgeWeights) (x4 : Communities) (x5 x6 : WeightCol)
    (i : S98304x64.Idx) :
    val_main_v57 (F := Ideal) x0 x1 x2 x3 x4 x5 x6 i = silu (val_main_v53 (F := Ideal) x0 x1 x2 x3 x4 x5 x6 i) := by
  rw [val_main_v57_apply, val_main_call2_v5_apply, val_main_call2_v4_apply, val_main_call2_cst_0_apply,
    val_main_call2_v3_apply, val_main_call2_v2_apply, val_main_call2_cst_apply, val_main_call2_v1_apply,
    val_main_call2_v0_apply]
  generalize val_main_v53 (F := Ideal) x0 x1 x2 x3 x4 x5 x6 i = t
  simp only [Ideal.ofBits_def, ofBits_one_f32]
  rfl

theorem v58_at (x0 x1 : NodeCol) (x2 : EdgeList) (x3 : EdgeWeights) (x4 : Communities) (x5 x6 : WeightCol)
    (i : S98304x64.Idx) :
    val_main_v58 (F := Ideal) x0 x1 x2 x3 x4 x5 x6 i = silu (val_main_v56 (F := Ideal) x0 x1 x2 x3 x4 x5 x6 i) := by
  rw [val_main_v58_apply, val_main_call3_v5_apply, val_main_call3_v4_apply, val_main_call3_cst_0_apply,
    val_main_call3_v3_apply, val_main_call3_v2_apply, val_main_call3_cst_apply, val_main_call3_v1_apply,
    val_main_call3_v0_apply]
  generalize val_main_v56 (F := Ideal) x0 x1 x2 x3 x4 x5 x6 i = t
  simp only [Ideal.ofBits_def, ofBits_one_f32]
  rfl

theorem v95_at (x0 x1 : NodeCol) (x2 : EdgeList) (x3 : EdgeWeights) (x4 : Communities) (x7 x8 : WeightCol)
    (i : S98304x64.Idx) :
    val_main_v95 (F := Ideal) x0 x1 x2 x3 x4 x7 x8 i = silu (val_main_v91 (F := Ideal) x0 x1 x2 x3 x4 x7 x8 i) := by
  rw [val_main_v95_apply, val_main_call4_v5_apply, val_main_call4_v4_apply, val_main_call4_cst_0_apply,
    val_main_call4_v3_apply, val_main_call4_v2_apply, val_main_call4_cst_apply, val_main_call4_v1_apply,
    val_main_call4_v0_apply]
  generalize val_main_v91 (F := Ideal) x0 x1 x2 x3 x4 x7 x8 i = t
  simp only [Ideal.ofBits_def, ofBits_one_f32]
  rfl

theorem v96_at (x0 x1 : NodeCol) (x2 : EdgeList) (x3 : EdgeWeights) (x4 : Communities) (x7 x8 : WeightCol)
    (i : S98304x64.Idx) :
    val_main_v96 (F := Ideal) x0 x1 x2 x3 x4 x7 x8 i = silu (val_main_v94 (F := Ideal) x0 x1 x2 x3 x4 x7 x8 i) := by
  rw [val_main_v96_apply, val_main_call5_v5_apply, val_main_call5_v4_apply, val_main_call5_cst_0_apply,
    val_main_call5_v3_apply, val_main_call5_v2_apply, val_main_call5_cst_apply, val_main_call5_v1_apply,
    val_main_call5_v0_apply]
  generalize val_main_v94 (F := Ideal) x0 x1 x2 x3 x4 x7 x8 i = t
  simp only [Ideal.ofBits_def, ofBits_one_f32]
  rfl

theorem v97_at (x0 x1 : NodeCol) (x2 : EdgeList) (x3 : EdgeWeights) (x4 : Communities) (x5 x6 x7 x8 : WeightCol)
    (n : Fin 98304) (c : Fin 64) :
    val_main_v97 (F := Ideal) x0 x1 x2 x3 x4 x5 x6 x7 x8 (ix2 n c)
      = silu (refArL x0 x1 x2 x3 x4 x5 x6 n c) + silu (refArG x0 x1 x2 x3 x4 x7 x8 n c) := by
  rw [val_main_v97_apply, v57_at, v95_at, v53_at, v91_at]
  rfl

theorem v98_at (x0 x1 : NodeCol) (x2 : EdgeList) (x3 : EdgeWeights) (x4 : Communities) (x5 x6 x7 x8 : WeightCol)
    (n : Fin 98304) (c : Fin 64) :
    val_main_v98 (F := Ideal) x0 x1 x2 x3 x4 x5 x6 x7 x8 (ix2 n c)
      = silu (refAiL x0 x1 x2 x3 x4 x5 x6 n c) + silu (refAiG x0 x1 x2 x3 x4 x7 x8 n c) := by
  rw [val_main_v98_apply, v58_at, v96_at, v56_at, v94_at]
  rfl

/-! ## The result: the real sheet at last coordinate 0, the imaginary sheet at 1 -/

/-- THE REFERENCE'S RESULT AT (n, c, 0): silu of the local real sum plus silu of the global real sum. -/
theorem ref_re (x0 x1 : NodeCol) (x2 : EdgeList) (x3 : EdgeWeights) (x4 : Communities) (x5 x6 x7 x8 : WeightCol)
    (n : Fin 98304) (c : Fin 64) :
    val_main_v101 (F := Ideal) x0 x1 x2 x3 x4 x5 x6 x7 x8 (ix3 n c (0 : Fin 2))
      = silu (refArL x0 x1 x2 x3 x4 x5 x6 n c) + silu (refArG x0 x1 x2 x3 x4 x7 x8 n c) := by
  unfold val_main_v101
  refine (concatenate_pair_apply_left (t := S98304x64x2) (2 : Fin 3) (val_main_v99 (F := Ideal) x0 x1 x2 x3 x4 x5 x6 x7 x8)
    (val_main_v100 (F := Ideal) x0 x1 x2 x3 x4 x5 x6 x7 x8) _ (ix3 n c (0 : Fin 2)) rfl (ix3 n c (0 : Fin 1))
    (fun b => by match b with | ⟨0, _⟩ => rfl | ⟨1, _⟩ => rfl | ⟨2, _⟩ => rfl)).trans ?_
  rw [val_main_v99_apply, show idx_main_v99 (ix3 n c (0 : Fin 1)) = ix2 n c from by idx2, v97_at]

/-- THE REFERENCE'S RESULT AT (n, c, 1): silu of the local imaginary sum plus silu of the global imaginary sum. -/
theorem ref_im (x0 x1 : NodeCol) (x2 : EdgeList) (x3 : EdgeWeights) (x4 : Communities) (x5 x6 x7 x8 : WeightCol)
    (n : Fin 98304) (c : Fin 64) :
    val_main_v101 (F := Ideal) x0 x1 x2 x3 x4 x5 x6 x7 x8 (ix3 n c (1 : Fin 2))
      = silu (refAiL x0 x1 x2 x3 x4 x5 x6 n c) + silu (refAiG x0 x1 x2 x3 x4 x7 x8 n c) := by
  unfold val_main_v101
  refine (concatenate_pair_apply_right (t := S98304x64x2) (2 : Fin 3) (val_main_v99 (F := Ideal) x0 x1 x2 x3 x4 x5 x6 x7 x8)
    (val_main_v100 (F := Ideal) x0 x1 x2 x3 x4 x5 x6 x7 x8) _ (ix3 n c (1 : Fin 2)) rfl rfl (ix3 n c (0 : Fin 1))
    (fun b hb => by
      match b with
      | ⟨0, _⟩ => rfl
      | ⟨1, _⟩ => rfl
      | ⟨2, _⟩ => exact absurd rfl hb)
    rfl).trans ?_
  rw [val_main_v100_apply, show idx_main_v100 (ix3 n c (0 : Fin 1)) = ix2 n c from by idx2, v98_at]

/-- THE REFERENCE'S RESULT AT (n, c, k), both sheets in one statement. -/
theorem ref_at (x0 x1 : NodeCol) (x2 : EdgeList) (x3 : EdgeWeights) (x4 : Communities) (x5 x6 x7 x8 : WeightCol)
    (n : Fin 98304) (c : Fin 64) (k : Fin 2) :
    val_main_v101 (F := Ideal) x0 x1 x2 x3 x4 x5 x6 x7 x8 (ix3 n c k)
      = if k = 0 then silu (refArL x0 x1 x2 x3 x4 x5 x6 n c) + silu (refArG x0 x1 x2 x3 x4 x7 x8 n c)
        else silu (refAiL x0 x1 x2 x3 x4 x5 x6 n c) + silu (refAiG x0 x1 x2 x3 x4 x7 x8 n c) := by
  match k with
  | ⟨0, _⟩ => exact (ref_re x0 x1 x2 x3 x4 x5 x6 x7 x8 n c).trans (if_pos rfl).symm
  | ⟨1, _⟩ => exact (ref_im x0 x1 x2 x3 x4 x5 x6 x7 x8 n c).trans (if_neg (fun h => absurd (congrArg Fin.val h) Nat.one_ne_zero)).symm

end Cert.RefAtIndex

end
-- ==== Proof.LibRank1Messages.lean ====
/-
  Rank-one messages summed over a set of edges, over the extended reals.

  When every message along an edge e is a scalar a(e) times a fixed combination of two per-edge scalars x(e), y(e)
  with two numbers p, q that do not depend on the edge,

      Σ_e a(e) · (x(e)·p − y(e)·q)  =  (Σ_e a(e)·x(e))·p − (Σ_e a(e)·y(e))·q,

  and likewise with + in place of −: the sum over the edges may be taken on the scalars first and the outer product
  with p, q formed afterwards. This is distributivity and the linearity of a finite sum, which on the extended reals
  hold where every quantity is FINITE (a real number); with an infinite term beside one of the other sign they fail.
  Also: a weight times a 0/1 mask is the weight where the mask holds and 0 elsewhere, and a FINITE weight minus that
  product is 0 where the mask holds and the weight elsewhere (an infinite weight minus itself is not 0).
-/
import Idealize.ShloMosaic.PureOps.Ideal
import Mathlib.Algebra.BigOperators.Ring.Finset
import proofs.«140219_j61804579389717_1_alg».proof.Proof.LibFiniteReals

noncomputable section

namespace Cert.Rank1

open Cert.Law

variable {ι : Type*}

/-- A weight times the 0/1 mask: the weight where the mask holds, 0 elsewhere (any weight). -/
theorem mul_mask (w : EReal) (c : Prop) [Decidable c] : w * (if c then (1 : EReal) else 0) = if c then w else 0 := by
  split
  · exact mul_one w
  · exact mul_zero w

/-- A finite weight minus its masked part: 0 where the mask holds, the weight elsewhere. -/
theorem sub_mul_mask (w : EReal) (hw : IsR w) (c : Prop) [Decidable c] :
    w - w * (if c then (1 : EReal) else 0) = if c then 0 else w := by
  obtain ⟨r, rfl⟩ := hw
  split
  · rw [mul_one, ← EReal.coe_sub, sub_self]; rfl
  · rw [mul_zero, sub_zero]

/-- The edge sum of rank-one messages with a difference inside. -/
theorem sum_factor_sub (S : Finset ι) (a x y : ι → EReal) (p q : EReal)
    (ha : ∀ e, IsR (a e)) (hx : ∀ e, IsR (x e)) (hy : ∀ e, IsR (y e)) (hp : IsR p) (hq : IsR q) :
    (∑ e ∈ S, a e * x e) * p - (∑ e ∈ S, a e * y e) * q = ∑ e ∈ S, a e * (x e * p - y e * q) := by
  choose a' ha' using ha
  choose x' hx' using hx
  choose y' hy' using hy
  obtain ⟨p', rfl⟩ := hp
  obtain ⟨q', rfl⟩ := hq
  have e1 : ∀ e, a e * x e = ((a' e * x' e : ℝ) : EReal) := fun e => by rw [ha', hx', EReal.coe_mul]
  have e2 : ∀ e, a e * y e = ((a' e * y' e : ℝ) : EReal) := fun e => by rw [ha', hy', EReal.coe_mul]
  have e3 : ∀ e, a e * (x e * (p' : EReal) - y e * (q' : EReal)) = ((a' e * (x' e * p' - y' e * q') : ℝ) : EReal) := fun e => by
    rw [ha', hx', hy', ← EReal.coe_mul, ← EReal.coe_mul, ← EReal.coe_sub, ← EReal.coe_mul]
  simp only [e1, e2, e3]
  rw [← coe_sum, ← coe_sum, ← coe_sum, ← EReal.coe_mul, ← EReal.coe_mul, ← EReal.coe_sub]
  congr 1
  rw [Finset.sum_mul, Finset.sum_mul, ← Finset.sum_sub_distrib]
  exact Finset.sum_congr rfl fun e _ => by ring

/-- The edge sum of rank-one messages with a sum inside. -/
theorem sum_factor_add (S : Finset ι) (a x y : ι → EReal) (p q : EReal)
    (ha : ∀ e, IsR (a e)) (hx : ∀ e, IsR (x e)) (hy : ∀ e, IsR (y e)) (hp : IsR p) (hq : IsR q) :
    (∑ e ∈ S, a e * x e) * p + (∑ e ∈ S, a e * y e) * q = ∑ e ∈ S, a e * (x e * p + y e * q) := by
  choose a' ha' using ha
  choose x' hx' using hx
  choose y' hy' using hy
  obtain ⟨p', rfl⟩ := hp
  obtain ⟨q', rfl⟩ := hq
  have e1 : ∀ e, a e * x e = ((a' e * x' e : ℝ) : EReal) := fun e => by rw [ha', hx', EReal.coe_mul]
  have e2 : ∀ e, a e * y e = ((a' e * y' e : ℝ) : EReal) := fun e => by rw [ha', hy', EReal.coe_mul]
  have e3 : ∀ e, a e * (x e * (p' : EReal) + y e * (q' : EReal)) = ((a' e * (x' e * p' + y' e * q') : ℝ) : EReal) := fun e => by
    rw [ha', hx', hy', ← EReal.coe_mul, ← EReal.coe_mul, ← EReal.coe_add, ← EReal.coe_mul]
  simp only [e1, e2, e3]
  rw [← coe_sum, ← coe_sum, ← coe_sum, ← EReal.coe_mul, ← EReal.coe_mul, ← EReal.coe_add]
  congr 1
  rw [Finset.sum_mul, Finset.sum_mul, ← Finset.sum_add_distrib]
  exact Finset.sum_congr rfl fun e _ => by ring

/-! ## With the edge weights masked by a 0/1 indicator -/

variable (S : Finset ι) (w x y : ι → EReal) (c : ι → Prop) [DecidablePred c] (p q : EReal)

/-- The masked weights are finite. -/
theorem isR_masked (hw : ∀ e, IsR (w e)) (e : ι) : IsR (if c e then w e else 0) := by
  split
  · exact hw e
  · exact isR_zero
/-- So are the complementary ones. -/
theorem isR_unmasked (hw : ∀ e, IsR (w e)) (e : ι) : IsR (if c e then 0 else w e) := by
  split
  · exact isR_zero
  · exact hw e

/-- Edge sums of the masked scalars, then the outer product with a difference:
    the masked rank-one messages summed. -/
theorem masked_sub (hw : ∀ e, IsR (w e)) (hx : ∀ e, IsR (x e)) (hy : ∀ e, IsR (y e)) (hp : IsR p) (hq : IsR q) :
    (∑ e ∈ S, (w e * (if c e then (1 : EReal) else 0)) * x e) * p
        - (∑ e ∈ S, (w e * (if c e then (1 : EReal) else 0)) * y e) * q
      = ∑ e ∈ S, (if c e then w e else 0) * (x e * p - y e * q) := by
  simp only [mul_mask]
  exact sum_factor_sub S (fun e => if c e then w e else 0) x y p q (isR_masked w c hw) hx hy hp hq

/-- The same with a sum inside. -/
theorem masked_add (hw : ∀ e, IsR (w e)) (hx : ∀ e, IsR (x e)) (hy : ∀ e, IsR (y e)) (hp : IsR p) (hq : IsR q) :
    (∑ e ∈ S, (w e * (if c e then (1 : EReal) else 0)) * x e) * p
        + (∑ e ∈ S, (w e * (if c e then (1 : EReal) else 0)) * y e) * q
      = ∑ e ∈ S, (if c e then w e else 0) * (x e * p + y e * q) := by
  simp only [mul_mask]
  exact sum_factor_add S (fun e => if c e then w e else 0) x y p q (isR_masked w c hw) hx hy hp hq

/-- With the complementary weights w − w·mask. -/
theorem unmasked_sub (hw : ∀ e, IsR (w e)) (hx : ∀ e, IsR (x e)) (hy : ∀ e, IsR (y e)) (hp : IsR p) (hq : IsR q) :
    (∑ e ∈ S, (w e - w e * (if c e then (1 : EReal) else 0)) * x e) * p
        - (∑ e ∈ S, (w e - w e * (if c e then (1 : EReal) else 0)) * y e) * q
      = ∑ e ∈ S, (if c e then 0 else w e) * (x e * p - y e * q) := by
  have hm : ∀ e, w e - w e * (if c e then (1 : EReal) else 0) = if c e then 0 else w e :=
    fun e => sub_mul_mask (w e) (hw e) (c e)
  simp only [hm]
  exact sum_factor_sub S (fun e => if c e then 0 else w e) x y p q (isR_unmasked w c hw) hx hy hp hq

theorem unmasked_add (hw : ∀ e, IsR (w e)) (hx : ∀ e, IsR (x e)) (hy : ∀ e, IsR (y e)) (hp : IsR p) (hq : IsR q) :
    (∑ e ∈ S, (w e - w e * (if c e then (1 : EReal) else 0)) * x e) * p
        + (∑ e ∈ S, (w e - w e * (if c e then (1 : EReal) else 0)) * y e) * q
      = ∑ e ∈ S, (if c e then 0 else w e) * (x e * p + y e * q) := by
  have hm : ∀ e, w e - w e * (if c e then (1 : EReal) else 0) = if c e then 0 else w e :=
    fun e => sub_mul_mask (w e) (hw e) (c e)
  simp only [hm]
  exact sum_factor_add S (fun e => if c e then 0 else w e) x y p q (isR_unmasked w c hw) hx hy hp hq

end Cert.Rank1

end
-- ==== Proof.KernelMeetsReference.lean ====
/-
  The kernel's result is the reference's.

  Both programs send, along every edge e that lands in node n, a message built from the complex number at the edge's
  source and a complex weight column. The reference forms the rank-one message for each of the 64 features and sums
  the messages; the kernel sums the SCALARS w(e)·s(e)·x(src e) over the edges first — s the 0/1 same-community mask,
  w − w·s the complementary weight — and forms the outer product with the weight columns afterwards:

      Σ_e a(e)·(xr(e)·Wr − xi(e)·Wi)  =  (Σ_e a(e)·xr(e))·Wr − (Σ_e a(e)·xi(e))·Wi.

  That is the linearity of a finite sum, which holds because every input is finite. The activation silu and the sum
  of the two branches are the same operations on both sides.
-/
import proofs.«140219_j61804579389717_1_alg».proof.Proof.Boundaries
import proofs.«140219_j61804579389717_1_alg».proof.Proof.HostAtIndex
import proofs.«140219_j61804579389717_1_alg».proof.Proof.RefAtIndex
import proofs.«140219_j61804579389717_1_alg».proof.Proof.LibRank1Messages

noncomputable section

namespace Cert.Meet

open Idealize.ShloMosaic Idealize.ShloMosaic.TcCoe Idealize.ShloMosaic.ValueIdx Idealize.SL.Sem
open Cert.KernelIdeal Cert.KernelIdeal.Gen Cert.KernelIdeal.Pipes
open Cert.EdgeWords Cert.Law Cert.RefAtIndex Cert.HostAtIndex

/-! ## The kernel's arithmetic on the argument arrays -/

section Spec

variable (x0 x1 : NodeCol) (x2 : EdgeList) (x3 : EdgeWeights) (x4 : Communities) (x5 x6 x7 x8 : WeightCol)

/-- The 0/1 mask of edge e: 1 when its source's and its target's communities agree. -/
def maskE (e : Fin 1572864) : EReal := if same x2 x4 e then 1 else 0

/-- Edge e's masked scalar: the masked weight times the node array xs at the edge's source. -/
def edgeL (xs : NodeCol) (e : Fin 1572864) : EReal :=
  (x3 (ix1 e) * (if same x2 x4 e then (1 : EReal) else 0)) * xs (ix2 (srcRow x2 e) (0 : Fin 1))
/-- Edge e's complementary scalar. -/
def edgeG (xs : NodeCol) (e : Fin 1572864) : EReal :=
  (x3 (ix1 e) - x3 (ix1 e) * (if same x2 x4 e then (1 : EReal) else 0)) * xs (ix2 (srcRow x2 e) (0 : Fin 1))

/-- The masked scalar sum over the edges landing in n. -/
def sumL (xs : NodeCol) (n : Fin 98304) : EReal :=
  ∑ e ∈ Finset.univ.filter (fun e : Fin 1572864 => lands x2 e n), edgeL x2 x3 x4 xs e
/-- The complementary scalar sum. -/
def sumG (xs : NodeCol) (n : Fin 98304) : EReal :=
  ∑ e ∈ Finset.univ.filter (fun e : Fin 1572864 => lands x2 e n), edgeG x2 x3 x4 xs e

/-- The kernel's real part at node n, feature h. -/
def kRe (n : Fin 98304) (h : Fin 64) : EReal :=
  silu (sumL x2 x3 x4 x0 n * x5 (ix2 h (0 : Fin 1)) - sumL x2 x3 x4 x1 n * x6 (ix2 h (0 : Fin 1)))
    + silu (sumG x2 x3 x4 x0 n * x7 (ix2 h (0 : Fin 1)) - sumG x2 x3 x4 x1 n * x8 (ix2 h (0 : Fin 1)))
/-- The kernel's imaginary part. -/
def kIm (n : Fin 98304) (h : Fin 64) : EReal :=
  silu (sumL x2 x3 x4 x0 n * x6 (ix2 h (0 : Fin 1)) + sumL x2 x3 x4 x1 n * x5 (ix2 h (0 : Fin 1)))
    + silu (sumG x2 x3 x4 x0 n * x8 (ix2 h (0 : Fin 1)) + sumG x2 x3 x4 x1 n * x7 (ix2 h (0 : Fin 1)))

/-- The mask as the equality test of the two community words decides it. -/
theorem mask_eq (e : Fin 1572864) :
    (if (x4 (ix1 (srcRow x2 e)) : BitVec 32) = x4 (ix1 (dstRow x2 e)) then (1 : EReal) else 0)
      = if same x2 x4 e then (1 : EReal) else 0 :=
  if_congr Iff.rfl rfl rfl

variable (hx0 : ∀ i, IsR (x0 i)) (hx1 : ∀ i, IsR (x1 i)) (hx3 : ∀ i, IsR (x3 i))
  (hx5 : ∀ i, IsR (x5 i)) (hx6 : ∀ i, IsR (x6 i)) (hx7 : ∀ i, IsR (x7 i)) (hx8 : ∀ i, IsR (x8 i))

include hx0 hx1 hx3 hx5 hx6 hx7 hx8

/-- With finite inputs the kernel's real part is the reference's. -/
theorem kRe_eq (n : Fin 98304) (h : Fin 64) :
    kRe x0 x1 x2 x3 x4 x5 x6 x7 x8 n h = silu (refArL x0 x1 x2 x3 x4 x5 x6 n h) + silu (refArG x0 x1 x2 x3 x4 x7 x8 n h) := by
  unfold kRe sumL sumG edgeL edgeG refArL refArG
  rw [Cert.Rank1.masked_sub _ (fun e => x3 (ix1 e)) (fun e => x0 (ix2 (srcRow x2 e) (0 : Fin 1))) (fun e => x1 (ix2 (srcRow x2 e) (0 : Fin 1)))
        (fun e => same x2 x4 e) _ _ (fun e => hx3 _) (fun e => hx0 _) (fun e => hx1 _) (hx5 _) (hx6 _),
    Cert.Rank1.unmasked_sub _ (fun e => x3 (ix1 e)) (fun e => x0 (ix2 (srcRow x2 e) (0 : Fin 1))) (fun e => x1 (ix2 (srcRow x2 e) (0 : Fin 1)))
        (fun e => same x2 x4 e) _ _ (fun e => hx3 _) (fun e => hx0 _) (fun e => hx1 _) (hx7 _) (hx8 _)]

/-- With finite inputs the kernel's imaginary part is the reference's. -/
theorem kIm_eq (n : Fin 98304) (h : Fin 64) :
    kIm x0 x1 x2 x3 x4 x5 x6 x7 x8 n h = silu (refAiL x0 x1 x2 x3 x4 x5 x6 n h) + silu (refAiG x0 x1 x2 x3 x4 x7 x8 n h) := by
  unfold kIm sumL sumG edgeL edgeG refAiL refAiG
  rw [Cert.Rank1.masked_add _ (fun e => x3 (ix1 e)) (fun e => x0 (ix2 (srcRow x2 e) (0 : Fin 1))) (fun e => x1 (ix2 (srcRow x2 e) (0 : Fin 1)))
        (fun e => same x2 x4 e) _ _ (fun e => hx3 _) (fun e => hx0 _) (fun e => hx1 _) (hx6 _) (hx5 _),
    Cert.Rank1.unmasked_add _ (fun e => x3 (ix1 e)) (fun e => x0 (ix2 (srcRow x2 e) (0 : Fin 1))) (fun e => x1 (ix2 (srcRow x2 e) (0 : Fin 1)))
        (fun e => same x2 x4 e) _ _ (fun e => hx3 _) (fun e => hx0 _) (fun e => hx1 _) (hx8 _) (hx7 _)]

end Spec

/-! ## The kernel's result array is that arithmetic of its arguments -/

section Kernel

/-- The edge products at one entry, as extended-real arithmetic. -/
theorem EG4_at (a0 a1 a2 : S1572864.Idx → EReal) (i : S1572864.Idx) : EG4 (F := Ideal) a0 a1 a2 i = (a0 i * a1 i) * a2 i := rfl
theorem EG5_at (a0 a1 a2 : S1572864.Idx → EReal) (i : S1572864.Idx) : EG5 (F := Ideal) a0 a1 a2 i = (a0 i * a1 i) * a2 i := rfl
theorem EG6_at (a0 a1 a2 : S1572864.Idx → EReal) (i : S1572864.Idx) : EG6 (F := Ideal) a0 a1 a2 i = (a0 i - a0 i * a1 i) * a2 i := rfl
theorem EG7_at (a0 a1 a2 : S1572864.Idx → EReal) (i : S1572864.Idx) : EG7 (F := Ideal) a0 a1 a2 i = (a0 i - a0 i * a1 i) * a2 i := rfl

/-- The combined parts at one node and one feature, as extended-real arithmetic. -/
theorem NRe_at (a0 : S98304x4.Idx → EReal) (a1 : S4x64.Idx → EReal) (n : Fin 98304) (h : Fin 64) :
    NRe (F := Ideal) a0 a1 (ix2 n h)
      = silu (a0 (ix2 n (0 : Fin 4)) * a1 (ix2 (0 : Fin 4) h) - a0 (ix2 n (1 : Fin 4)) * a1 (ix2 (1 : Fin 4) h))
        + silu (a0 (ix2 n (2 : Fin 4)) * a1 (ix2 (2 : Fin 4) h) - a0 (ix2 n (3 : Fin 4)) * a1 (ix2 (3 : Fin 4) h)) := rfl
theorem NIm_at (a0 : S98304x4.Idx → EReal) (a1 : S4x64.Idx → EReal) (n : Fin 98304) (h : Fin 64) :
    NIm (F := Ideal) a0 a1 (ix2 n h)
      = silu (a0 (ix2 n (0 : Fin 4)) * a1 (ix2 (1 : Fin 4) h) + a0 (ix2 n (1 : Fin 4)) * a1 (ix2 (0 : Fin 4) h))
        + silu (a0 (ix2 n (2 : Fin 4)) * a1 (ix2 (3 : Fin 4) h) + a0 (ix2 n (3 : Fin 4)) * a1 (ix2 (2 : Fin 4) h)) := rfl

variable (m : (ℓ : Loc nD τ sig) → Buf (Elt Ideal) ℓ) (ρ : Dev nD → PrngReg) (c : Dev nD)

/-- What the first region leaves at edge e in its four output arrays: the masked and the complementary scalars of the
    real and of the imaginary node arrays. -/
theorem out0_at (e : Fin 1572864) : (regionOuts m ρ 2 main_v42_0 c : S1572864.Idx → EReal) (ix1 e)
    = edgeL (m ((c : Thread nD τ).loc main_arg2)) (m ((c : Thread nD τ).loc main_arg3)) (m ((c : Thread nD τ).loc main_arg4)) (m ((c : Thread nD τ).loc main_arg0)) e := by
  rw [out_main_v42_0, EG4_at, V1_arg3, V1_v19_value, V1_v30_apply, mask_eq]
  rfl
theorem out1_at (e : Fin 1572864) : (regionOuts m ρ 2 main_v42_1 c : S1572864.Idx → EReal) (ix1 e)
    = edgeL (m ((c : Thread nD τ).loc main_arg2)) (m ((c : Thread nD τ).loc main_arg3)) (m ((c : Thread nD τ).loc main_arg4)) (m ((c : Thread nD τ).loc main_arg1)) e := by
  rw [out_main_v42_1, EG5_at, V1_arg3, V1_v19_value, V1_v41_apply, mask_eq]
  rfl
theorem out2_at (e : Fin 1572864) : (regionOuts m ρ 2 main_v42_2 c : S1572864.Idx → EReal) (ix1 e)
    = edgeG (m ((c : Thread nD τ).loc main_arg2)) (m ((c : Thread nD τ).loc main_arg3)) (m ((c : Thread nD τ).loc main_arg4)) (m ((c : Thread nD τ).loc main_arg0)) e := by
  rw [out_main_v42_2, EG6_at, V1_arg3, V1_v19_value, V1_v30_apply, mask_eq]
  rfl
theorem out3_at (e : Fin 1572864) : (regionOuts m ρ 2 main_v42_3 c : S1572864.Idx → EReal) (ix1 e)
    = edgeG (m ((c : Thread nD τ).loc main_arg2)) (m ((c : Thread nD τ).loc main_arg3)) (m ((c : Thread nD τ).loc main_arg4)) (m ((c : Thread nD τ).loc main_arg1)) e := by
  rw [out_main_v42_3, EG7_at, V1_arg3, V1_v19_value, V1_v41_apply, mask_eq]
  rfl

/-- The real sheet of the kernel's result at (n, h). -/
theorem kernel_re (n : Fin 98304) (h : Fin 64) :
    (Gen.V5 m (regionOuts m ρ) c main_v68 : S98304x64x2.Idx → EReal) (ix3 n h (0 : Fin 2))
      = kRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n h := by
  rw [V5_v68_apply0, out_main_v65_0, NRe_at, V3_v59_apply0, V3_v59_apply1, V3_v59_apply2, V3_v59_apply3,
    V3_v64_apply0, V3_v64_apply1, V3_v64_apply2, V3_v64_apply3]
  simp only [out0_at, out1_at, out2_at, out3_at]
  rfl

/-- The imaginary sheet of the kernel's result at (n, h). -/
theorem kernel_im (n : Fin 98304) (h : Fin 64) :
    (Gen.V5 m (regionOuts m ρ) c main_v68 : S98304x64x2.Idx → EReal) (ix3 n h (1 : Fin 2))
      = kIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n h := by
  rw [V5_v68_apply1, out_main_v65_1, NIm_at, V3_v59_apply0, V3_v59_apply1, V3_v59_apply2, V3_v59_apply3,
    V3_v64_apply0, V3_v64_apply1, V3_v64_apply2, V3_v64_apply3]
  simp only [out0_at, out1_at, out2_at, out3_at]
  rfl

end Kernel

end Cert.Meet

end
-- ==== Proof.FiniteInputs.lean ====
/-
  Finite inputs are real numbers.

  The precondition says, of each of the seven float arrays, that every entry x has |x| < +∞, and joins the seven
  statements by "and". On the extended reals |x| = max(x, −x), and max(x, −x) < +∞ excludes both x = +∞ and x = −∞:
  what is left is the coercion of a real number. Reading the printed predicate back — the conjunction bit by bit, each
  "for all" as a reduction by "and" that came out 1, each comparison at an index — gives exactly that for every entry
  of every array.
-/
import proofs.«140219_j61804579389717_1_alg».proof.Pre_finite_inputs
import Idealize.ShloMosaic.Lib.ReduceAll
import Idealize.ShloMosaic.Lib.ValueIdx
import Idealize.ShloMosaic.PureOps.Ideal
import proofs.«140219_j61804579389717_1_alg».proof.Proof.LibFiniteReals

noncomputable section

namespace Cert.FiniteInputs

open Idealize.ShloMosaic Cert.Law Cert.Pre_finite_inputs

/-- The scalar shape has one index. -/
instance : Subsingleton S_.Idx := ⟨fun a b => funext fun d => d.elim0⟩

/-- The f32 word 0x7F800000 is +∞. -/
theorem ofBits_inf_f32 : Ideal.ofBits .f32 0x7F800000#32 = ⊤ := by simp [Ideal.ofBits, Ideal.ieee]

/-- A truth value's bit is 1 exactly when it is true. -/
theorem ofBool_eq_one {b : Bool} : BitVec.ofBool b = 1#1 ↔ b = true := by cases b <;> decide

/-- An extended real whose absolute value is below +∞ is a real number. -/
theorem isR_of_abs_lt_top (x : EReal) (h : max x (-x) < ⊤) : IsR x := by
  induction x using EReal.rec with
  | bot => simp at h
  | coe r => exact ⟨r, rfl⟩
  | top => simp at h

/-- ONE ENTRY: where the mask "|x| < +∞" holds the bit 1, the entry is a real number. -/
theorem isR_of_mask {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    IsR (x i) := by
  have h' : BitVec.ofBool (decide (max (x i) (-(x i)) < Ideal.ofBits .f32 0x7F800000#32)) = 1#1 := h
  rw [ofBits_inf_f32] at h'
  exact isR_of_abs_lt_top (x i) (of_decide_eq_true (ofBool_eq_one.mp h'))

/-- THE PRECONDITION, READ BACK: every entry of each of the seven float arrays is a real number. -/
theorem finite_of_pre [Facts] (x0 x1 : FVec Ideal S98304x1 .f32) (x2 : IVec S2x1572864 32) (x3 : FVec Ideal S1572864 .f32)
    (x4 : IVec S98304 32) (x5 x6 x7 x8 : FVec Ideal S64x1 .f32)
    (h : fn (F := Ideal) x0 x1 x2 x3 x4 x5 x6 x7 x8 = fun _ => 1#1) :
    (∀ i, IsR (x0 i)) ∧ (∀ i, IsR (x1 i)) ∧ (∀ i, IsR (x3 i)) ∧ (∀ i, IsR (x5 i)) ∧ (∀ i, IsR (x6 i))
      ∧ (∀ i, IsR (x7 i)) ∧ (∀ i, IsR (x8 i)) := by
  have h0 := congrFun h ValueIdx.ix0
  dsimp only [fn, fn_part1] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e3⟩ := IntOp.andi_eq_one.1 h0
  obtain ⟨e0, e1⟩ := IntOp.andi_eq_one.1 h0
  exact ⟨fun i => isR_of_mask x0 _ i (Host.reduce_andi_all _ _ _ _ _ e0 i),
    fun i => isR_of_mask x1 _ i (Host.reduce_andi_all _ _ _ _ _ e1 i),
    fun i => isR_of_mask x3 _ i (Host.reduce_andi_all _ _ _ _ _ e3 i),
    fun i => isR_of_mask x5 _ i (Host.reduce_andi_all _ _ _ _ _ e5 i),
    fun i => isR_of_mask x6 _ i (Host.reduce_andi_all _ _ _ _ _ e6 i),
    fun i => isR_of_mask x7 _ i (Host.reduce_andi_all _ _ _ _ _ e7 i),
    fun i => isR_of_mask x8 _ i (Host.reduce_andi_all _ _ _ _ _ e8 i)⟩

end Cert.FiniteInputs

end
-- ==== Proof.lean ====
/-
  The certificate's claim: the kernel program (as printed, and idealized) and the reference each run to the end
  without fault and leave their arguments unchanged; the idealization rewrote nothing; and at the ideal instance the
  kernel's result equals the reference's whenever every float input is finite.

  The kernel program is two kernel regions among three stretches of host operations: its run is followed through the
  boundary contents (WholeRun, Boundaries); the first region leaves the per-edge products (EdgeArrays), the host
  scatter-adds them into per-node sums and stacks them (HostAtIndex), the second region forms the outer products with
  the weight rows, the activation and the sum of the two branches (NodeArrays). The reference is read at an index
  (RefAtIndex). The two results agree because a finite sum is linear (KernelMeetsReference), every input being a
  real number under the precondition (FiniteInputs).
-/
import proofs.«140219_j61804579389717_1_alg».proof.Defs
import proofs.«140219_j61804579389717_1_alg».proof.Proof.Gen.Kernel
import proofs.«140219_j61804579389717_1_alg».proof.Proof.Gen.KernelIdeal
import proofs.«140219_j61804579389717_1_alg».proof.Proof.Gen.ReferenceIdeal
import proofs.«140219_j61804579389717_1_alg».proof.Proof.Gen.Pre_finite_inputs
import proofs.«140219_j61804579389717_1_alg».proof.Proof.Gen.ReferenceIdeal.Run
import proofs.«140219_j61804579389717_1_alg».proof.Proof.Gen.ReferenceIdeal.Read
import proofs.«140219_j61804579389717_1_alg».proof.Proof.BoundariesBits
import proofs.«140219_j61804579389717_1_alg».proof.Proof.Boundaries
import proofs.«140219_j61804579389717_1_alg».proof.Proof.KernelMeetsReference
import proofs.«140219_j61804579389717_1_alg».proof.Proof.FiniteInputs
import Idealize.ShloMosaic.Adequacy
import Idealize.ShloMosaic.Init

noncomputable section

namespace Cert.Proof

open Idealize.ShloMosaic Idealize.ShloMosaic.ValueIdx Idealize.SL.Sem

/-- The printed kernel program runs and leaves its arguments unchanged. -/
theorem frame_kernel : Cert.frame_Kernel := fun m ρ _ => Cert.Kernel.Pipes.frame m ρ

/-- So does the idealized kernel program. -/
theorem frame_kernelIdeal : Cert.frame_KernelIdeal := fun m ρ _ => Cert.KernelIdeal.Pipes.frame m ρ

/-- The reference is a host program: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments, both programs end with the same result array:
    entry (n, h, k) of either is silu of the local branch's sum plus silu of the global branch's, the real parts at
    k = 0 and the imaginary parts at k = 1. -/
theorem algebraic : Cert.algebraic_KernelIdeal_ReferenceIdeal := by
  intro m ρ m' ρ' hpre hagree
  refine ⟨_, Cert.KernelIdeal.Pipes.run_read m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v101_eq, h0, h1, h2, h3, h4, h5, h6, h7, h8]
  obtain ⟨f0, f1, f3, f5, f6, f7, f8⟩ := Cert.FiniteInputs.finite_of_pre _ _ _ _ _ _ _ _ _ (hpre c)
  funext i
  obtain ⟨n, h, k, rfl⟩ : ∃ (n : Fin 98304) (h : Fin 64) (k : Fin 2), i = ix3 n h k := ⟨i 0, i 1, i 2, eq_ix3 i⟩
  match k with
  | ⟨0, _⟩ =>
    exact (Cert.RefAtIndex.ref_re _ _ _ _ _ _ _ _ _ n h).trans
      ((Cert.Meet.kRe_eq _ _ _ _ _ _ _ _ _ f0 f1 f3 f5 f6 f7 f8 n h).symm.trans (Cert.Meet.kernel_re m ρ c n h).symm)
  | ⟨1, _⟩ =>
    exact (Cert.RefAtIndex.ref_im _ _ _ _ _ _ _ _ _ n h).trans
      ((Cert.Meet.kIm_eq _ _ _ _ _ _ _ _ _ f0 f1 f3 f5 f6 f7 f8 n h).symm.trans (Cert.Meet.kernel_im m ρ c n h).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
